-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v19) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v81) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S384x3 : Shape := ⟨2, ![384, 3]⟩
abbrev S384 : Shape := ⟨1, ![384]⟩
abbrev S4096x128 : Shape := ⟨2, ![4096, 128]⟩
abbrev S4096x3 : Shape := ⟨2, ![4096, 3]⟩
abbrev S4096 : Shape := ⟨1, ![4096]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel
  bcast_S_S384x3 : S_.BroadcastsInDim S384x3 (![] : Fin 0 → Fin S384x3.rank)
  reducesTo_S384x3_S_d0_1 : S384x3.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x3 : S_.BroadcastsInDim S4096x3 (![] : Fin 0 → Fin S4096x3.rank)
  reducesTo_S4096x3_S_d0_1 : S4096x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10x128 .f32) (main_arg17 : FVec F S10 .f32) (main_v63 : IVec S_ 1) (main_v67 : IVec S_ 1) : IVec S_ 1 :=
  let main_v68 : IVec S_ 1 := andi main_v63 main_v67
  let main_v69 : FVec F S10x128 .f32 := Host.absf main_arg16
  let main_cst_26 : FVec F S_ .f32 := constant S_ .f32 0x7F800000#32
  let main_v70 : FVec F S10x128 .f32 := broadcastInDim S10x128 ![] bcast_S_S10x128 main_cst_26
  let main_v71 : IVec S10x128 1 := cmpf .olt main_v69 main_v70
  let main_c_27 : IVec S_ 1 := constantI S_ 1 1#1
  let main_v72 : IVec S_ 1 := (fun x v => Host.reduce IntOp.andi x v reducesTo_S10x128_S_d0_1 h_S_) main_v71 main_c_27
  let main_v73 : IVec S_ 1 := andi main_v68 main_v72
  let main_v74 : FVec F S10 .f32 := Host.absf main_arg17
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg13 : FVec F S10 .f32) (main_arg14 : FVec F S10x128 .f32) (main_arg15 : FVec F S10 .f32) (main_arg16 : FVec F S10x128 .f32) (main_arg17 : FVec F S10 .f32) (main_v48 : IVec S_ 1) (main_v49 : FVec F S10x128 .f32) (main_v50 : FVec F S10x128 .f32) : IVec S_ 1 :=
  let main_v51 : IVec S10x128 1 := cmpf .olt main_v49 main_v50
  let main_c_19 : IVec S_ 1 := constantI S_ 1 1#1
  let main_v52 : IVec S_ 1 := (fun x v => Host.reduce IntOp.andi x v reducesTo_S10x128_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x128 .f32 := Host.absf main_arg14
  let main_cst_22 : FVec F S_ .f32 := constant S_ .f32 0x7F800000#32
  let main_v60 : FVec F S10x128 .f32 := broadcastInDim S10x128 ![] bcast_S_S10x128 main_cst_22
  let main_v61 : IVec S10x128 1 := cmpf .olt main_v59 main_v60
  let main_c_23 : IVec S_ 1 := constantI S_ 1 1#1
  let main_v62 : IVec S_ 1 := (fun x v => Host.reduce IntOp.andi x v reducesTo_S10x128_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg16 main_arg17 main_v63 main_v67

def fn_part2 {F : FTy → Type} [FloatOps F] (main_arg9 : FVec F S128 .f32) (main_arg10 : FVec F S128 .f32) (main_arg11 : FVec F S128 .f32) (main_arg12 : FVec F S10x128 .f32) (main_arg13 : FVec F S10 .f32) (main_arg14 : FVec F S10x128 .f32) (main_arg15 : FVec F S10 .f32) (main_arg16 : FVec F S10x128 .f32) (main_arg17 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S10x128 .f32 := Host.absf main_arg12
  let main_cst_18 : FVec F S_ .f32 := constant S_ .f32 0x7F800000#32
  let main_v50 : FVec F S10x128 .f32 := broadcastInDim S10x128 ![] bcast_S_S10x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S10x128 .f32) (main_arg13 : FVec F S10 .f32) (main_arg14 : FVec F S10x128 .f32) (main_arg15 : FVec F S10 .f32) (main_arg16 : FVec F S10x128 .f32) (main_arg17 : FVec F S10 .f32) (main_v13 : IVec S_ 1) (main_v16 : IVec S4096x3 1) : IVec S_ 1 :=
  let main_c_5 : IVec S_ 1 := constantI S_ 1 1#1
  let main_v17 : IVec S_ 1 := (fun x v => Host.reduce IntOp.andi x v reducesTo_S4096x3_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S384x128 .f32) (main_arg1 : FVec F S384x3 .f32) (main_arg2 : IVec S384 32) (main_arg3 : FVec F S4096x128 .f32) (main_arg4 : FVec F S4096x3 .f32) (main_arg5 : IVec S4096 32) (main_arg6 : FVec F S128x128 .f32) (main_arg7 : FVec F S128 .f32) (main_arg8 : FVec F S128 .f32) (main_arg9 : FVec F S128 .f32) (main_arg10 : FVec F S128 .f32) (main_arg11 : FVec F S128 .f32) (main_arg12 : FVec F S10x128 .f32) (main_arg13 : FVec F S10 .f32) (main_arg14 : FVec F S10x128 .f32) (main_arg15 : FVec F S10 .f32) (main_arg16 : FVec F S10x128 .f32) (main_arg17 : FVec F S10 .f32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S384x3 .f32 := Host.absf main_arg1
  let main_cst_0 : FVec F S_ .f32 := constant S_ .f32 0x7F800000#32
  let main_v5 : FVec F S384x3 .f32 := broadcastInDim S384x3 ![] bcast_S_S384x3 main_cst_0
  let main_v6 : IVec S384x3 1 := cmpf .olt main_v4 main_v5
  let main_c_1 : IVec S_ 1 := constantI S_ 1 1#1
  let main_v7 : IVec S_ 1 := (fun x v => Host.reduce IntOp.andi x v reducesTo_S384x3_S_d0_1 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x3 .f32 := Host.absf main_arg4
  let main_cst_4 : FVec F S_ .f32 := constant S_ .f32 0x7F800000#32
  let main_v15 : FVec F S4096x3 .f32 := broadcastInDim S4096x3 ![] bcast_S_S4096x3 main_cst_4
  let main_v16 : IVec S4096x3 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S384x128 : Shape := ⟨2, ![384, 128]⟩
abbrev S384x3 : Shape := ⟨2, ![384, 3]⟩
abbrev S384 : Shape := ⟨1, ![384]⟩
abbrev S4096x128 : Shape := ⟨2, ![4096, 128]⟩
abbrev S4096x3 : Shape := ⟨2, ![4096, 3]⟩
abbrev S4096 : Shape := ⟨1, ![4096]⟩
abbrev S128x128 : Shape := ⟨2, ![128, 128]⟩
abbrev S128 : Shape := ⟨1, ![128]⟩
abbrev S10x128 : Shape := ⟨2, ![10, 128]⟩
abbrev S10 : Shape := ⟨1, ![10]⟩
abbrev S8x48x128 : Shape := ⟨3, ![8, 48, 128]⟩
abbrev S8x512x128 : Shape := ⟨3, ![8, 512, 128]⟩
abbrev S8x48x3 : Shape := ⟨3, ![8, 48, 3]⟩
abbrev S8x512x3 : Shape := ⟨3, ![8, 512, 3]⟩
abbrev S8x10x48x512 : Shape := ⟨4, ![8, 10, 48, 512]⟩
abbrev S8x48x512 : Shape := ⟨3, ![8, 48, 512]⟩
abbrev S1x48x128 : Shape := ⟨3, ![1, 48, 128]⟩
abbrev S1x48x3 : Shape := ⟨3, ![1, 48, 3]⟩
abbrev S1x128x128 : Shape := ⟨3, ![1, 128, 128]⟩
abbrev S1x128x3 : Shape := ⟨3, ![1, 128, 3]⟩
abbrev S1x10x48x128 : Shape := ⟨4, ![1, 10, 48, 128]⟩
abbrev S48x128 : Shape := ⟨2, ![48, 128]⟩
abbrev S48x1x128 : Shape := ⟨3, ![48, 1, 128]⟩
abbrev S48x128x128 : Shape := ⟨3, ![48, 128, 128]⟩
abbrev S6144x128 : Shape := ⟨2, ![6144, 128]⟩
abbrev S1x128 : Shape := ⟨2, ![1, 128]⟩
abbrev S10x6144 : Shape := ⟨2, ![10, 6144]⟩
abbrev S10x1 : Shape := ⟨2, ![10, 1]⟩
abbrev S6144 : Shape := ⟨1, ![6144]⟩
abbrev S1x6144 : Shape := ⟨2, ![1, 6144]⟩
abbrev S10x48x128 : Shape := ⟨3, ![10, 48, 128]⟩
abbrev S48x3 : Shape := ⟨2, ![48, 3]⟩
abbrev S128x3 : Shape := ⟨2, ![128, 3]⟩
abbrev S48x1x3 : Shape := ⟨3, ![48, 1, 3]⟩
abbrev S48x128x3 : Shape := ⟨3, ![48, 128, 3]⟩
abbrev S8x48x512x10 : Shape := ⟨4, ![8, 48, 512, 10]⟩
abbrev S196608x10 : Shape := ⟨2, ![196608, 10]⟩
abbrev S196608x1 : Shape := ⟨2, ![196608, 1]⟩
abbrev S8 : Shape := ⟨1, ![8]⟩
abbrev S8x24576 : Shape := ⟨2, ![8, 24576]⟩
abbrev S196608 : Shape := ⟨1, ![196608]⟩

abbrev nBuf : Space → Nat
  | .hbm => 41
  | .vmem => 28
  | .smem => 0
  | _ => 0

abbrev bufTy : (tb : Table) → Fin (tcTables nBuf tb) → BufTy
  | .hbm, ⟨0, _⟩ => ⟨S384x128, .f32⟩
  | .hbm, ⟨1, _⟩ => ⟨S384x3, .f32⟩
  | .hbm, ⟨2, _⟩ => ⟨S384, .i32⟩
  | .hbm, ⟨3, _⟩ => ⟨S4096x128, .f32⟩
  | .hbm, ⟨4, _⟩ => ⟨S4096x3, .f32⟩
  | .hbm, ⟨5, _⟩ => ⟨S4096, .i32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S10x128, .f32⟩
  | .hbm, ⟨13, _⟩ => ⟨S10, .f32⟩
  | .hbm, ⟨14, _⟩ => ⟨S10x128, .f32⟩
  | .hbm, ⟨15, _⟩ => ⟨S10, .f32⟩
  | .hbm, ⟨16, _⟩ => ⟨S10x128, .f32⟩
  | .hbm, ⟨17, _⟩ => ⟨S10, .f32⟩
  | .hbm, ⟨18, _⟩ => ⟨S8x48x128, .f32⟩
  | .hbm, ⟨19, _⟩ => ⟨S8x512x128, .f32⟩
  | .hbm, ⟨20, _⟩ => ⟨S8x48x3, .f32⟩
  | .hbm, ⟨21, _⟩ => ⟨S8x512x3, .f32⟩
  | .hbm, ⟨22, _⟩ => ⟨S128x128, .f32⟩
  | .hbm, ⟨23, _⟩ => ⟨S128x128, .bf16⟩
  | .hbm, ⟨24, _⟩ => ⟨S10x128, .bf16⟩
  | .hbm, ⟨25, _⟩ => ⟨S10x128, .bf16⟩
  | .hbm, ⟨26, _⟩ => ⟨S10x128, .bf16⟩
  | .hbm, ⟨27, _⟩ => ⟨S8x10x48x512, .f32⟩
  | .hbm, ⟨28, _⟩ => ⟨S8x10x48x512, .f32⟩
  | .hbm, ⟨29, _⟩ => ⟨S8x10x48x512, .f32⟩
  | .hbm, ⟨30, _⟩ => ⟨S8x48x512, .f32⟩
  | .hbm, ⟨31, _⟩ => ⟨S8x48x512x10, .f32⟩
  | .hbm, ⟨32, _⟩ => ⟨S196608x10, .f32⟩
  | .hbm, ⟨33, _⟩ => ⟨S8x48x512x10, .f32⟩
  | .hbm, ⟨34, _⟩ => ⟨S196608x10, .f32⟩
  | .hbm, ⟨35, _⟩ => ⟨S8x48x512x10, .f32⟩
  | .hbm, ⟨36, _⟩ => ⟨S196608x10, .f32⟩
  | .hbm, ⟨37, _⟩ => ⟨S196608x1, .f32⟩
  | .hbm, ⟨38, _⟩ => ⟨S8, .i32⟩
  | .hbm, ⟨39, _⟩ => ⟨S8x24576, .i32⟩
  | .hbm, ⟨40, _⟩ => ⟨S196608, .i32⟩
  | .local _ .vmem, ⟨0, _⟩ => ⟨S1x48x128, .f32⟩
  | .local _ .vmem, ⟨1, _⟩ => ⟨S1x48x128, .f32⟩
  | .local _ .vmem, ⟨2, _⟩ => ⟨S1x48x3, .f32⟩
  | .local _ .vmem, ⟨3, _⟩ => ⟨S1x48x3, .f32⟩
  | .local _ .vmem, ⟨4, _⟩ => ⟨S1x128x128, .f32⟩
  | .local _ .vmem, ⟨5, _⟩ => ⟨S1x128x128, .f32⟩
  | .local _ .vmem, ⟨6, _⟩ => ⟨S1x128x3, .f32⟩
  | .local _ .vmem, ⟨7, _⟩ => ⟨S1x128x3, .f32⟩
  | .local _ .vmem, ⟨8, _⟩ => ⟨S128x128, .bf16⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S10x128, .bf16⟩
  | .local _ .vmem, ⟨15, _⟩ => ⟨S10, .f32⟩
  | .local _ .vmem, ⟨16, _⟩ => ⟨S10x128, .bf16⟩
  | .local _ .vmem, ⟨17, _⟩ => ⟨S10, .f32⟩
  | .local _ .vmem, ⟨18, _⟩ => ⟨S10x128, .bf16⟩
  | .local _ .vmem, ⟨19, _⟩ => ⟨S10, .f32⟩
  | .local _ .vmem, ⟨20, _⟩ => ⟨S1x10x48x128, .f32⟩
  | .local _ .vmem, ⟨21, _⟩ => ⟨S1x10x48x128, .f32⟩
  | .local _ .vmem, ⟨22, _⟩ => ⟨S1x10x48x128, .f32⟩
  | .local _ .vmem, ⟨23, _⟩ => ⟨S1x10x48x128, .f32⟩
  | .local _ .vmem, ⟨24, _⟩ => ⟨S1x10x48x128, .f32⟩
  | .local _ .vmem, ⟨25, _⟩ => ⟨S1x10x48x128, .f32⟩
  | .local _ .vmem, ⟨26, _⟩ => ⟨S1x48x128, .f32⟩
  | .local _ .vmem, ⟨27, _⟩ => ⟨S1x48x128, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x48x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x48x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S10x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S10x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S10x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S10 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x10x48x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x10x48x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x10x48x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x48x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

class Facts₀ : Prop where
  shapeCasts_S384x128_S8x48x128 : S384x128.ShapeCasts S8x48x128
  shapeCasts_S4096x128_S8x512x128 : S4096x128.ShapeCasts S8x512x128
  shapeCasts_S384x3_S8x48x3 : S384x3.ShapeCasts S8x48x3
  shapeCasts_S4096x3_S8x512x3 : S4096x3.ShapeCasts S8x512x3
  transposes_S128x128_S128x128_1_0 : S128x128.Transposes [1, 0] S128x128
  bitsLt_bf16_f32 : FTy.bits .bf16 < FTy.bits .f32
  inb_S1x48x128_S1x48x128_0_0_0 : ∀ a, (![0, 0, 0] : Fin 3 → Nat) a + S1x48x128.size a ≤ S1x48x128.size a
  h_S1x48x128 : 0 < S1x48x128.numel
  shapeCasts_S1x48x128_S48x128 : S1x48x128.ShapeCasts S48x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S48x128_S48x1x128 : S48x128.ShapeCasts S48x1x128
  shapeCasts_S128x128_S1x128x128 : S128x128.ShapeCasts S1x128x128
  broadcasts_S48x1x128_S48x128x128 : S48x1x128.Broadcasts S48x128x128
  broadcasts_S1x128x128_S48x128x128 : S1x128x128.Broadcasts S48x128x128
  shapeCasts_S48x128x128_S6144x128 : S48x128x128.ShapeCasts S6144x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S6144x128 : S1x128.Broadcasts S6144x128
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S10_S10_0 : ∀ a, (![0] : Fin 1 → Nat) a + S10.size a ≤ S10.size a
  h_S10 : 0 < S10.numel
  shapeCasts_S10_S10x1 : S10.ShapeCasts S10x1
  broadcasts_S10x1_S10x6144 : S10x1.Broadcasts S10x6144
  reduces_S10x6144_S6144 : S10x6144.Reduces [0] S6144
  shapeCasts_S6144_S1x6144 : S6144.ShapeCasts S1x6144
  broadcasts_S1x6144_S10x6144 : S1x6144.Broadcasts S10x6144
  shapeCasts_S10x6144_S10x48x128 : S10x6144.ShapeCasts S10x48x128
  inb_S1x10x48x128_S1x10x48x128_0_0_0_0 : ∀ a, (![0, 0, 0, 0] : Fin 4 → Nat) a + S1x10x48x128.size a ≤ S1x10x48x128.size a
  h_S1x10x48x128 : 0 < S1x10x48x128.numel
  shapeCasts_S1x10x48x128_S10x48x128 : S1x10x48x128.ShapeCasts S10x48x128
  shapeCasts_S10x48x128_S1x10x48x128 : S10x48x128.ShapeCasts S1x10x48x128
  inb_S1x48x3_S1x48x3_0_0_0 : ∀ a, (![0, 0, 0] : Fin 3 → Nat) a + S1x48x3.size a ≤ S1x48x3.size a
  h_S1x48x3 : 0 < S1x48x3.numel
  shapeCasts_S1x48x3_S48x3 : S1x48x3.ShapeCasts S48x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  shapeCasts_S48x3_S48x1x3 : S48x3.ShapeCasts S48x1x3
  shapeCasts_S128x3_S1x128x3 : S128x3.ShapeCasts S1x128x3
  broadcasts_S48x1x3_S48x128x3 : S48x1x3.Broadcasts S48x128x3
  broadcasts_S1x128x3_S48x128x3 : S1x128x3.Broadcasts S48x128x3
  reduces_S48x128x3_S48x128 : S48x128x3.Reduces [2] S48x128
  shapeCasts_S48x128_S1x48x128 : S48x128.ShapeCasts S1x48x128
  transposes_S8x10x48x512_S8x48x512x10_0_2_3_1 : S8x10x48x512.Transposes [0, 2, 3, 1] S8x48x512x10
  shapeCasts_S8x48x512x10_S196608x10 : S8x48x512x10.ShapeCasts S196608x10
  shapeCasts_S8x48x512_S196608x1 : S8x48x512.ShapeCasts S196608x1
  bcast_S8_S8x24576_0 : S8.BroadcastsInDim S8x24576 (![0] : Fin 1 → Fin S8x24576.rank)
  shapeCasts_S8x24576_S196608 : S8x24576.ShapeCasts S196608
  dot_S6144x128_S128x128_S6144x128_1_0_0_1_n_n_wf : DotDims.WF S6144x128 S128x128 S6144x128 [1] [0] [0] [1] [] []
  dot_S10x128_S6144x128_S10x6144_1_1_0_0_n_n_wf : DotDims.WF S10x128 S6144x128 S10x6144 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x48x128.size a ≤ S8x48x128.size a
  hwx0_0 : ∀ i : grid0.Coords, EltTy.bits .f32 = 32 ∨ (Rect.block (s := S8x48x128) S1x48x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x48x3.size a ≤ S8x48x3.size a
  hwx0_1 : ∀ i : grid0.Coords, EltTy.bits .f32 = 32 ∨ (Rect.block (s := S8x48x3) S1x48x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S8x512x128.size a
  hwx0_2 : ∀ i : grid0.Coords, EltTy.bits .f32 = 32 ∨ (Rect.block (s := S8x512x128) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x3.size a ≤ S8x512x3.size a
  hwx0_3 : ∀ i : grid0.Coords, EltTy.bits .f32 = 32 ∨ (Rect.block (s := S8x512x3) S1x128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10x128.size a ≤ S10x128.size a
  hwx0_10 : ∀ i : grid0.Coords, EltTy.bits .bf16 = 32 ∨ (Rect.block (s := S10x128) S10x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10.size a ≤ S10.size a
  hwx0_11 : ∀ i : grid0.Coords, EltTy.bits .f32 = 32 ∨ (Rect.block (s := S10) S10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S10x128.size a ≤ S10x128.size a
  hwx0_12 : ∀ i : grid0.Coords, EltTy.bits .bf16 = 32 ∨ (Rect.block (s := S10x128) S10x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10.size a ≤ S10.size a
  hwx0_13 : ∀ i : grid0.Coords, EltTy.bits .f32 = 32 ∨ (Rect.block (s := S10) S10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S10x128.size a ≤ S10x128.size a
  hwx0_14 : ∀ i : grid0.Coords, EltTy.bits .bf16 = 32 ∨ (Rect.block (s := S10x128) S10x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S10.size a ≤ S10.size a
  hwx0_15 : ∀ i : grid0.Coords, EltTy.bits .f32 = 32 ∨ (Rect.block (s := S10) S10.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x10x48x128.size a ≤ S8x10x48x512.size a
  hwx0_16 : ∀ i : grid0.Coords, EltTy.bits .f32 = 32 ∨ (Rect.block (s := S8x10x48x512) S1x10x48x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x10x48x128.size a ≤ S8x10x48x512.size a
  hwx0_17 : ∀ i : grid0.Coords, EltTy.bits .f32 = 32 ∨ (Rect.block (s := S8x10x48x512) S1x10x48x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x10x48x128.size a ≤ S8x10x48x512.size a
  hwx0_18 : ∀ i : grid0.Coords, EltTy.bits .f32 = 32 ∨ (Rect.block (s := S8x10x48x512) S1x10x48x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x48x128.size a ≤ S8x48x512.size a
  hwx0_19 : ∀ i : grid0.Coords, EltTy.bits .f32 = 32 ∨ (Rect.block (s := S8x48x512) S1x48x128.size (cc0_transform_19 i) (hinb0_19 i)).WholeWords (EltTy.packing .f32)

variable [Facts₀]

def dot_S6144x128_S128x128_S6144x128_1_0_0_1_n_n : DotDims S6144x128 S128x128 S6144x128 where
  lhsContracting := [1]
  rhsContracting := [0]
  lhsNonContracting := [0]
  rhsNonContracting := [1]
  lhsBatch := []
  rhsBatch := []
  wf := dot_S6144x128_S128x128_S6144x128_1_0_0_1_n_n_wf
def dot_S10x128_S6144x128_S10x6144_1_1_0_0_n_n : DotDims S10x128 S6144x128 S10x6144 where
  lhsContracting := [1]
  rhsContracting := [1]
  lhsNonContracting := [0]
  rhsNonContracting := [0]
  lhsBatch := []
  rhsBatch := []
  wf := dot_S10x128_S6144x128_S10x6144_1_1_0_0_n_n_wf

abbrev win0_0 : Pipeline.Window sig grid0 :=
  Pipeline.Window.ofSpec (Memref.whole main_v0) S1x48x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x48x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S10x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S10x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v8) S10x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S10.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9_0) S1x10x48x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v9_1) S1x10x48x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v9_2) S1x10x48x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v9_3) S1x48x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S384x128 : Shape := ⟨2, ![384, 128]⟩
abbrev S384x3 : Shape := ⟨2, ![384, 3]⟩
abbrev S384 : Shape := ⟨1, ![384]⟩
abbrev S4096x128 : Shape := ⟨2, ![4096, 128]⟩
abbrev S4096x3 : Shape := ⟨2, ![4096, 3]⟩
abbrev S4096 : Shape := ⟨1, ![4096]⟩
abbrev S128x128 : Shape := ⟨2, ![128, 128]⟩
abbrev S128 : Shape := ⟨1, ![128]⟩
abbrev S10x128 : Shape := ⟨2, ![10, 128]⟩
abbrev S10 : Shape := ⟨1, ![10]⟩
abbrev S8x48x128 : Shape := ⟨3, ![8, 48, 128]⟩
abbrev S8x512x128 : Shape := ⟨3, ![8, 512, 128]⟩
abbrev S8x48x1x128 : Shape := ⟨4, ![8, 48, 1, 128]⟩
abbrev S8x1x512x128 : Shape := ⟨4, ![8, 1, 512, 128]⟩
abbrev S8x48x512x128 : Shape := ⟨4, ![8, 48, 512, 128]⟩
abbrev S196608x128 : Shape := ⟨2, ![196608, 128]⟩
abbrev S1x128 : Shape := ⟨2, ![1, 128]⟩
abbrev S_ : Shape := ⟨0, ![]⟩
abbrev S128x10 : Shape := ⟨2, ![128, 10]⟩
abbrev S196608x10 : Shape := ⟨2, ![196608, 10]⟩
abbrev S1x10 : Shape := ⟨2, ![1, 10]⟩
abbrev S196608 : Shape := ⟨1, ![196608]⟩
abbrev S196608x1 : Shape := ⟨2, ![196608, 1]⟩
abbrev S8x48x3 : Shape := ⟨3, ![8, 48, 3]⟩
abbrev S8x512x3 : Shape := ⟨3, ![8, 512, 3]⟩
abbrev S8x48x512 : Shape := ⟨3, ![8, 48, 512]⟩
abbrev S8x512 : Shape := ⟨2, ![8, 512]⟩
abbrev S8x1x512 : Shape := ⟨3, ![8, 1, 512]⟩
abbrev S8x48 : Shape := ⟨2, ![8, 48]⟩
abbrev S8x48x1 : Shape := ⟨3, ![8, 48, 1]⟩
abbrev S8 : Shape := ⟨1, ![8]⟩
abbrev S8x24576 : Shape := ⟨2, ![8, 24576]⟩

abbrev nBuf : Space → Nat
  | .hbm => 151
  | .vmem => 0
  | .smem => 0
  | _ => 0

abbrev hbmTy0_0 (i : Nat) : BufTy := match i % 128 with
  | 0 => ⟨S384x128, .f32⟩
  | 1 => ⟨S384x3, .f32⟩
  | 2 => ⟨S384, .i32⟩
  | 3 => ⟨S4096x128, .f32⟩
  | 4 => ⟨S4096x3, .f32⟩
  | 5 => ⟨S4096, .i32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S10x128, .f32⟩
  | 13 => ⟨S10, .f32⟩
  | 14 => ⟨S10x128, .f32⟩
  | 15 => ⟨S10, .f32⟩
  | 16 => ⟨S10x128, .f32⟩
  | 17 => ⟨S10, .f32⟩
  | 18 => ⟨S8x48x128, .f32⟩
  | 19 => ⟨S8x512x128, .f32⟩
  | 20 => ⟨S8x48x1x128, .f32⟩
  | 21 => ⟨S8x1x512x128, .f32⟩
  | 22 => ⟨S8x48x512x128, .f32⟩
  | 23 => ⟨S8x48x512x128, .f32⟩
  | 24 => ⟨S8x48x512x128, .f32⟩
  | 25 => ⟨S196608x128, .f32⟩
  | 26 => ⟨S128x128, .f32⟩
  | 27 => ⟨S196608x128, .f32⟩
  | 28 => ⟨S1x128, .f32⟩
  | 29 => ⟨S196608x128, .f32⟩
  | 30 => ⟨S196608x128, .f32⟩
  | 31 => ⟨S1x128, .f32⟩
  | 32 => ⟨S196608x128, .f32⟩
  | 33 => ⟨S196608x128, .f32⟩
  | 34 => ⟨S_, .f32⟩
  | 35 => ⟨S128, .f32⟩
  | 36 => ⟨S128, .f32⟩
  | 37 => ⟨S128, .f32⟩
  | 38 => ⟨S1x128, .f32⟩
  | 39 => ⟨S196608x128, .f32⟩
  | 40 => ⟨S196608x128, .f32⟩
  | 41 => ⟨S1x128, .f32⟩
  | 42 => ⟨S196608x128, .f32⟩
  | 43 => ⟨S196608x128, .f32⟩
  | 44 => ⟨S1x128, .f32⟩
  | 45 => ⟨S196608x128, .f32⟩
  | 46 => ⟨S196608x128, .f32⟩
  | 47 => ⟨S_, .f32⟩
  | 48 => ⟨S196608x128, .f32⟩
  | 49 => ⟨S196608x128, .i1⟩
  | 50 => ⟨S_, .f32⟩
  | 51 => ⟨S196608x128, .f32⟩
  | 52 => ⟨S196608x128, .i1⟩
  | 53 => ⟨S_, .f32⟩
  | 54 => ⟨S_, .f32⟩
  | 55 => ⟨S196608x128, .f32⟩
  | 56 => ⟨S196608x128, .f32⟩
  | 57 => ⟨S196608x128, .f32⟩
  | 58 => ⟨S_, .f32⟩
  | 59 => ⟨S196608x128, .f32⟩
  | 60 => ⟨S196608x128, .f32⟩
  | 61 => ⟨S196608x128, .f32⟩
  | 62 => ⟨S128x10, .f32⟩
  | 63 => ⟨S196608x10, .f32⟩
  | 64 => ⟨S1x10, .f32⟩
  | 65 => ⟨S196608x10, .f32⟩
  | 66 => ⟨S196608x10, .f32⟩
  | 67 => ⟨S_, .f32⟩
  | 68 => ⟨S196608, .f32⟩
  | 69 => ⟨S_, .f32⟩
  | 70 => ⟨S196608, .f32⟩
  | 71 => ⟨S196608, .f32⟩
  | 72 => ⟨S196608x1, .f32⟩
  | 73 => ⟨S196608x10, .f32⟩
  | 74 => ⟨S196608x10, .f32⟩
  | 75 => ⟨S196608x10, .f32⟩
  | 76 => ⟨S_, .f32⟩
  | 77 => ⟨S196608, .f32⟩
  | 78 => ⟨S196608x1, .f32⟩
  | 79 => ⟨S196608x10, .f32⟩
  | 80 => ⟨S196608x10, .f32⟩
  | 81 => ⟨S128x10, .f32⟩
  | 82 => ⟨S196608x10, .f32⟩
  | 83 => ⟨S1x10, .f32⟩
  | 84 => ⟨S196608x10, .f32⟩
  | 85 => ⟨S196608x10, .f32⟩
  | 86 => ⟨S_, .f32⟩
  | 87 => ⟨S196608x10, .f32⟩
  | 88 => ⟨S196608x10, .i1⟩
  | 89 => ⟨S_, .f32⟩
  | 90 => ⟨S196608x10, .f32⟩
  | 91 => ⟨S196608x10, .i1⟩
  | 92 => ⟨S_, .f32⟩
  | 93 => ⟨S_, .f32⟩
  | 94 => ⟨S196608x10, .f32⟩
  | 95 => ⟨S196608x10, .f32⟩
  | 96 => ⟨S196608x10, .f32⟩
  | 97 => ⟨S_, .f32⟩
  | 98 => ⟨S196608x10, .f32⟩
  | 99 => ⟨S196608x10, .f32⟩
  | 100 => ⟨S196608x10, .f32⟩
  | 101 => ⟨S_, .f32⟩
  | 102 => ⟨S196608x10, .f32⟩
  | 103 => ⟨S196608x10, .f32⟩
  | 104 => ⟨S128x10, .f32⟩
  | 105 => ⟨S196608x10, .f32⟩
  | 106 => ⟨S1x10, .f32⟩
  | 107 => ⟨S196608x10, .f32⟩
  | 108 => ⟨S196608x10, .f32⟩
  | 109 => ⟨S_, .f32⟩
  | 110 => ⟨S196608x10, .f32⟩
  | 111 => ⟨S196608x10, .i1⟩
  | 112 => ⟨S_, .f32⟩
  | 113 => ⟨S196608x10, .f32⟩
  | 114 => ⟨S196608x10, .i1⟩
  | 115 => ⟨S_, .f32⟩
  | 116 => ⟨S_, .f32⟩
  | 117 => ⟨S196608x10, .f32⟩
  | 118 => ⟨S196608x10, .f32⟩
  | 119 => ⟨S196608x10, .f32⟩
  | 120 => ⟨S_, .f32⟩
  | 121 => ⟨S196608x10, .f32⟩
  | 122 => ⟨S196608x10, .f32⟩
  | 123 => ⟨S196608x10, .f32⟩
  | 124 => ⟨S_, .f32⟩
  | 125 => ⟨S196608x10, .f32⟩
  | 126 => ⟨S196608x10, .f32⟩
  | 127 => ⟨S8x48x3, .f32⟩
  | _ => ⟨S384x128, .f32⟩

abbrev hbmTy0_1 (i : Nat) : BufTy := match i % 128 with
  | 0 => ⟨S8x512x3, .f32⟩
  | 1 => ⟨S8x48x512, .f32⟩
  | 2 => ⟨S_, .f32⟩
  | 3 => ⟨S8x48x512, .f32⟩
  | 4 => ⟨S8x48x512, .f32⟩
  | 5 => ⟨S8x512x3, .f32⟩
  | 6 => ⟨S_, .f32⟩
  | 7 => ⟨S8x512, .f32⟩
  | 8 => ⟨S8x1x512, .f32⟩
  | 9 => ⟨S8x48x512, .f32⟩
  | 10 => ⟨S8x48x512, .f32⟩
  | 11 => ⟨S8x48x3, .f32⟩
  | 12 => ⟨S_, .f32⟩
  | 13 => ⟨S8x48, .f32⟩
  | 14 => ⟨S8x48x1, .f32⟩
  | 15 => ⟨S8x48x512, .f32⟩
  | 16 => ⟨S8x48x512, .f32⟩
  | 17 => ⟨S8x48x512, .f32⟩
  | 18 => ⟨S196608, .f32⟩
  | 19 => ⟨S196608x1, .f32⟩
  | 20 => ⟨S8, .i32⟩
  | 21 => ⟨S8x24576, .i32⟩
  | 22 => ⟨S196608, .i32⟩
  | _ => ⟨S384x128, .f32⟩

abbrev hbmTy (i : Nat) : BufTy := match i / 128 with
  | 0 => hbmTy0_0 i
  | 1 => hbmTy0_1 i
  | _ => ⟨S384x128, .f32⟩

abbrev bufTy : (tb : Table) → Fin (tcTables nBuf tb) → BufTy
  | .hbm, ⟨i, _⟩ => hbmTy i
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_cst_1 : Ref sig .tc := ⟨.hbm, 53, rfl⟩
abbrev main_call0_call0_v0 : Ref sig .tc := ⟨.hbm, 54, rfl⟩
abbrev main_call0_call0_v1 : Ref sig .tc := ⟨.hbm, 55, rfl⟩
abbrev main_call0_v4 : Ref sig .tc := ⟨.hbm, 56, rfl⟩
abbrev main_call0_v5 : Ref sig .tc := ⟨.hbm, 57, rfl⟩
abbrev main_call0_cst_2 : Ref sig .tc := ⟨.hbm, 58, rfl⟩
abbrev main_call0_v6 : Ref sig .tc := ⟨.hbm, 59, rfl⟩
abbrev main_call0_v7 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_0 : Ref sig .tc := ⟨.hbm, 67, rfl⟩
abbrev main_v34 : Ref sig .tc := ⟨.hbm, 68, rfl⟩
abbrev main_cst_1 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_2 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_cst_0 : Ref sig .tc := ⟨.hbm, 89, rfl⟩
abbrev main_call1_v2 : Ref sig .tc := ⟨.hbm, 90, rfl⟩
abbrev main_call1_v3 : Ref sig .tc := ⟨.hbm, 91, rfl⟩
abbrev main_call1_cst_1 : Ref sig .tc := ⟨.hbm, 92, rfl⟩
abbrev main_call1_call0_v0 : Ref sig .tc := ⟨.hbm, 93, rfl⟩
abbrev main_call1_call0_v1 : Ref sig .tc := ⟨.hbm, 94, rfl⟩
abbrev main_call1_v4 : Ref sig .tc := ⟨.hbm, 95, rfl⟩
abbrev main_call1_v5 : Ref sig .tc := ⟨.hbm, 96, rfl⟩
abbrev main_call1_cst_2 : Ref sig .tc := ⟨.hbm, 97, rfl⟩
abbrev main_call1_v6 : Ref sig .tc := ⟨.hbm, 98, rfl⟩
abbrev main_call1_v7 : Ref sig .tc := ⟨.hbm, 99, rfl⟩
abbrev main_v50 : Ref sig .tc := ⟨.hbm, 100, rfl⟩
abbrev main_cst_3 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_call2_cst : Ref sig .tc := ⟨.hbm, 109, rfl⟩
abbrev main_call2_v0 : Ref sig .tc := ⟨.hbm, 110, rfl⟩
abbrev main_call2_v1 : Ref sig .tc := ⟨.hbm, 111, rfl⟩
abbrev main_call2_cst_0 : Ref sig .tc := ⟨.hbm, 112, rfl⟩
abbrev main_call2_v2 : Ref sig .tc := ⟨.hbm, 113, rfl⟩
abbrev main_call2_v3 : Ref sig .tc := ⟨.hbm, 114, rfl⟩
abbrev main_call2_cst_1 : Ref sig .tc := ⟨.hbm, 115, rfl⟩
abbrev main_call2_call0_v0 : Ref sig .tc := ⟨.hbm, 116, rfl⟩
abbrev main_call2_call0_v1 : Ref sig .tc := ⟨.hbm, 117, rfl⟩
abbrev main_call2_v4 : Ref sig .tc := ⟨.hbm, 118, rfl⟩
abbrev main_call2_v5 : Ref sig .tc := ⟨.hbm, 119, rfl⟩
abbrev main_call2_cst_2 : Ref sig .tc := ⟨.hbm, 120, rfl⟩
abbrev main_call2_v6 : Ref sig .tc := ⟨.hbm, 121, rfl⟩
abbrev main_call2_v7 : Ref sig .tc := ⟨.hbm, 122, rfl⟩
abbrev main_v58 : Ref sig .tc := ⟨.hbm, 123, rfl⟩
abbrev main_cst_4 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_cst_5 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_6 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_cst_7 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩

abbrev nD : Nat := 1
abbrev τ : Topo := Topo.v7x

variable {F : FTy → Type} [FloatOps F]

class Facts₀ : Prop where
  shapeCasts_S384x128_S8x48x128 : S384x128.ShapeCasts S8x48x128
  shapeCasts_S4096x128_S8x512x128 : S4096x128.ShapeCasts S8x512x128
  bcast_S8x48x128_S8x48x1x128_0_1_3 : S8x48x128.BroadcastsInDim S8x48x1x128 (![0, 1, 3] : Fin 3 → Fin S8x48x1x128.rank)
  bcast_S8x512x128_S8x1x512x128_0_2_3 : S8x512x128.BroadcastsInDim S8x1x512x128 (![0, 2, 3] : Fin 3 → Fin S8x1x512x128.rank)
  bcast_S8x48x1x128_S8x48x512x128_0_1_2_3 : S8x48x1x128.BroadcastsInDim S8x48x512x128 (![0, 1, 2, 3] : Fin 4 → Fin S8x48x512x128.rank)
  bcast_S8x1x512x128_S8x48x512x128_0_1_2_3 : S8x1x512x128.BroadcastsInDim S8x48x512x128 (![0, 1, 2, 3] : Fin 4 → Fin S8x48x512x128.rank)
  shapeCasts_S8x48x512x128_S196608x128 : S8x48x512x128.ShapeCasts S196608x128
  transposes_S128x128_S128x128_1_0 : S128x128.Transposes [1, 0] S128x128
  bcast_S128_S1x128_1 : S128.BroadcastsInDim S1x128 (![1] : Fin 1 → Fin S1x128.rank)
  bcast_S1x128_S196608x128_0_1 : S1x128.BroadcastsInDim S196608x128 (![0, 1] : Fin 2 → Fin S196608x128.rank)
  bcast_S_S128 : S_.BroadcastsInDim S128 (![] : Fin 0 → Fin S128.rank)
  bcast_S_S196608x128 : S_.BroadcastsInDim S196608x128 (![] : Fin 0 → Fin S196608x128.rank)
  transposes_S10x128_S128x10_1_0 : S10x128.Transposes [1, 0] S128x10
  bcast_S10_S1x10_1 : S10.BroadcastsInDim S1x10 (![1] : Fin 1 → Fin S1x10.rank)
  bcast_S1x10_S196608x10_0_1 : S1x10.BroadcastsInDim S196608x10 (![0, 1] : Fin 2 → Fin S196608x10.rank)
  reducesTo_S196608x10_S196608_d1 : S196608x10.ReducesTo [1] S196608
  h_S_ : 0 < S_.numel
  bcast_S_S196608 : S_.BroadcastsInDim S196608 (![] : Fin 0 → Fin S196608.rank)
  bcast_S196608_S196608x1_0 : S196608.BroadcastsInDim S196608x1 (![0] : Fin 1 → Fin S196608x1.rank)
  bcast_S196608x1_S196608x10_0_1 : S196608x1.BroadcastsInDim S196608x10 (![0, 1] : Fin 2 → Fin S196608x10.rank)
  bcast_S_S196608x10 : S_.BroadcastsInDim S196608x10 (![] : Fin 0 → Fin S196608x10.rank)
  shapeCasts_S384x3_S8x48x3 : S384x3.ShapeCasts S8x48x3
  shapeCasts_S4096x3_S8x512x3 : S4096x3.ShapeCasts S8x512x3
  bcast_S_S8x48x512 : S_.BroadcastsInDim S8x48x512 (![] : Fin 0 → Fin S8x48x512.rank)
  reducesTo_S8x512x3_S8x512_d2 : S8x512x3.ReducesTo [2] S8x512
  bcast_S8x512_S8x1x512_0_2 : S8x512.BroadcastsInDim S8x1x512 (![0, 2] : Fin 2 → Fin S8x1x512.rank)
  bcast_S8x1x512_S8x48x512_0_1_2 : S8x1x512.BroadcastsInDim S8x48x512 (![0, 1, 2] : Fin 3 → Fin S8x48x512.rank)
  reducesTo_S8x48x3_S8x48_d2 : S8x48x3.ReducesTo [2] S8x48
  bcast_S8x48_S8x48x1_0_1 : S8x48.BroadcastsInDim S8x48x1 (![0, 1] : Fin 2 → Fin S8x48x1.rank)
  bcast_S8x48x1_S8x48x512_0_1_2 : S8x48x1.BroadcastsInDim S8x48x512 (![0, 1, 2] : Fin 3 → Fin S8x48x512.rank)
  shapeCasts_S8x48x512_S196608 : S8x48x512.ShapeCasts S196608
  bcast_S8_S8x24576_0 : S8.BroadcastsInDim S8x24576 (![0] : Fin 1 → Fin S8x24576.rank)
  shapeCasts_S8x24576_S196608 : S8x24576.ShapeCasts S196608
  dot_S196608x128_S128x128_S196608x128_1_0_0_1_n_n_wf : DotDims.WF S196608x128 S128x128 S196608x128 [1] [0] [0] [1] [] []
  dot_S196608x128_S128x10_S196608x10_1_0_0_1_n_n_wf : DotDims.WF S196608x128 S128x10 S196608x10 [1] [0] [0] [1] [] []
  dot_S8x48x3_S8x512x3_S8x48x512_2_2_1_1_0_0_wf : DotDims.WF S8x48x3 S8x512x3 S8x48x512 [2] [2] [1] [1] [0] [0]

variable [Facts₀]

def dot_S196608x128_S128x128_S196608x128_1_0_0_1_n_n : DotDims S196608x128 S128x128 S196608x128 where
  lhsContracting := [1]
  rhsContracting := [0]
  lhsNonContracting := [0]
  rhsNonContracting := [1]
  lhsBatch := []
  rhsBatch := []
  wf := dot_S196608x128_S128x128_S196608x128_1_0_0_1_n_n_wf
def dot_S196608x128_S128x10_S196608x10_1_0_0_1_n_n : DotDims S196608x128 S128x10 S196608x10 where
  lhsContracting := [1]
  rhsContracting := [0]
  lhsNonContracting := [0]
  rhsNonContracting := [1]
  lhsBatch := []
  rhsBatch := []
  wf := dot_S196608x128_S128x10_S196608x10_1_0_0_1_n_n_wf
def dot_S8x48x3_S8x512x3_S8x48x512_2_2_1_1_0_0 : DotDims S8x48x3 S8x512x3 S8x48x512 where
  lhsContracting := [2]
  rhsContracting := [2]
  lhsNonContracting := [1]
  rhsNonContracting := [1]
  lhsBatch := [0]
  rhsBatch := [0]
  wf := dot_S8x48x3_S8x512x3_S8x48x512_2_2_1_1_0_0_wf

class Facts : Prop extends Facts₀ where

variable [Facts]
-- ==== Proof.Spec.lean ====
/-
  The mathematics both programs compute, stated once over literal coordinates and importing neither program.

  A pair (ligand row, protein row) of 128-vectors x, y gives the hidden row
      act j = elu ( ((Σ_k (x k + y k) · W1 j k + b1 j) − mean j) · rsqrt (var j + ε) · γ j + β j ),
  elu u = u for u > 0 and exp u − 1 otherwise; the three heads read the hidden row through a 10 × 128 weight,
      z g = Σ_k act k · W g k + bias g,
  the mixture weights are the softmax of z over the ten components (shifted by their maximum, which is how both
  programs compute it), the widths are elu z + 1.1 and the means elu z + 1. The distance of two points p, q of
  ℝ³ is the root of Σ_d (p d − q d)².

  Output row r of the 196608 = 8 · 48 · 512 pairs is (batch b, ligand l, protein t) in row-major order, so its
  ligand row is r / 512 (= 48 b + l) and its protein row 512 · (r / 24576) + r % 512 (= 512 b + t).
-/
import Idealize.ShloMosaic.PureOps.Ideal
import Idealize.ShloMosaic.PureOps.Ideal.Laws
import Idealize.ShloMosaic.Lib.ValueIdx

noncomputable section

namespace Cert.Gmm

open Idealize.ShloMosaic Idealize.ShloMosaic.ValueIdx

/-- The batch-norm epsilon, the f32 nearest 1e-5, as both programs spell it. -/
def EPS : EReal := Ideal.ofBits .f32 0x3727C5AC#32
/-- −∞, the value a maximum starts from. -/
def NEGINF : EReal := Ideal.ofBits .f32 0xFF800000#32
/-- The f32 one. -/
def ONE : EReal := Ideal.ofBits .f32 0x3F800000#32
/-- The f32 nearest 1.1. -/
def C11 : EReal := Ideal.ofBits .f32 0x3F8CCCCD#32
/-- The f32 zero. -/
def ZERO : EReal := Ideal.ofBits .f32 0x00000000#32
/-- The f32 −2. -/
def MTWO : EReal := Ideal.ofBits .f32 0xC0000000#32

/-- elu u: u where u > 0, exp u − 1 elsewhere. -/
def elu (u : EReal) : EReal := Scalar.select (Ideal.cmp .ogt u ZERO) u (Ideal.exp u - ONE)

/-- The batch-normalised linear layer at output feature j, before the activation. -/
def rowPre (W1 : Fin 128 → Fin 128 → EReal) (b1 mean var gam bet : Fin 128 → EReal) (x y : Fin 128 → EReal)
    (j : Fin 128) : EReal :=
  ((((∑ k : Fin 128, (x k + y k) * W1 j k) + b1 j) - mean j) * Ideal.rsqrt (var j + EPS)) * gam j + bet j

/-- The hidden row. -/
def rowAct (W1 : Fin 128 → Fin 128 → EReal) (b1 mean var gam bet : Fin 128 → EReal) (x y : Fin 128 → EReal)
    (j : Fin 128) : EReal :=
  elu (rowPre W1 b1 mean var gam bet x y j)

/-- A head's pre-activation at component g. -/
def logit (W : Fin 10 → Fin 128 → EReal) (bias : Fin 10 → EReal) (a : Fin 128 → EReal) (g : Fin 10) : EReal :=
  (∑ k : Fin 128, a k * W g k) + bias g

/-- The shift of the softmax: the largest of the ten, starting from −∞ (and joined with −∞ once more). -/
def mx (z : Fin 10 → EReal) : EReal := max NEGINF ((Finset.univ : Finset (Fin 10)).fold max NEGINF z)

/-- The softmax over the ten components. -/
def sm (z : Fin 10 → EReal) (g : Fin 10) : EReal :=
  Ideal.div (Ideal.exp (z g - mx z)) (∑ g' : Fin 10, Ideal.exp (z g' - mx z))

/-- The width head. -/
def sigmaOf (z : Fin 10 → EReal) (g : Fin 10) : EReal := elu (z g) + C11
/-- The mean head. -/
def muOf (z : Fin 10 → EReal) (g : Fin 10) : EReal := elu (z g) + ONE

/-- The Euclidean distance of two points of ℝ³. -/
def dist (p q : Fin 3 → EReal) : EReal := Ideal.sqrt (∑ d : Fin 3, (p d - q d) * (p d - q d))

/-- The ligand row of output row r. -/
def ligRow (r : Fin 196608) : Fin 384 := ⟨r.val / 512, by have := r.isLt; omega⟩
/-- The protein row of output row r. -/
def proRow (r : Fin 196608) : Fin 4096 := ⟨(r.val / 24576) * 512 + r.val % 512, by have := r.isLt; omega⟩

/-! ## The results as functions of the argument arrays

  The arguments in the programs' order: a0 ligand features [384,128], a1 ligand positions [384,3], a3 protein
  features [4096,128], a4 protein positions [4096,3], a6 the linear layer's weight [128,128] (W1 j k: output
  feature j, input feature k), a7 its bias, a8 γ, a9 β, a10 the running mean, a11 the running variance, then the
  three heads' weight [10,128] and bias [10]. -/

abbrev A1 (n : Nat) := (⟨1, ![n]⟩ : Shape).Idx → EReal
abbrev A2 (a b : Nat) := (⟨2, ![a, b]⟩ : Shape).Idx → EReal

/-- The hidden row of output row r. -/
def actOf (a0 : A2 384 128) (a3 : A2 4096 128) (a6 : A2 128 128) (a7 a8 a9 a10 a11 : A1 128) (r : Fin 196608) :
    Fin 128 → EReal :=
  rowAct (fun j k => a6 (ix2 j k)) (fun j => a7 (ix1 j)) (fun j => a10 (ix1 j)) (fun j => a11 (ix1 j))
    (fun j => a8 (ix1 j)) (fun j => a9 (ix1 j)) (fun k => a0 (ix2 (ligRow r) k)) (fun k => a3 (ix2 (proRow r) k))

/-- A head's ten pre-activations at output row r. -/
def zOf (a0 : A2 384 128) (a3 : A2 4096 128) (a6 : A2 128 128) (a7 a8 a9 a10 a11 : A1 128) (W : A2 10 128) (bias : A1 10)
    (r : Fin 196608) : Fin 10 → EReal :=
  logit (fun g k => W (ix2 g k)) (fun g => bias (ix1 g)) (actOf a0 a3 a6 a7 a8 a9 a10 a11 r)

/-- The mixture weights [196608, 10]. -/
def Gpi (a0 : A2 384 128) (a3 : A2 4096 128) (a6 : A2 128 128) (a7 a8 a9 a10 a11 : A1 128) (W : A2 10 128) (bias : A1 10) :
    A2 196608 10 := fun i => sm (zOf a0 a3 a6 a7 a8 a9 a10 a11 W bias (i 0)) (i 1)
/-- The widths [196608, 10]. -/
def Gsigma (a0 : A2 384 128) (a3 : A2 4096 128) (a6 : A2 128 128) (a7 a8 a9 a10 a11 : A1 128) (W : A2 10 128) (bias : A1 10) :
    A2 196608 10 := fun i => sigmaOf (zOf a0 a3 a6 a7 a8 a9 a10 a11 W bias (i 0)) (i 1)
/-- The means [196608, 10]. -/
def Gmu (a0 : A2 384 128) (a3 : A2 4096 128) (a6 : A2 128 128) (a7 a8 a9 a10 a11 : A1 128) (W : A2 10 128) (bias : A1 10) :
    A2 196608 10 := fun i => muOf (zOf a0 a3 a6 a7 a8 a9 a10 a11 W bias (i 0)) (i 1)
/-- The distances [196608, 1]. -/
def Gdist (a1 : A2 384 3) (a4 : A2 4096 3) : A2 196608 1 :=
  fun i => dist (fun d => a1 (ix2 (ligRow (i 0)) d)) (fun d => a4 (ix2 (proRow (i 0)) d))

/-- The same distance through the expansion −2·⟨p,q⟩ + |q|² + |p|² (each square norm a sum started from zero). -/
def distExpanded (p q : Fin 3 → EReal) : EReal :=
  Ideal.sqrt (((MTWO * ∑ d : Fin 3, p d * q d) + (ZERO + ∑ d : Fin 3, q d * q d)) + (ZERO + ∑ d : Fin 3, p d * p d))
/-- The distances [196608, 1] in the expanded form. -/
def GdistExpanded (a1 : A2 384 3) (a4 : A2 4096 3) : A2 196608 1 :=
  fun i => distExpanded (fun d => a1 (ix2 (ligRow (i 0)) d)) (fun d => a4 (ix2 (proRow (i 0)) d))

/-- The batch of each output row [196608], as 32-bit words: r / 24576. -/
def Gbatch : (⟨1, ![196608]⟩ : Shape).Idx → BitVec 32 := fun i => BitVec.ofNat 32 ((i 0).val / 24576)

/-! ## The two laws that join the programs -/

theorem ofBits_one : ONE = 1 := by
  show Ideal.ofBits .f32 0x3F800000#32 = ((1 : ℝ) : EReal)
  simp [Ideal.ofBits, Ideal.ieee, -EReal.coe_mul]
  norm_num

theorem ofBits_zero : ZERO = 0 := by
  unfold ZERO; simp [Ideal.ofBits, Ideal.ieee]

/-- The other spelling of elu: one times (exp − 1) of the argument with its positive part zeroed first. Where u > 0
    both select u; elsewhere the inner select returns u and 1 · (exp u − 1) = exp u − 1. -/
theorem elu_guarded (u : EReal) :
    Scalar.select (Ideal.cmp .ogt u ZERO) u (ONE * (Ideal.exp (Scalar.select (Ideal.cmp .ogt u ZERO) ZERO u) - 1)) = elu u := by
  unfold elu
  by_cases h : Ideal.cmp .ogt u ZERO = 1#1
  · rw [h, select_one, select_one]
  · rw [eq_zero_of_ne_one h, select_zero, select_zero, select_zero, ofBits_one, one_mul]

end Cert.Gmm

end
-- ==== Proof.Finite.lean ====
/-
  Finiteness, where the mathematics needs it.

  The three heads never need it: every step there is the same operation on both sides, or a commutation, and those
  hold on all extended reals. The distance does: (p − q)² = p² − 2pq + q² fails at infinities, and holds for real
  numbers. The precondition says that every float argument has |x| < +∞ at every entry; read at the two position
  arrays it makes their entries real numbers, and for real points the expanded form of the distance is the plain one.
-/
import proofs.«116319_j22119081575276_2_alg».proof.Pre_finite_inputs
import proofs.«116319_j22119081575276_2_alg».proof.Proof.Spec
import Idealize.ShloMosaic.Lib.ReduceAll
import Idealize.ShloMosaic.Lib.ValueIdx
import Idealize.ShloMosaic.PureOps.Ideal.Laws

noncomputable section

namespace Cert.Gmm

open Idealize.ShloMosaic Idealize.ShloMosaic.ValueIdx Cert.Pre_finite_inputs

/-- An extended real whose absolute value is below +∞ (the f32 word 0x7F800000) is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

instance subsingleton_scalar_idx : Subsingleton S_.Idx := ⟨fun a b => funext fun d => d.elim0⟩

/-- Under the precondition the two position arrays hold real numbers. -/
theorem finite_positions [Facts] (a0 : FVec Ideal S384x128 .f32) (a1 : FVec Ideal S384x3 .f32) (a2 : IVec S384 32)
    (a3 : FVec Ideal S4096x128 .f32) (a4 : FVec Ideal S4096x3 .f32) (a5 : IVec S4096 32) (a6 : FVec Ideal S128x128 .f32)
    (a7 a8 a9 a10 a11 : FVec Ideal S128 .f32) (a12 : FVec Ideal S10x128 .f32) (a13 : FVec Ideal S10 .f32)
    (a14 : FVec Ideal S10x128 .f32) (a15 : FVec Ideal S10 .f32) (a16 : FVec Ideal S10x128 .f32) (a17 : FVec Ideal S10 .f32)
    (h : fn (F := Ideal) a0 a1 a2 a3 a4 a5 a6 a7 a8 a9 a10 a11 a12 a13 a14 a15 a16 a17 = fun _ => 1#1) :
    (∀ i, ∃ r : ℝ, a1 i = (r : EReal)) ∧ (∀ i, ∃ r : ℝ, a4 i = (r : EReal)) := by
  have h0 := congrFun h ix0
  dsimp only [fn, fn_part1, fn_part2, fn_part3, fn_part4, andi] at h0
  simp only [IntOp.andi_eq_one, and_assoc] at h0
  obtain ⟨-, h1, -, h4, -⟩ := h0
  refine ⟨fun i => real_of_abs_lt _ ?_, fun i => real_of_abs_lt _ ?_⟩
  · exact Host.reduce_andi_all _ _ _ _ _ h1 i
  · exact Host.reduce_andi_all _ _ _ _ _ h4 i

theorem ofBits_mtwo : MTWO = ((-2 : ℝ) : EReal) := by
  show Ideal.ofBits .f32 0xC0000000#32 = ((-2 : ℝ) : EReal)
  simp [Ideal.ofBits, Ideal.ieee, -EReal.coe_mul]
  norm_num

/-- For real points the expansion −2·⟨p,q⟩ + |q|² + |p|² is Σ_d (p d − q d)², so the two forms of the distance agree. -/
theorem distExpanded_eq_dist (p q : Fin 3 → EReal) (hp : ∀ d, ∃ r : ℝ, p d = (r : EReal))
    (hq : ∀ d, ∃ r : ℝ, q d = (r : EReal)) : distExpanded p q = dist p q := by
  choose pr hpr using hp
  choose qr hqr using hq
  unfold distExpanded dist
  congr 1
  simp only [Fin.sum_univ_three, hpr, hqr, ofBits_mtwo, ofBits_zero, zero_add]
  simp only [← EReal.coe_mul, ← EReal.coe_add, ← EReal.coe_sub]
  rw [EReal.coe_eq_coe_iff]
  ring

/-- So the distances agree array-wide when both position arrays are real. -/
theorem GdistExpanded_eq_Gdist (a1 : A2 384 3) (a4 : A2 4096 3) (h1 : ∀ i, ∃ r : ℝ, a1 i = (r : EReal))
    (h4 : ∀ i, ∃ r : ℝ, a4 i = (r : EReal)) : GdistExpanded a1 a4 = Gdist a1 a4 := by
  funext i
  exact distExpanded_eq_dist _ _ (fun d => h1 _) (fun d => h4 _)

end Cert.Gmm

end
-- ==== Proof.KernelHeadsLayout.lean ====
/-
  The layout steps of the three heads, each read at an index given by its coordinates.

  A vector of ten biases becomes a column [10,1] and is repeated along the 6144 columns: entry (g, r) is bias g.
  A vector of 6144 column statistics becomes a row [1,6144] and is repeated down the ten rows: entry (g, r) is
  statistic r. A [10,6144] result is re-laid as [10,48,128] and then [1,10,48,128] without moving anything in
  row-major order: entry (0, g, l, t) is column 128 · l + t of row g.
-/
import proofs.«116319_j22119081575276_2_alg».proof.Proof.Gen.KernelIdeal.Skeleton
import Idealize.ShloMosaic.Lib.ValueIdx
import Idealize.ShloMosaic.Lib.ValueLayout
import Idealize.ShloMosaic.Lib.Pipeline.Value

set_option maxRecDepth 16384

noncomputable section

namespace Cert.KernelIdeal.BlockValue

open Idealize.ShloMosaic Idealize.ShloMosaic.ValueIdx Cert.KernelIdeal Cert.KernelIdeal.Gen

variable {α : Type}

/-- A vector of ten entries cast to one column reads, at (g, u), entry g: both sit at row-major position g. -/
theorem shapeCast_col_apply (b : S10.Idx → α) (h : S10.ShapeCasts S10x1) (g : Fin 10) (u : Fin 1) :
    shapeCast S10x1 b h (ix2 g u) = b (ix1 g) :=
  shapeCast_apply b h _ _ (by
    have hu : u.val = 0 := by omega
    rw [Shape.rowMajor_val_two, Shape.rowMajor_val_one]
    show g.val = g.val * 1 + u.val
    rw [hu, Nat.mul_one, Nat.add_zero])

/-- One column repeated along the rows reads, at (g, r), the column's entry g. -/
theorem broadcastTo_col_apply (v : S10x1.Idx → α) (h : S10x1.Broadcasts S10x6144) (g : Fin 10) (r : Fin 6144) :
    broadcastTo S10x6144 v h (ix2 g r) = v (ix2 g (0 : Fin 1)) := by
  refine broadcastTo_apply v h (ix2 g r) (ix2 g (0 : Fin 1)) fun ax => ?_
  match ax with
  | ⟨0, _⟩ => rfl
  | ⟨1, _⟩ => rfl

/-- The bias down the columns: entry (g, r) is the bias of component g. -/
theorem biasCol_apply (b : S10.Idx → α) (h1 : S10.ShapeCasts S10x1) (h2 : S10x1.Broadcasts S10x6144) (g : Fin 10) (r : Fin 6144) :
    broadcastTo S10x6144 (shapeCast S10x1 b h1) h2 (ix2 g r) = b (ix1 g) :=
  (broadcastTo_col_apply _ h2 g r).trans (shapeCast_col_apply b h1 g 0)

/-- A statistic per column, cast to one row and repeated down the ten rows, reads, at (g, r), the statistic of column r. -/
theorem rowBroadcast_apply (v : S6144.Idx → α) (h1 : S6144.ShapeCasts S1x6144) (h2 : S1x6144.Broadcasts S10x6144) (g : Fin 10) (r : Fin 6144) :
    broadcastTo S10x6144 (shapeCast S1x6144 v h1) h2 (ix2 g r) = v (ix1 r) :=
  (broadcastTo_1b_ab_apply _ h2 g r).trans (shapeCast_a_1a_apply v h1 0 r)

/-- The re-lay [10,6144] → [10,48,128] → [1,10,48,128]: entry (0, g, l, t) is column c = 128 · l + t of row g, since
    6144 · g + c = (48 · g + l) · 128 + t. -/
theorem relay_apply (X : S10x6144.Idx → α) (h1 : S10x6144.ShapeCasts S10x48x128) (h2 : S10x48x128.ShapeCasts S1x10x48x128)
    (g : Fin 10) (l : Fin 48) (t : Fin 128) (c : Fin 6144) (hc : c.val = 128 * l.val + t.val) :
    shapeCast S1x10x48x128 (shapeCast S10x48x128 X h1) h2 (ix4 (0 : Fin 1) g l t) = X (ix2 g c) :=
  (shapeCast_abc_1abc_apply _ h2 0 g l t).trans (shapeCast_apply X h1 _ _ (by
    rw [Shape.rowMajor_val_three, Shape.rowMajor_val_two]
    show g.val * 6144 + c.val = (g.val * 48 + l.val) * 128 + t.val
    omega))

end Cert.KernelIdeal.BlockValue

end
-- ==== Proof.KernelHeadsLogit.lean ====
/-
  A head's pre-activation. The [10,128] weight is contracted with every row of the [6144,128] activations over the
  128 features, so entry (g, r) of the product is Σ_k W g k · act r k; with the bias of component g added this is the
  specification's logit of row r at component g (which writes each product the other way round).
-/
import proofs.«116319_j22119081575276_2_alg».proof.Proof.Spec
import proofs.«116319_j22119081575276_2_alg».proof.Proof.Gen.KernelIdeal.Skeleton
import proofs.«116319_j22119081575276_2_alg».proof.Proof.KernelHeadsLayout
import Idealize.ShloMosaic.Lib.ValueIdx
import Idealize.ShloMosaic.Lib.Pipeline.Value
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The contraction of a [10,128] weight with the rows of a [6144,128] array into a zero accumulator, read at (g, r):
    the one contracted coordinate k runs over the 128 features of both operands. -/
theorem matmul_gr (Wv : FVec Ideal S10x128 .bf16) (A : FVec Ideal S6144x128 .bf16) (g : Fin 10) (r : Fin 6144) :
    matmul dot_S10x128_S6144x128_S10x6144_1_1_0_0_n_n none Wv A (constant (F := Ideal) S10x6144 .f32 0x00000000#32) (ix2 g r)
      = ∑ k : Fin 128, Wv (ix2 g k) * A (ix2 r k) := by
  refine (Ideal.matmul_constant_zero_apply dot_S10x128_S6144x128_S10x6144_1_1_0_0_n_n none Wv A (ix2 g r)).trans ?_
  rw [← Equiv.sum_comp (contrEquiv1 dot_S10x128_S6144x128_S10x6144_1_1_0_0_n_n 128 rfl rfl).symm]
  refine Finset.sum_congr rfl fun k _ => ?_
  have c2 := contrEquiv1_symm_val dot_S10x128_S6144x128_S10x6144_1_1_0_0_n_n 128 rfl rfl k
  have l2 : dot_S10x128_S6144x128_S10x6144_1_1_0_0_n_n.lhsIdx (ix2 g r)
      ((contrEquiv1 dot_S10x128_S6144x128_S10x6144_1_1_0_0_n_n 128 rfl rfl).symm k) = ix2 g k := by
    funext ax; apply Fin.ext
    match ax with
    | ⟨0, _⟩ => simp [DotDims.lhsIdx, dot_S10x128_S6144x128_S10x6144_1_1_0_0_n_n]; rfl
    | ⟨1, _⟩ => simp [DotDims.lhsIdx, dot_S10x128_S6144x128_S10x6144_1_1_0_0_n_n]; exact c2
  have r2 : dot_S10x128_S6144x128_S10x6144_1_1_0_0_n_n.rhsIdx (ix2 g r)
      ((contrEquiv1 dot_S10x128_S6144x128_S10x6144_1_1_0_0_n_n 128 rfl rfl).symm k) = ix2 r k := by
    funext ax; apply Fin.ext
    match ax with
    | ⟨0, _⟩ => simp [DotDims.rhsIdx, dot_S10x128_S6144x128_S10x6144_1_1_0_0_n_n]; rfl
    | ⟨1, _⟩ => simp [DotDims.rhsIdx, dot_S10x128_S6144x128_S10x6144_1_1_0_0_n_n]; exact c2
  rw [l2, r2]

/-- The product alone at (g, r), with the weight passed through its identity re-lay: the logit without its bias. -/
theorem dot_apply (W : FVec Ideal S10x128 .bf16) (A : FVec Ideal S6144x128 .bf16) (hW : S10x128.ShapeCasts S10x128)
    (g : Fin 10) (r : Fin 6144) :
    matmul dot_S10x128_S6144x128_S10x6144_1_1_0_0_n_n none (shapeCast S10x128 W hW) A
        (constant (F := Ideal) S10x6144 .f32 0x00000000#32) (ix2 g r)
      = ∑ k : Fin 128, A (ix2 r k) * W (ix2 g k) := by
  rw [shapeCast_self W hW]
  exact (matmul_gr W A g r).trans (Finset.sum_congr rfl fun k _ => mul_comm _ _)

/-- Product plus bias at (g, r) is the logit of row r at component g. -/
theorem logit_apply (W : FVec Ideal S10x128 .bf16) (bias : FVec Ideal S10 .f32) (A : FVec Ideal S6144x128 .bf16)
    (hW : S10x128.ShapeCasts S10x128) (h1 : S10.ShapeCasts S10x1) (h2 : S10x1.Broadcasts S10x6144) (g : Fin 10) (r : Fin 6144) :
    addf (matmul dot_S10x128_S6144x128_S10x6144_1_1_0_0_n_n none (shapeCast S10x128 W hW) A
          (constant (F := Ideal) S10x6144 .f32 0x00000000#32))
        (broadcastTo S10x6144 (shapeCast S10x1 bias h1) h2) (ix2 g r)
      = Cert.Gmm.logit (fun g k => W (ix2 g k)) (fun g => bias (ix1 g)) (fun k => A (ix2 r k)) g :=
  congrArg₂ (· + ·) (dot_apply W A hW g r) (biasCol_apply bias h1 h2 g r)

end Cert.KernelIdeal.BlockValue

end
-- ==== Proof.KernelHeadsReduce.lean ====
/-
  The two reductions of the mixture-weight head, down the ten rows of a [10,6144] array, read at a column r: the
  sum is the sum over the ten components of the entries (g, r), and the maximum from −∞ is the fold of max over
  them. The index the reduction inserts at column r and row k is (k, r).
-/
import proofs.«116319_j22119081575276_2_alg».proof.Proof.Spec
import proofs.«116319_j22119081575276_2_alg».proof.Proof.Gen.KernelIdeal.Skeleton
import Idealize.ShloMosaic.Lib.ValueIdx
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The index a reduction over axis 0 of [10,6144] inserts at column r and row k is (k, r). -/
theorem lift_kr (h : S10x6144.Reduces [0] S6144) (r : Fin 6144) (k : Fin 10) :
    h.lift (ix1 r) k = ix2 k r := by
  funext c; apply Fin.ext
  fin_cases c <;> rfl

/-- The sum down the ten rows, at column r. -/
theorem colSum_apply (Y : FVec Ideal S10x6144 .f32) (h : S10x6144.Reduces [0] S6144) (hφ : FKind.Formats .f32)
    (hacc : (0x00000000#32 : BitVec 32) = FKind.add.neutral .f32 hφ) (r : Fin 6144) :
    multiReduction .add [0] S6144 Y 0x00000000#32 h hφ hacc (ix1 r) = ∑ g : Fin 10, Y (ix2 g r) := by
  refine (Ideal.multiReduction_add_single Y _ h hφ hacc (ix1 r)).trans ?_
  show ∑ k : Fin 10, Y (h.lift (ix1 r) k) = _
  exact Finset.sum_congr rfl fun k _ => congrArg Y (lift_kr h r k)

/-- The maximum down the ten rows from −∞, at column r. -/
theorem colMax_apply (Z : FVec Ideal S10x6144 .f32) (h : S10x6144.Reduces [0] S6144) (hφ : FKind.Formats .f32)
    (hacc : (0xFF800000#32 : BitVec 32) = FKind.maximumf.neutral .f32 hφ) (r : Fin 6144) :
    multiReduction .maximumf [0] S6144 Z 0xFF800000#32 h hφ hacc (ix1 r)
      = (Finset.univ : Finset (Fin 10)).fold max Cert.Gmm.NEGINF (fun g => Z (ix2 g r)) := by
  refine (Ideal.multiReduction_maximumf_single Z _ h hφ hacc (ix1 r)).trans ?_
  show (Finset.univ : Finset (Fin 10)).fold max Cert.Gmm.NEGINF (Z ∘ h.lift (ix1 r)) = _
  exact congrArg (fun f => Finset.fold max Cert.Gmm.NEGINF f (Finset.univ : Finset (Fin 10)))
    (funext fun k => congrArg Z (lift_kr h r k))

end Cert.KernelIdeal.BlockValue

end
-- ==== Proof.KernelHeadsPi.lean ====
/-
  The mixture-weight head on [10,6144]. With z the ten logits of a column r, the head takes the largest of them
  starting from −∞ (joined with −∞ once more), lays that shift along the rows, subtracts it, exponentiates, sums the
  ten exponentials of the column, lays the sum along the rows and divides: entry (g, r) is
      exp (z g − m) / Σ_g' exp (z g' − m),   m = max (−∞) (max over g' from −∞ of z g'),
  the specification's softmax of the column's logits at component g.
-/
import proofs.«116319_j22119081575276_2_alg».proof.Proof.Spec
import proofs.«116319_j22119081575276_2_alg».proof.Proof.Gen.KernelIdeal.Skeleton
import proofs.«116319_j22119081575276_2_alg».proof.Proof.KernelHeadsLayout
import proofs.«116319_j22119081575276_2_alg».proof.Proof.KernelHeadsReduce
import proofs.«116319_j22119081575276_2_alg».proof.Proof.KernelHeadsLogit
import Idealize.ShloMosaic.Lib.ValueIdx
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The softmax down the ten rows of a [10,6144] array Z, read at (g, r): the shift read at any (g', r) is the
    specification's shift of column r, so numerator and denominator are the specification's, term by term. -/
theorem softmax_apply (Z : FVec Ideal S10x6144 .f32) (hR : S10x6144.Reduces [0] S6144) (h1 : S6144.ShapeCasts S1x6144)
    (h2 : S1x6144.Broadcasts S10x6144) (g : Fin 10) (r : Fin 6144) :
    divf
      (exp (subf Z (broadcastTo S10x6144 (shapeCast S1x6144
        (maximumf (broadcast S6144 (Scalar.ofBits (F := Ideal) .f32 0xFF800000#32))
          (multiReduction .maximumf [0] S6144 Z 0xFF800000#32 hR (.inl rfl) rfl)) h1) h2)))
      (broadcastTo S10x6144 (shapeCast S1x6144
        (multiReduction .add [0] S6144
          (exp (subf Z (broadcastTo S10x6144 (shapeCast S1x6144
            (maximumf (broadcast S6144 (Scalar.ofBits (F := Ideal) .f32 0xFF800000#32))
              (multiReduction .maximumf [0] S6144 Z 0xFF800000#32 hR (.inl rfl) rfl)) h1) h2)))
          0x00000000#32 hR (.inl rfl) rfl) h1) h2) (ix2 g r)
      = Cert.Gmm.sm (fun g' => Z (ix2 g' r)) g := by
  have hshift : ∀ g' : Fin 10, (broadcastTo S10x6144 (shapeCast S1x6144
        (maximumf (broadcast S6144 (Scalar.ofBits (F := Ideal) .f32 0xFF800000#32))
          (multiReduction .maximumf [0] S6144 Z 0xFF800000#32 hR (.inl rfl) rfl)) h1) h2) (ix2 g' r)
        = Cert.Gmm.mx (fun g'' => Z (ix2 g'' r)) := fun g' =>
    (rowBroadcast_apply _ h1 h2 g' r).trans (congrArg (max Cert.Gmm.NEGINF) (colMax_apply Z hR (.inl rfl) rfl r))
  refine congrArg₂ Ideal.div (congrArg (fun s => Ideal.exp (Z (ix2 g r) - s)) (hshift g)) ?_
  refine (rowBroadcast_apply _ h1 h2 g r).trans ?_
  refine (colSum_apply _ hR (.inl rfl) rfl r).trans ?_
  exact Finset.sum_congr rfl fun g' _ => congrArg (fun s => Ideal.exp (Z (ix2 g' r) - s)) (hshift g')

/-- The mixture weights [10,6144] at (g, r): the softmax of the logits of activation row r, at component g. -/
theorem pay7_apply (v36 : FVec Ideal S6144x128 .f32) (v38 : IVec S6144x128 1) (v39 v40 : FVec Ideal S6144x128 .f32)
    (W : FVec Ideal S10x128 .bf16) (bias : FVec Ideal S10 .f32) (g : Fin 10) (r : Fin 6144) :
    k0_pay7 (F := Ideal) v36 v38 v39 v40 W bias (ix2 g r)
      = Cert.Gmm.sm (Cert.Gmm.logit (fun g k => W (ix2 g k)) (fun g => bias (ix1 g))
          (fun k => k0_pay6 (F := Ideal) v36 v38 v39 v40 (ix2 r k))) g := by
  unfold k0_pay7
  refine (softmax_apply _ _ _ _ g r).trans ?_
  exact congrArg (fun z => Cert.Gmm.sm z g) (funext fun g' => logit_apply W bias _ _ _ _ g' r)

end Cert.KernelIdeal.BlockValue

end
-- ==== Proof.KernelHeadsElu.lean ====
/-
  The width head on [10,6144]: the logit u of activation row r at component g goes through
  elu u = u where u > 0 and exp u − 1 elsewhere, and 1.1 is added. Every step is pointwise, so entry (g, r) is the
  specification's width of the logit at (g, r).
-/
import proofs.«116319_j22119081575276_2_alg».proof.Proof.Spec
import proofs.«116319_j22119081575276_2_alg».proof.Proof.Gen.KernelIdeal.Skeleton
import proofs.«116319_j22119081575276_2_alg».proof.Proof.KernelHeadsLayout
import proofs.«116319_j22119081575276_2_alg».proof.Proof.KernelHeadsLogit
import Idealize.ShloMosaic.Lib.ValueIdx
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The widths [10,6144] at (g, r): elu of the logit of activation row r at component g, plus 1.1. -/
theorem pay8_apply (v36 : FVec Ideal S6144x128 .f32) (v38 : IVec S6144x128 1) (v39 v40 : FVec Ideal S6144x128 .f32)
    (W : FVec Ideal S10x128 .bf16) (bias : FVec Ideal S10 .f32) (g : Fin 10) (r : Fin 6144) :
    k0_pay8 (F := Ideal) v36 v38 v39 v40 W bias (ix2 g r)
      = Cert.Gmm.sigmaOf (Cert.Gmm.logit (fun g k => W (ix2 g k)) (fun g => bias (ix1 g))
          (fun k => k0_pay6 (F := Ideal) v36 v38 v39 v40 (ix2 r k))) g := by
  unfold k0_pay8
  exact congrArg (fun u => Cert.Gmm.elu u + Cert.Gmm.C11) (logit_apply W bias _ _ _ _ g r)

end Cert.KernelIdeal.BlockValue

end
-- ==== Proof.KernelHeads.lean ====
/-
  The three heads of one block, read entry by entry over whatever the hidden activations are.

  The hidden activations of a block are a [6144, 128] array whose row 128 · l + t belongs to the pair (ligand l,
  protein t). Each head contracts a [10, 128] weight with every row, adds its bias down the ten components, and then:
  the mixture weights take the softmax over the ten components of each column, the widths elu + 1.1, the means elu + 1.
  The results [10, 6144] are re-laid as [1, 10, 48, 128]: entry (g, l, t) is column 128 · l + t of row g.
-/
import proofs.«116319_j22119081575276_2_alg».proof.Proof.Spec
import proofs.«116319_j22119081575276_2_alg».proof.Proof.Gen.KernelIdeal.Skeleton
import proofs.«116319_j22119081575276_2_alg».proof.Proof.KernelHeadsLayout
import proofs.«116319_j22119081575276_2_alg».proof.Proof.KernelHeadsLogit
import proofs.«116319_j22119081575276_2_alg».proof.Proof.KernelHeadsPi
import proofs.«116319_j22119081575276_2_alg».proof.Proof.KernelHeadsElu
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The row of the [6144, 128] activations that belongs to the pair (ligand l, protein t). -/
def pairRow (l : Fin 48) (t : Fin 128) : Fin 6144 := ⟨128 * l.val + t.val, by have := l.isLt; have := t.isLt; omega⟩

/-- The hidden row r of a block's activations, as the heads read it. -/
def hidRow (v36 : FVec Ideal S6144x128 .f32) (v38 : IVec S6144x128 1) (v39 v40 : FVec Ideal S6144x128 .f32) (r : Fin 6144) :
    Fin 128 → EReal := fun k => k0_pay6 (F := Ideal) v36 v38 v39 v40 (ix2 r k)

theorem pi_apply (v36 : FVec Ideal S6144x128 .f32) (v38 : IVec S6144x128 1) (v39 v40 : FVec Ideal S6144x128 .f32)
    (W : Vec Ideal S10x128 .bf16) (bias : Vec Ideal S10 .f32) (g : Fin 10) (l : Fin 48) (t : Fin 128) :
    k0_pay11 (F := Ideal) (k0_pay7 (F := Ideal) v36 v38 v39 v40 W bias) (ix4 (0 : Fin 1) g l t)
      = Cert.Gmm.sm (Cert.Gmm.logit (fun g k => W (ix2 g k)) (fun g => bias (ix1 g)) (hidRow v36 v38 v39 v40 (pairRow l t))) g := by
  -- the re-lay reads column 128 · l + t of row g; there the mixture weights are the softmax of that row's logits
  unfold k0_pay11
  exact (relay_apply _ _ _ g l t (pairRow l t) rfl).trans (pay7_apply v36 v38 v39 v40 W bias g (pairRow l t))

theorem sigma_apply (v36 : FVec Ideal S6144x128 .f32) (v38 : IVec S6144x128 1) (v39 v40 : FVec Ideal S6144x128 .f32)
    (W : Vec Ideal S10x128 .bf16) (bias : Vec Ideal S10 .f32) (g : Fin 10) (l : Fin 48) (t : Fin 128) :
    k0_pay12 (F := Ideal) (k0_pay8 (F := Ideal) v36 v38 v39 v40 W bias) (ix4 (0 : Fin 1) g l t)
      = Cert.Gmm.sigmaOf (Cert.Gmm.logit (fun g k => W (ix2 g k)) (fun g => bias (ix1 g)) (hidRow v36 v38 v39 v40 (pairRow l t))) g := by
  -- the re-lay reads column 128 · l + t of row g; there the widths are elu of that row's logit plus 1.1
  unfold k0_pay12
  exact (relay_apply _ _ _ g l t (pairRow l t) rfl).trans (pay8_apply v36 v38 v39 v40 W bias g (pairRow l t))

theorem mu_apply (v36 : FVec Ideal S6144x128 .f32) (v38 : IVec S6144x128 1) (v39 v40 : FVec Ideal S6144x128 .f32)
    (W : Vec Ideal S10x128 .bf16) (bias : Vec Ideal S10 .f32) (g : Fin 10) (l : Fin 48) (t : Fin 128) :
    k0_pay13 (F := Ideal) (k0_pay9 (F := Ideal) v36 v38 v39 v40 W) (k0_pay10 (F := Ideal) bias) (ix4 (0 : Fin 1) g l t)
      = Cert.Gmm.muOf (Cert.Gmm.logit (fun g k => W (ix2 g k)) (fun g => bias (ix1 g)) (hidRow v36 v38 v39 v40 (pairRow l t))) g := by
  -- the re-lay reads column 128 · l + t of row g; product plus bias there is the logit, and elu and + 1 are pointwise
  unfold k0_pay13
  refine (relay_apply _ _ _ g l t (pairRow l t) rfl).trans ?_
  unfold k0_pay9 k0_pay10
  exact congrArg (fun u => Cert.Gmm.elu u + Cert.Gmm.ONE) (logit_apply W bias _ _ _ _ g (pairRow l t))

end Cert.KernelIdeal.BlockValue

end
-- ==== Proof.KernelHidden.lean ====
/-
  The hidden layer of one block, entry by entry.

  The block's [6144, 128] pre-activation has, in row 128 · l + t and column j,
      ((Σ_k (x0 l k + x2 t k) · W k j + b1 j) − mean j) · rsqrt (var j + ε) · γ j + β j,
  the batch-normalised linear layer of the pair (ligand l, protein t); the activation is elu of it.
-/
import proofs.«116319_j22119081575276_2_alg».proof.Proof.Spec
import proofs.«116319_j22119081575276_2_alg».proof.Proof.KernelHeads
import proofs.«116319_j22119081575276_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- A per-feature vector laid along every row: entry (r, j) is the vector's entry j. -/
theorem featRow_apply (v : Vec Ideal S128 .f32) (r : Fin 6144) (j : Fin 128) :
    broadcastTo S6144x128 (shapeCast S1x128 v shapeCasts_S128_S1x128) broadcasts_S1x128_S6144x128 (ix2 r j) = v (ix1 j) :=
  (broadcastTo_1b_ab_apply _ _ r j).trans (shapeCast_a_1a_apply v _ 0 j)

/-- The sum of a ligand row and a protein row, laid out pair by pair: row 128 · l + t, column k is x0 l k + x2 t k. -/
theorem pairSum_apply (v0 : Vec Ideal S1x48x128 .f32) (v2 : Vec Ideal S1x128x128 .f32) (l : Fin 48) (t : Fin 128) (k : Fin 128) :
    shapeCast S6144x128
        (addf (broadcastTo S48x128x128 (shapeCast S48x1x128 (shapeCast S48x128 v0 shapeCasts_S1x48x128_S48x128) shapeCasts_S48x128_S48x1x128)
                broadcasts_S48x1x128_S48x128x128)
          (broadcastTo S48x128x128 (shapeCast S1x128x128 (shapeCast S128x128 v2 shapeCasts_S1x128x128_S128x128) shapeCasts_S128x128_S1x128x128)
                broadcasts_S1x128x128_S48x128x128) : FVec Ideal S48x128x128 .f32)
        shapeCasts_S48x128x128_S6144x128 (ix2 (pairRow l t) k)
      = v0 (ix3 (0 : Fin 1) l k) + v2 (ix3 (0 : Fin 1) t k) := by
  refine (shapeCast_apply _ _ (ix2 (pairRow l t) k) (ix3 l t k) ?_).trans ?_
  · rw [Shape.rowMajor_val_three, Shape.rowMajor_val_two]
    show (l.val * 128 + t.val) * 128 + k.val = (128 * l.val + t.val) * 128 + k.val
    omega
  · rw [addf_apply, shapeCast_shapeCast]
    refine congrArg₂ (· + ·) ?_ ?_
    · refine (broadcastTo_apply _ _ (ix3 l t k) (ix3 l (0 : Fin 1) k) (fun a => ?_)).trans ?_
      · match a with
        | ⟨0, _⟩ => rfl
        | ⟨1, _⟩ => rfl
        | ⟨2, _⟩ => rfl
      · refine (shapeCast_apply _ _ (ix3 l (0 : Fin 1) k) (ix2 l k) ?_).trans ?_
        · rw [Shape.rowMajor_val_three, Shape.rowMajor_val_two]
          show l.val * 128 + k.val = (l.val * 1 + 0) * 128 + k.val
          omega
        · exact shapeCast_1ab_ab_apply v0 _ l k
    · refine broadcastTo_apply _ _ (ix3 l t k) (ix3 (0 : Fin 1) t k) (fun a => ?_)
      match a with
      | ⟨0, _⟩ => rfl
      | ⟨1, _⟩ => rfl
      | ⟨2, _⟩ => rfl

/-! ## The linear layer's contraction -/

theorem dotL0 (i : S6144x128.Idx) (q : dot_S6144x128_S128x128_S6144x128_1_0_0_1_n_n.contr.Idx) :
    (dot_S6144x128_S128x128_S6144x128_1_0_0_1_n_n.lhsIdx i q 0).val = (i 0).val := by
  unfold DotDims.lhsIdx
  rw [dif_neg (show ¬(0 : Fin S6144x128.rank) ∈ dot_S6144x128_S128x128_S6144x128_1_0_0_1_n_n.lhsBatch by decide),
    dif_pos (show (0 : Fin S6144x128.rank) ∈ dot_S6144x128_S128x128_S6144x128_1_0_0_1_n_n.lhsNonContracting by decide)]
  rfl

theorem dotL1 (i : S6144x128.Idx) (q : dot_S6144x128_S128x128_S6144x128_1_0_0_1_n_n.contr.Idx) :
    (dot_S6144x128_S128x128_S6144x128_1_0_0_1_n_n.lhsIdx i q 1).val = (q ⟨0, by decide⟩).val :=
  dot_S6144x128_S128x128_S6144x128_1_0_0_1_n_n.lhsIdx_val_of_single rfl i q

theorem dotR0 (i : S6144x128.Idx) (q : dot_S6144x128_S128x128_S6144x128_1_0_0_1_n_n.contr.Idx) :
    (dot_S6144x128_S128x128_S6144x128_1_0_0_1_n_n.rhsIdx i q 0).val = (q ⟨0, by decide⟩).val :=
  dot_S6144x128_S128x128_S6144x128_1_0_0_1_n_n.rhsIdx_val_of_single rfl i q

theorem dotR1 (i : S6144x128.Idx) (q : dot_S6144x128_S128x128_S6144x128_1_0_0_1_n_n.contr.Idx) :
    (dot_S6144x128_S128x128_S6144x128_1_0_0_1_n_n.rhsIdx i q 1).val = (i 1).val := by
  unfold DotDims.rhsIdx
  rw [dif_neg (show ¬(1 : Fin S128x128.rank) ∈ dot_S6144x128_S128x128_S6144x128_1_0_0_1_n_n.rhsBatch by decide),
    dif_pos (show (1 : Fin S128x128.rank) ∈ dot_S6144x128_S128x128_S6144x128_1_0_0_1_n_n.rhsNonContracting by decide)]
  rfl

/-- Row r of a [6144, 128] array contracted with column j of a [128, 128] one, into a zero accumulator. -/
theorem rowDot_apply (A : FVec Ideal S6144x128 .bf16) (B : FVec Ideal S128x128 .bf16) (r : Fin 6144) (j : Fin 128) :
    matmul dot_S6144x128_S128x128_S6144x128_1_0_0_1_n_n none A B (constant (F := Ideal) S6144x128 .f32 0x00000000#32) (ix2 r j)
      = ∑ k : Fin 128, A (ix2 r k) * B (ix2 k j) := by
  refine (Ideal.matmul_constant_zero_apply _ none A B (ix2 r j)).trans ?_
  rw [← Equiv.sum_comp (contrEquiv1 dot_S6144x128_S128x128_S6144x128_1_0_0_1_n_n 128 rfl rfl).symm]
  refine Finset.sum_congr rfl fun k _ => ?_
  have hk := contrEquiv1_symm_val dot_S6144x128_S128x128_S6144x128_1_0_0_1_n_n 128 rfl rfl k
  have el : dot_S6144x128_S128x128_S6144x128_1_0_0_1_n_n.lhsIdx (ix2 r j)
      ((contrEquiv1 dot_S6144x128_S128x128_S6144x128_1_0_0_1_n_n 128 rfl rfl).symm k) = ix2 r k := funext fun a => Fin.ext (by
    match a with
    | ⟨0, _⟩ => exact dotL0 _ _
    | ⟨1, _⟩ => exact (dotL1 _ _).trans hk)
  have er : dot_S6144x128_S128x128_S6144x128_1_0_0_1_n_n.rhsIdx (ix2 r j)
      ((contrEquiv1 dot_S6144x128_S128x128_S6144x128_1_0_0_1_n_n 128 rfl rfl).symm k) = ix2 k j := funext fun a => Fin.ext (by
    match a with
    | ⟨0, _⟩ => exact (dotR0 _ _).trans hk
    | ⟨1, _⟩ => exact dotR1 _ _)
  rw [el, er]

/-! ## The pre-activation and the activation -/

/-- The batch-normalised linear layer of the pair (l, t) at feature j. -/
theorem pre_apply (v0 : Vec Ideal S1x48x128 .f32) (v2 : Vec Ideal S1x128x128 .f32) (v11 : Vec Ideal S128x128 .bf16)
    (v14 v18 v22 v29 v33 : Vec Ideal S128 .f32) (l : Fin 48) (t : Fin 128) (j : Fin 128) :
    k0_pay2 (F := Ideal) v0 v2 v11 v14 v18 v22 v29 v33 (ix2 (pairRow l t) j)
      = Cert.Gmm.rowPre (fun j k => v11 (ix2 k j)) (fun j => v14 (ix1 j)) (fun j => v18 (ix1 j)) (fun j => v22 (ix1 j))
          (fun j => v29 (ix1 j)) (fun j => v33 (ix1 j)) (fun k => v0 (ix3 (0 : Fin 1) l k)) (fun k => v2 (ix3 (0 : Fin 1) t k)) j := by
  unfold k0_pay2 Cert.Gmm.rowPre
  refine congrArg₂ (· + ·) (congrArg₂ (· * ·) (congrArg₂ (· * ·) (congrArg₂ (· - ·) (congrArg₂ (· + ·) ?_ ?_) ?_) ?_) ?_) ?_
  · refine (rowDot_apply _ _ (pairRow l t) j).trans (Finset.sum_congr rfl fun k _ => congrArg₂ (· * ·) ?_ ?_)
    · exact (truncf_apply (ψ := .bf16) _ bitsLt_bf16_f32 _).trans (pairSum_apply v0 v2 l t k)
    · exact congrFun (shapeCast_self v11 _) _
  · exact featRow_apply v14 _ j
  · exact featRow_apply v18 _ j
  · exact featRow_apply _ _ j
  · exact featRow_apply v29 _ j
  · exact featRow_apply v33 _ j

/-- The hidden activation of the pair (l, t) at feature k: elu of the pre-activation (the change of format is the
    identity on extended reals). -/
theorem act_apply (v0 : Vec Ideal S1x48x128 .f32) (v2 : Vec Ideal S1x128x128 .f32) (v11 : Vec Ideal S128x128 .bf16)
    (v14 v18 v22 v29 v33 : Vec Ideal S128 .f32) (l : Fin 48) (t : Fin 128) (k : Fin 128) :
    k0_pay6 (F := Ideal) (k0_pay2 v0 v2 v11 v14 v18 v22 v29 v33) (k0_pay3 v0 v2 v11 v14 v18 v22 v29 v33)
        (k0_pay4 v0 v2 v11 v14 v18 v22 v29 v33) (k0_pay5 (F := Ideal)) (ix2 (pairRow l t) k)
      = Cert.Gmm.rowAct (fun j k => v11 (ix2 k j)) (fun j => v14 (ix1 j)) (fun j => v18 (ix1 j)) (fun j => v22 (ix1 j))
          (fun j => v29 (ix1 j)) (fun j => v33 (ix1 j)) (fun k => v0 (ix3 (0 : Fin 1) l k)) (fun k => v2 (ix3 (0 : Fin 1) t k)) k :=
  (show k0_pay6 (F := Ideal) (k0_pay2 v0 v2 v11 v14 v18 v22 v29 v33) (k0_pay3 v0 v2 v11 v14 v18 v22 v29 v33)
        (k0_pay4 v0 v2 v11 v14 v18 v22 v29 v33) (k0_pay5 (F := Ideal)) (ix2 (pairRow l t) k)
      = Cert.Gmm.elu (k0_pay2 (F := Ideal) v0 v2 v11 v14 v18 v22 v29 v33 (ix2 (pairRow l t) k)) from rfl).trans
    (congrArg Cert.Gmm.elu (pre_apply v0 v2 v11 v14 v18 v22 v29 v33 l t k))

/-- The hidden row of the pair (l, t), as the heads read it. -/
theorem hidRow_eq (v0 : Vec Ideal S1x48x128 .f32) (v2 : Vec Ideal S1x128x128 .f32) (v11 : Vec Ideal S128x128 .bf16)
    (v14 v18 v22 v29 v33 : Vec Ideal S128 .f32) (l : Fin 48) (t : Fin 128) :
    hidRow (k0_pay2 (F := Ideal) v0 v2 v11 v14 v18 v22 v29 v33) (k0_pay3 v0 v2 v11 v14 v18 v22 v29 v33)
        (k0_pay4 v0 v2 v11 v14 v18 v22 v29 v33) (k0_pay5 (F := Ideal)) (pairRow l t)
      = Cert.Gmm.rowAct (fun j k => v11 (ix2 k j)) (fun j => v14 (ix1 j)) (fun j => v18 (ix1 j)) (fun j => v22 (ix1 j))
          (fun j => v29 (ix1 j)) (fun j => v33 (ix1 j)) (fun k => v0 (ix3 (0 : Fin 1) l k)) (fun k => v2 (ix3 (0 : Fin 1) t k)) :=
  funext fun k => act_apply v0 v2 v11 v14 v18 v22 v29 v33 l t k

end Cert.KernelIdeal.BlockValue

end
-- ==== Proof.KernelDist.lean ====
/-
  The distance block, entry by entry: entry (l, t) of the [1, 48, 128] block is the Euclidean distance of ligand
  position l and protein position t, the root of the sum over the three coordinates of the squared differences.
-/
import proofs.«116319_j22119081575276_2_alg».proof.Proof.Spec
import proofs.«116319_j22119081575276_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The difference of a ligand position and a protein position, laid out pair by pair: entry (l, t, d) is
    x1 l d − x3 t d. -/
theorem posDiff_apply (v104 : Vec Ideal S1x48x3 .f32) (v106 : Vec Ideal S1x128x3 .f32) (l : Fin 48) (t : Fin 128) (d : Fin 3) :
    (subf (broadcastTo S48x128x3 (shapeCast S48x1x3 (shapeCast S48x3 v104 shapeCasts_S1x48x3_S48x3) shapeCasts_S48x3_S48x1x3)
              broadcasts_S48x1x3_S48x128x3)
          (broadcastTo S48x128x3 (shapeCast S1x128x3 (shapeCast S128x3 v106 shapeCasts_S1x128x3_S128x3) shapeCasts_S128x3_S1x128x3)
              broadcasts_S1x128x3_S48x128x3) : FVec Ideal S48x128x3 .f32) (ix3 l t d)
      = v104 (ix3 (0 : Fin 1) l d) - v106 (ix3 (0 : Fin 1) t d) := by
  rw [subf_apply, shapeCast_shapeCast]
  refine congrArg₂ (· - ·) ?_ ?_
  · refine (broadcastTo_apply _ _ (ix3 l t d) (ix3 l (0 : Fin 1) d) (fun a => ?_)).trans ?_
    · match a with
      | ⟨0, _⟩ => rfl
      | ⟨1, _⟩ => rfl
      | ⟨2, _⟩ => rfl
    · refine (shapeCast_apply _ _ (ix3 l (0 : Fin 1) d) (ix2 l d) ?_).trans ?_
      · rw [Shape.rowMajor_val_three, Shape.rowMajor_val_two]
        show l.val * 3 + d.val = (l.val * 1 + 0) * 3 + d.val
        omega
      · exact shapeCast_1ab_ab_apply v104 _ l d
  · refine broadcastTo_apply _ _ (ix3 l t d) (ix3 (0 : Fin 1) t d) (fun a => ?_)
    match a with
    | ⟨0, _⟩ => rfl
    | ⟨1, _⟩ => rfl
    | ⟨2, _⟩ => rfl

/-- Entry (l, t) of the distance block. -/
theorem dist_apply (v104 : Vec Ideal S1x48x3 .f32) (v106 : Vec Ideal S1x128x3 .f32) (l : Fin 48) (t : Fin 128) :
    k0_pay1 (F := Ideal) (k0_pay14 v104 v106) (ix3 (0 : Fin 1) l t)
      = Cert.Gmm.dist (fun d => v104 (ix3 (0 : Fin 1) l d)) (fun d => v106 (ix3 (0 : Fin 1) t d)) := by
  unfold k0_pay1
  refine (shapeCast_ab_1ab_apply _ _ (0 : Fin 1) l t).trans ?_
  unfold k0_pay14 Cert.Gmm.dist
  refine congrArg Ideal.sqrt ?_
  refine (Ideal.multiReduction_add_single _ 0x00000000#32 reduces_S48x128x3_S48x128 (.inl rfl) rfl (ix2 l t)).trans ?_
  refine Finset.sum_congr rfl fun d _ => ?_
  have e : reduces_S48x128x3_S48x128.lift (ix2 l t) d = ix3 l t d := funext fun a => Fin.ext (by
    match a with
    | ⟨0, _⟩ => rfl
    | ⟨1, _⟩ => rfl
    | ⟨2, _⟩ => rfl)
  rw [e]
  exact congrArg₂ (· * ·) (posDiff_apply v104 v106 l t d) (posDiff_apply v104 v106 l t d)

end Cert.KernelIdeal.BlockValue

end
-- ==== Proof.KernelBlock.lean ====
/-
  What one grid point's body leaves in each output block, entry by entry.

  A point holds a ligand block x0 [1,48,128] and a protein block x2 [1,128,128] of features, their positions
  x1 [1,48,3] and x3 [1,128,3], and the weights. Entry (g, l, t) of the three head blocks [1,10,48,128] is the
  head's value at component g for the pair (ligand l, protein t) of the block; entry (l, t) of the distance block
  [1,48,128] is the distance of the pair's positions. The linear layer's weight arrives transposed, x4 k j = W1 j k.
-/
import proofs.«116319_j22119081575276_2_alg».proof.Proof.Spec
import proofs.«116319_j22119081575276_2_alg».proof.Proof.Gen.KernelIdeal.Frame
import proofs.«116319_j22119081575276_2_alg».proof.Proof.KernelHeads
import proofs.«116319_j22119081575276_2_alg».proof.Proof.KernelHidden
import proofs.«116319_j22119081575276_2_alg».proof.Proof.KernelDist
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.BlockValue

open Idealize.ShloMosaic Idealize.ShloMosaic.ValueIdx Cert.KernelIdeal Cert.KernelIdeal.Gen

/-- The hidden row of the pair (ligand l, protein t) of a block. -/
def blkAct (x0 : Vec Ideal S1x48x128 .f32) (x2 : Vec Ideal S1x128x128 .f32) (x4 : Vec Ideal S128x128 .bf16)
    (x5 x6 x7 x8 x9 : Vec Ideal S128 .f32) (l : Fin 48) (t : Fin 128) : Fin 128 → EReal :=
  Cert.Gmm.rowAct (fun j k => x4 (ix2 k j)) (fun j => x5 (ix1 j)) (fun j => x8 (ix1 j)) (fun j => x9 (ix1 j))
    (fun j => x6 (ix1 j)) (fun j => x7 (ix1 j)) (fun k => x0 (ix3 (0 : Fin 1) l k)) (fun k => x2 (ix3 (0 : Fin 1) t k))

/-- A head's ten pre-activations for the pair (l, t) of a block. -/
def blkZ (x0 : Vec Ideal S1x48x128 .f32) (x2 : Vec Ideal S1x128x128 .f32) (x4 : Vec Ideal S128x128 .bf16)
    (x5 x6 x7 x8 x9 : Vec Ideal S128 .f32) (W : Vec Ideal S10x128 .bf16) (bias : Vec Ideal S10 .f32) (l : Fin 48) (t : Fin 128) :
    Fin 10 → EReal :=
  Cert.Gmm.logit (fun g k => W (ix2 g k)) (fun g => bias (ix1 g)) (blkAct x0 x2 x4 x5 x6 x7 x8 x9 l t)

/-! The body loads each staging buffer whole and stores each output block whole, through the rectangle at offset zero. -/

theorem off1 : (![0] : Fin 1 → Nat) = fun _ => 0 := funext fun a => by
  match a with
  | ⟨0, _⟩ => rfl
theorem off2 : (![0, 0] : Fin 2 → Nat) = fun _ => 0 := funext fun a => by
  match a with
  | ⟨0, _⟩ => rfl
  | ⟨1, _⟩ => rfl
theorem off3 : (![0, 0, 0] : Fin 3 → Nat) = fun _ => 0 := funext fun a => by
  match a with
  | ⟨0, _⟩ => rfl
  | ⟨1, _⟩ => rfl
  | ⟨2, _⟩ => rfl
theorem off4 : (![0, 0, 0, 0] : Fin 4 → Nat) = fun _ => 0 := funext fun a => by
  match a with
  | ⟨0, _⟩ => rfl
  | ⟨1, _⟩ => rfl
  | ⟨2, _⟩ => rfl
  | ⟨3, _⟩ => rfl

theorem out16_apply (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (g : Fin 10) (l : Fin 48) (t : Fin 128) :
    out0_16 (F := Ideal) x0 x1 x2 x3 x4 x5 x6 x7 x8 x9 x10 x11 x12 x13 x14 x15 (ix4 (0 : Fin 1) g l t)
      = Cert.Gmm.sm (blkZ x0 x2 x4 x5 x6 x7 x8 x9 x10 x11 l t) g := by
  unfold out0_16
  rw [View.canon_unit_zero off4]
  simp only [View.ld_unit_zero (S := S1x48x128) off3, View.ld_unit_zero (S := S1x128x128) off3,
    View.ld_unit_zero (S := S128x128) off2, View.ld_unit_zero (S := S128) off1, View.ld_unit_zero (S := S10x128) off2,
    View.ld_unit_zero (S := S10) off1]
  exact (pi_apply _ _ _ _ x10 x11 g l t).trans
    (congrArg (fun a => Cert.Gmm.sm (Cert.Gmm.logit (fun g k => x10 (ix2 g k)) (fun g => x11 (ix1 g)) a) g)
      (hidRow_eq x0 x2 x4 x5 x8 x9 x6 x7 l t))

theorem out17_apply (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (g : Fin 10) (l : Fin 48) (t : Fin 128) :
    out0_17 (F := Ideal) x0 x1 x2 x3 x4 x5 x6 x7 x8 x9 x10 x11 x12 x13 x14 x15 (ix4 (0 : Fin 1) g l t)
      = Cert.Gmm.sigmaOf (blkZ x0 x2 x4 x5 x6 x7 x8 x9 x12 x13 l t) g := by
  unfold out0_17
  rw [View.canon_unit_zero off4]
  simp only [View.ld_unit_zero (S := S1x48x128) off3, View.ld_unit_zero (S := S1x128x128) off3,
    View.ld_unit_zero (S := S128x128) off2, View.ld_unit_zero (S := S128) off1, View.ld_unit_zero (S := S10x128) off2,
    View.ld_unit_zero (S := S10) off1]
  exact (sigma_apply _ _ _ _ x12 x13 g l t).trans
    (congrArg (fun a => Cert.Gmm.sigmaOf (Cert.Gmm.logit (fun g k => x12 (ix2 g k)) (fun g => x13 (ix1 g)) a) g)
      (hidRow_eq x0 x2 x4 x5 x8 x9 x6 x7 l t))

theorem out18_apply (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (g : Fin 10) (l : Fin 48) (t : Fin 128) :
    out0_18 (F := Ideal) x0 x1 x2 x3 x4 x5 x6 x7 x8 x9 x10 x11 x12 x13 x14 x15 (ix4 (0 : Fin 1) g l t)
      = Cert.Gmm.muOf (blkZ x0 x2 x4 x5 x6 x7 x8 x9 x14 x15 l t) g := by
  unfold out0_18
  rw [View.canon_unit_zero off4]
  simp only [View.ld_unit_zero (S := S1x48x128) off3, View.ld_unit_zero (S := S1x128x128) off3,
    View.ld_unit_zero (S := S128x128) off2, View.ld_unit_zero (S := S128) off1, View.ld_unit_zero (S := S10x128) off2,
    View.ld_unit_zero (S := S10) off1]
  exact (mu_apply _ _ _ _ x14 x15 g l t).trans
    (congrArg (fun a => Cert.Gmm.muOf (Cert.Gmm.logit (fun g k => x14 (ix2 g k)) (fun g => x15 (ix1 g)) a) g)
      (hidRow_eq x0 x2 x4 x5 x8 x9 x6 x7 l t))

theorem out19_apply (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (l : Fin 48) (t : Fin 128) :
    out0_19 (F := Ideal) x0 x1 x2 x3 x4 x5 x6 x7 x8 x9 x10 x11 x12 x13 x14 x15 (ix3 (0 : Fin 1) l t)
      = Cert.Gmm.dist (fun d => x1 (ix3 (0 : Fin 1) l d)) (fun d => x3 (ix3 (0 : Fin 1) t d)) := by
  unfold out0_19
  rw [View.canon_unit_zero off3]
  simp only [View.ld_unit_zero (S := S1x48x3) off3, View.ld_unit_zero (S := S1x128x3) off3]
  exact dist_apply x1 x3 l t

end Cert.KernelIdeal.BlockValue

end
-- ==== Proof.SpecRows.lean ====
/-
  The arithmetic of the output rows: row (48 b + l) · 512 + t belongs to batch b, ligand l, protein t; its ligand row is
  48 b + l and its protein row 512 b + t; every row is one of these.
-/
import proofs.«116319_j22119081575276_2_alg».proof.Proof.Spec

noncomputable section

namespace Cert.Gmm

/-- The output row of (batch b, ligand l, protein t). -/
def outRow (b : Fin 8) (l : Fin 48) (t : Fin 512) : Fin 196608 :=
  ⟨(48 * b.val + l.val) * 512 + t.val, by have := b.isLt; have := l.isLt; have := t.isLt; omega⟩

/-- The ligand row of (b, l). -/
def ligOf (b : Fin 8) (l : Fin 48) : Fin 384 := ⟨48 * b.val + l.val, by have := b.isLt; have := l.isLt; omega⟩
/-- The protein row of (b, t). -/
def proOf (b : Fin 8) (t : Fin 512) : Fin 4096 := ⟨512 * b.val + t.val, by have := b.isLt; have := t.isLt; omega⟩

theorem outRow_val (b : Fin 8) (l : Fin 48) (t : Fin 512) : (outRow b l t).val = (48 * b.val + l.val) * 512 + t.val := rfl

theorem ligRow_outRow (b : Fin 8) (l : Fin 48) (t : Fin 512) : ligRow (outRow b l t) = ligOf b l := by
  apply Fin.ext
  show ((48 * b.val + l.val) * 512 + t.val) / 512 = 48 * b.val + l.val
  have := t.isLt; omega

theorem proRow_outRow (b : Fin 8) (l : Fin 48) (t : Fin 512) : proRow (outRow b l t) = proOf b t := by
  apply Fin.ext
  show ((48 * b.val + l.val) * 512 + t.val) / 24576 * 512 + ((48 * b.val + l.val) * 512 + t.val) % 512 = 512 * b.val + t.val
  have := t.isLt; have := l.isLt; omega

/-- Every output row is the row of one (b, l, t): b = r / 24576, l = (r / 512) % 48, t = r % 512. -/
theorem exists_outRow (r : Fin 196608) : ∃ (b : Fin 8) (l : Fin 48) (t : Fin 512), r = outRow b l t := by
  have hr := r.isLt
  refine ⟨⟨r.val / 24576, by omega⟩, ⟨(r.val / 512) % 48, by omega⟩, ⟨r.val % 512, by omega⟩, ?_⟩
  apply Fin.ext
  show r.val = (48 * (r.val / 24576) + (r.val / 512) % 48) * 512 + r.val % 512
  omega

/-- The batch of an output row. -/
theorem outRow_div (b : Fin 8) (l : Fin 48) (t : Fin 512) : (outRow b l t).val / 24576 = b.val := by
  show ((48 * b.val + l.val) * 512 + t.val) / 24576 = b.val
  have := t.isLt; have := l.isLt; omega

end Cert.Gmm

end
-- ==== Proof.KernelArrIn.lean ====
/-
  The arrays the grid points read, as the argument arrays.

  Before the grid runs the program re-lays its arguments: the ligand and protein feature and position arrays
  [384, ·] and [4096, ·] become [8, 48, ·] and [8, 512, ·] (row 48 b + l is (b, l), row 512 b + t is (b, t)), the
  linear layer's weight is transposed, and the three head weights change float format, which is the identity on
  extended reals. Grid point n = 4 b + s stages ligand block b, protein rows 128 s … 128 s + 127 of batch b, and the
  weights whole. Each lemma below reads one staged block at an entry and lands on an entry of an argument array.
-/
import proofs.«116319_j22119081575276_2_alg».proof.Proof.SpecRows
import proofs.«116319_j22119081575276_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.ArrIn

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-! ## The re-laid arguments -/

/-- The [8, 48, 128] array the grid reads is argument 0 re-laid. -/
theorem V_v0 (c : Dev nD) : (V m c main_v0 : S8x48x128.Idx → EReal)
    = shapeCast S8x48x128 (m ((c : Thread nD τ).loc main_arg0) : S384x128.Idx → EReal) shapeCasts_S384x128_S8x48x128 := by
  show StableHlo.after hostOps0 (fun b => m (c, b)) (Proc.devRef .tc main_v0) = _
  after_results
  rfl

/-- The [8, 512, 128] array the grid reads is argument 3 re-laid. -/
theorem V_v1 (c : Dev nD) : (V m c main_v1 : S8x512x128.Idx → EReal)
    = shapeCast S8x512x128 (m ((c : Thread nD τ).loc main_arg3) : S4096x128.Idx → EReal) shapeCasts_S4096x128_S8x512x128 := by
  show StableHlo.after hostOps0 (fun b => m (c, b)) (Proc.devRef .tc main_v1) = _
  after_results
  rfl

/-- The [8, 48, 3] array the grid reads is argument 1 re-laid. -/
theorem V_v2 (c : Dev nD) : (V m c main_v2 : S8x48x3.Idx → EReal)
    = shapeCast S8x48x3 (m ((c : Thread nD τ).loc main_arg1) : S384x3.Idx → EReal) shapeCasts_S384x3_S8x48x3 := by
  show StableHlo.after hostOps0 (fun b => m (c, b)) (Proc.devRef .tc main_v2) = _
  after_results
  rfl

/-- The [8, 512, 3] array the grid reads is argument 4 re-laid. -/
theorem V_v3 (c : Dev nD) : (V m c main_v3 : S8x512x3.Idx → EReal)
    = shapeCast S8x512x3 (m ((c : Thread nD τ).loc main_arg4) : S4096x3.Idx → EReal) shapeCasts_S4096x3_S8x512x3 := by
  show StableHlo.after hostOps0 (fun b => m (c, b)) (Proc.devRef .tc main_v3) = _
  after_results
  rfl

/-- The weight the grid reads is the linear layer's weight transposed (the format change is the identity). -/
theorem V_v5 (c : Dev nD) : (V m c main_v5 : S128x128.Idx → EReal)
    = transpose S128x128 [1, 0] (m ((c : Thread nD τ).loc main_arg6) : S128x128.Idx → EReal) transposes_S128x128_S128x128_1_0 := by
  show StableHlo.after hostOps0 (fun b => m (c, b)) (Proc.devRef .tc main_v5) = _
  after_results
  rfl

/-- A head weight the grid reads is the argument itself (the format change is the identity). -/
theorem V_v6 (c : Dev nD) : (V m c main_v6 : S10x128.Idx → EReal) = (m ((c : Thread nD τ).loc main_arg12) : S10x128.Idx → EReal) := by
  show StableHlo.after hostOps0 (fun b => m (c, b)) (Proc.devRef .tc main_v6) = _
  after_results
  rfl

/-- A head weight the grid reads is the argument itself (the format change is the identity). -/
theorem V_v7 (c : Dev nD) : (V m c main_v7 : S10x128.Idx → EReal) = (m ((c : Thread nD τ).loc main_arg14) : S10x128.Idx → EReal) := by
  show StableHlo.after hostOps0 (fun b => m (c, b)) (Proc.devRef .tc main_v7) = _
  after_results
  rfl

/-- A head weight the grid reads is the argument itself (the format change is the identity). -/
theorem V_v8 (c : Dev nD) : (V m c main_v8 : S10x128.Idx → EReal) = (m ((c : Thread nD τ).loc main_arg16) : S10x128.Idx → EReal) := by
  show StableHlo.after hostOps0 (fun b => m (c, b)) (Proc.devRef .tc main_v8) = _
  after_results
  rfl

/-! ## The re-laid arguments at an entry -/

/-- Entry (b, l, k) of the re-laid ligand features is row 48 b + l of the argument. -/
theorem v0_at (c : Dev nD) (b : Fin 8) (l : Fin 48) (k : Fin 128) :
    (V m c main_v0 : S8x48x128.Idx → EReal) (ix3 b l k) = (m ((c : Thread nD τ).loc main_arg0) : S384x128.Idx → EReal) (ix2 (Cert.Gmm.ligOf b l) k) := by
  rw [V_v0]
  refine shapeCast_apply _ _ _ _ ?_
  show (S384x128.rowMajor (ix2 (Cert.Gmm.ligOf b l) k)).val = (S8x48x128.rowMajor (ix3 b l k)).val
  rw [Shape.rowMajor_val_two, Shape.rowMajor_val_three]
  show (48 * b.val + l.val) * 128 + k.val = (b.val * 48 + l.val) * 128 + k.val
  omega

/-- Entry (b, l, d) of the re-laid ligand positions is row 48 b + l of the argument. -/
theorem v2_at (c : Dev nD) (b : Fin 8) (l : Fin 48) (d : Fin 3) :
    (V m c main_v2 : S8x48x3.Idx → EReal) (ix3 b l d) = (m ((c : Thread nD τ).loc main_arg1) : S384x3.Idx → EReal) (ix2 (Cert.Gmm.ligOf b l) d) := by
  rw [V_v2]
  refine shapeCast_apply _ _ _ _ ?_
  show (S384x3.rowMajor (ix2 (Cert.Gmm.ligOf b l) d)).val = (S8x48x3.rowMajor (ix3 b l d)).val
  rw [Shape.rowMajor_val_two, Shape.rowMajor_val_three]
  show (48 * b.val + l.val) * 3 + d.val = (b.val * 48 + l.val) * 3 + d.val
  omega

/-- Entry (b, t, k) of the re-laid protein features is row 512 b + t of the argument. -/
theorem v1_at (c : Dev nD) (b : Fin 8) (t : Fin 512) (k : Fin 128) :
    (V m c main_v1 : S8x512x128.Idx → EReal) (ix3 b t k) = (m ((c : Thread nD τ).loc main_arg3) : S4096x128.Idx → EReal) (ix2 (Cert.Gmm.proOf b t) k) := by
  rw [V_v1]
  refine shapeCast_apply _ _ _ _ ?_
  show (S4096x128.rowMajor (ix2 (Cert.Gmm.proOf b t) k)).val = (S8x512x128.rowMajor (ix3 b t k)).val
  rw [Shape.rowMajor_val_two, Shape.rowMajor_val_three]
  show (512 * b.val + t.val) * 128 + k.val = (b.val * 512 + t.val) * 128 + k.val
  omega

/-- Entry (b, t, d) of the re-laid protein positions is row 512 b + t of the argument. -/
theorem v3_at (c : Dev nD) (b : Fin 8) (t : Fin 512) (d : Fin 3) :
    (V m c main_v3 : S8x512x3.Idx → EReal) (ix3 b t d) = (m ((c : Thread nD τ).loc main_arg4) : S4096x3.Idx → EReal) (ix2 (Cert.Gmm.proOf b t) d) := by
  rw [V_v3]
  refine shapeCast_apply _ _ _ _ ?_
  show (S4096x3.rowMajor (ix2 (Cert.Gmm.proOf b t) d)).val = (S8x512x3.rowMajor (ix3 b t d)).val
  rw [Shape.rowMajor_val_two, Shape.rowMajor_val_three]
  show (512 * b.val + t.val) * 3 + d.val = (b.val * 512 + t.val) * 3 + d.val
  omega

/-- Entry (k, j) of the transposed weight is entry (j, k) of the argument. -/
theorem v5_at (c : Dev nD) (k j : Fin 128) :
    (V m c main_v5 : S128x128.Idx → EReal) (ix2 k j) = (m ((c : Thread nD τ).loc main_arg6) : S128x128.Idx → EReal) (ix2 j k) := by
  rw [V_v5]
  refine transpose_apply _ _ _ _ _ fun a => ?_
  match a with
  | ⟨0, _⟩ => rfl
  | ⟨1, _⟩ => rfl

/-! ## Which block a grid point stages -/

/-- Point n stages ligand feature block n / 4. -/
theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
/-- Point n stages ligand position block n / 4. -/
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
/-- Point n stages protein feature rows 128 (n % 4) … of batch n / 4. -/
theorem idx2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
/-- Point n stages protein position rows 128 (n % 4) … of batch n / 4. -/
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
/-- Every point stages the whole of the weight of window 4. -/
theorem idx4 : ∀ t : Fin cfg0.N, win0_4.index t (0 : Fin 2) = 0 ∧ win0_4.index t (1 : Fin 2) = 0 :=
  (by decide +kernel : ∀ t : Fin grid0.N, _)
/-- Every point stages the whole of the weight of window 10. -/
theorem idx10 : ∀ t : Fin cfg0.N, win0_10.index t (0 : Fin 2) = 0 ∧ win0_10.index t (1 : Fin 2) = 0 :=
  (by decide +kernel : ∀ t : Fin grid0.N, _)
/-- Every point stages the whole of the weight of window 12. -/
theorem idx12 : ∀ t : Fin cfg0.N, win0_12.index t (0 : Fin 2) = 0 ∧ win0_12.index t (1 : Fin 2) = 0 :=
  (by decide +kernel : ∀ t : Fin grid0.N, _)
/-- Every point stages the whole of the weight of window 14. -/
theorem idx14 : ∀ t : Fin cfg0.N, win0_14.index t (0 : Fin 2) = 0 ∧ win0_14.index t (1 : Fin 2) = 0 :=
  (by decide +kernel : ∀ t : Fin grid0.N, _)
/-- Every point stages the whole of the vector of window 5. -/
theorem idx5 : ∀ t : Fin cfg0.N, win0_5.index t (0 : Fin 1) = 0 :=
  (by decide +kernel : ∀ t : Fin grid0.N, _)
/-- Every point stages the whole of the vector of window 6. -/
theorem idx6 : ∀ t : Fin cfg0.N, win0_6.index t (0 : Fin 1) = 0 :=
  (by decide +kernel : ∀ t : Fin grid0.N, _)
/-- Every point stages the whole of the vector of window 7. -/
theorem idx7 : ∀ t : Fin cfg0.N, win0_7.index t (0 : Fin 1) = 0 :=
  (by decide +kernel : ∀ t : Fin grid0.N, _)
/-- Every point stages the whole of the vector of window 8. -/
theorem idx8 : ∀ t : Fin cfg0.N, win0_8.index t (0 : Fin 1) = 0 :=
  (by decide +kernel : ∀ t : Fin grid0.N, _)
/-- Every point stages the whole of the vector of window 9. -/
theorem idx9 : ∀ t : Fin cfg0.N, win0_9.index t (0 : Fin 1) = 0 :=
  (by decide +kernel : ∀ t : Fin grid0.N, _)
/-- Every point stages the whole of the vector of window 11. -/
theorem idx11 : ∀ t : Fin cfg0.N, win0_11.index t (0 : Fin 1) = 0 :=
  (by decide +kernel : ∀ t : Fin grid0.N, _)
/-- Every point stages the whole of the vector of window 13. -/
theorem idx13 : ∀ t : Fin cfg0.N, win0_13.index t (0 : Fin 1) = 0 :=
  (by decide +kernel : ∀ t : Fin grid0.N, _)
/-- Every point stages the whole of the vector of window 15. -/
theorem idx15 : ∀ t : Fin cfg0.N, win0_15.index t (0 : Fin 1) = 0 :=
  (by decide +kernel : ∀ t : Fin grid0.N, _)

/-! ## A staged block at an entry -/

/-- The ligand feature block of point 4 b + s at (l, k) is ligand row 48 b + l at k. -/
theorem iblk0_at (c : Dev nD) (t : Fin cfg0.N) (b : Fin 8) (hb : t.val / 4 = b.val) (l : Fin 48) (k : Fin 128) :
    (iblk m c 0 t : Vec Ideal S1x48x128 .f32) (ix3 (0 : Fin 1) l k) = (m ((c : Thread nD τ).loc main_arg0) : S384x128.Idx → EReal) (ix2 (Cert.Gmm.ligOf b l) k) := by
  obtain ⟨e0, e1, e2⟩ := idx0 t
  refine Eq.trans ?_ (v0_at m c b l k)
  unfold iblk
  rw [View.read_apply]
  show V m c main_v0 _ = V m c main_v0 _
  refine congrArg (V m c main_v0 : S8x48x128.Idx → EReal) ?_
  funext a; apply Fin.ext
  match a with
  | ⟨0, _⟩ => show win0_0.index t (0 : Fin 3) * 1 + 1 * (0 : Nat) = b.val; omega
  | ⟨1, _⟩ => show win0_0.index t (1 : Fin 3) * 48 + 1 * l.val = l.val; omega
  | ⟨2, _⟩ => show win0_0.index t (2 : Fin 3) * 128 + 1 * k.val = k.val; omega

/-- The ligand position block of point 4 b + s at (l, d) is ligand row 48 b + l at d. -/
theorem iblk1_at (c : Dev nD) (t : Fin cfg0.N) (b : Fin 8) (hb : t.val / 4 = b.val) (l : Fin 48) (d : Fin 3) :
    (iblk m c 1 t : Vec Ideal S1x48x3 .f32) (ix3 (0 : Fin 1) l d) = (m ((c : Thread nD τ).loc main_arg1) : S384x3.Idx → EReal) (ix2 (Cert.Gmm.ligOf b l) d) := by
  obtain ⟨e0, e1, e2⟩ := idx1 t
  refine Eq.trans ?_ (v2_at m c b l d)
  unfold iblk
  rw [View.read_apply]
  show V m c main_v2 _ = V m c main_v2 _
  refine congrArg (V m c main_v2 : S8x48x3.Idx → EReal) ?_
  funext a; apply Fin.ext
  match a with
  | ⟨0, _⟩ => show win0_1.index t (0 : Fin 3) * 1 + 1 * (0 : Nat) = b.val; omega
  | ⟨1, _⟩ => show win0_1.index t (1 : Fin 3) * 48 + 1 * l.val = l.val; omega
  | ⟨2, _⟩ => show win0_1.index t (2 : Fin 3) * 3 + 1 * d.val = d.val; omega

/-- The protein feature block of point 4 b + s at (t', k) is protein row 512 b + 128 s + t' at k. -/
theorem iblk2_at (c : Dev nD) (t : Fin cfg0.N) (b : Fin 8) (hb : t.val / 4 = b.val) (s : Fin 4) (hs : t.val % 4 = s.val)
    (t' : Fin 128) (p : Fin 512) (hp : p.val = 128 * s.val + t'.val) (k : Fin 128) :
    (iblk m c 2 t : Vec Ideal S1x128x128 .f32) (ix3 (0 : Fin 1) t' k) = (m ((c : Thread nD τ).loc main_arg3) : S4096x128.Idx → EReal) (ix2 (Cert.Gmm.proOf b p) k) := by
  obtain ⟨e0, e1, e2⟩ := idx2 t
  refine Eq.trans ?_ (v1_at m c b p k)
  unfold iblk
  rw [View.read_apply]
  show V m c main_v1 _ = V m c main_v1 _
  refine congrArg (V m c main_v1 : S8x512x128.Idx → EReal) ?_
  funext a; apply Fin.ext
  match a with
  | ⟨0, _⟩ => show win0_2.index t (0 : Fin 3) * 1 + 1 * (0 : Nat) = b.val; omega
  | ⟨1, _⟩ => show win0_2.index t (1 : Fin 3) * 128 + 1 * t'.val = p.val; omega
  | ⟨2, _⟩ => show win0_2.index t (2 : Fin 3) * 128 + 1 * k.val = k.val; omega

/-- The protein position block of point 4 b + s at (t', d) is protein row 512 b + 128 s + t' at d. -/
theorem iblk3_at (c : Dev nD) (t : Fin cfg0.N) (b : Fin 8) (hb : t.val / 4 = b.val) (s : Fin 4) (hs : t.val % 4 = s.val)
    (t' : Fin 128) (p : Fin 512) (hp : p.val = 128 * s.val + t'.val) (d : Fin 3) :
    (iblk m c 3 t : Vec Ideal S1x128x3 .f32) (ix3 (0 : Fin 1) t' d) = (m ((c : Thread nD τ).loc main_arg4) : S4096x3.Idx → EReal) (ix2 (Cert.Gmm.proOf b p) d) := by
  obtain ⟨e0, e1, e2⟩ := idx3 t
  refine Eq.trans ?_ (v3_at m c b p d)
  unfold iblk
  rw [View.read_apply]
  show V m c main_v3 _ = V m c main_v3 _
  refine congrArg (V m c main_v3 : S8x512x3.Idx → EReal) ?_
  funext a; apply Fin.ext
  match a with
  | ⟨0, _⟩ => show win0_3.index t (0 : Fin 3) * 1 + 1 * (0 : Nat) = b.val; omega
  | ⟨1, _⟩ => show win0_3.index t (1 : Fin 3) * 128 + 1 * t'.val = p.val; omega
  | ⟨2, _⟩ => show win0_3.index t (2 : Fin 3) * 3 + 1 * d.val = d.val; omega

/-- The staged linear weight at (k, j) is the argument's entry (j, k). -/
theorem iblk4_at (c : Dev nD) (t : Fin cfg0.N) (k j : Fin 128) :
    (iblk m c 4 t : Vec Ideal S128x128 .bf16) (ix2 k j) = (m ((c : Thread nD τ).loc main_arg6) : S128x128.Idx → EReal) (ix2 j k) := by
  obtain ⟨e0, e1⟩ := idx4 t
  refine Eq.trans ?_ (v5_at m c k j)
  unfold iblk
  rw [View.read_apply]
  show V m c main_v5 _ = V m c main_v5 _
  refine congrArg (V m c main_v5 : S128x128.Idx → EReal) ?_
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- The staged head weight of window 10 at (g, k) is the argument's entry. -/
theorem iblk10_at (c : Dev nD) (t : Fin cfg0.N) (g : Fin 10) (k : Fin 128) :
    (iblk m c 10 t : Vec Ideal S10x128 .bf16) (ix2 g k) = (m ((c : Thread nD τ).loc main_arg12) : S10x128.Idx → EReal) (ix2 g k) := by
  obtain ⟨e0, e1⟩ := idx10 t
  refine Eq.trans ?_ (congrFun (V_v6 m c) (ix2 g k))
  unfold iblk
  rw [View.read_apply]
  show V m c main_v6 _ = V m c main_v6 _
  refine congrArg (V m c main_v6 : S10x128.Idx → EReal) ?_
  funext a; apply Fin.ext
  match a with
  | ⟨0, _⟩ => show win0_10.index t (0 : Fin 2) * 10 + 1 * g.val = g.val; omega
  | ⟨1, _⟩ => show win0_10.index t (1 : Fin 2) * 128 + 1 * k.val = k.val; omega

/-- The staged head weight of window 12 at (g, k) is the argument's entry. -/
theorem iblk12_at (c : Dev nD) (t : Fin cfg0.N) (g : Fin 10) (k : Fin 128) :
    (iblk m c 12 t : Vec Ideal S10x128 .bf16) (ix2 g k) = (m ((c : Thread nD τ).loc main_arg14) : S10x128.Idx → EReal) (ix2 g k) := by
  obtain ⟨e0, e1⟩ := idx12 t
  refine Eq.trans ?_ (congrFun (V_v7 m c) (ix2 g k))
  unfold iblk
  rw [View.read_apply]
  show V m c main_v7 _ = V m c main_v7 _
  refine congrArg (V m c main_v7 : S10x128.Idx → EReal) ?_
  funext a; apply Fin.ext
  match a with
  | ⟨0, _⟩ => show win0_12.index t (0 : Fin 2) * 10 + 1 * g.val = g.val; omega
  | ⟨1, _⟩ => show win0_12.index t (1 : Fin 2) * 128 + 1 * k.val = k.val; omega

/-- The staged head weight of window 14 at (g, k) is the argument's entry. -/
theorem iblk14_at (c : Dev nD) (t : Fin cfg0.N) (g : Fin 10) (k : Fin 128) :
    (iblk m c 14 t : Vec Ideal S10x128 .bf16) (ix2 g k) = (m ((c : Thread nD τ).loc main_arg16) : S10x128.Idx → EReal) (ix2 g k) := by
  obtain ⟨e0, e1⟩ := idx14 t
  refine Eq.trans ?_ (congrFun (V_v8 m c) (ix2 g k))
  unfold iblk
  rw [View.read_apply]
  show V m c main_v8 _ = V m c main_v8 _
  refine congrArg (V m c main_v8 : S10x128.Idx → EReal) ?_
  funext a; apply Fin.ext
  match a with
  | ⟨0, _⟩ => show win0_14.index t (0 : Fin 2) * 10 + 1 * g.val = g.val; omega
  | ⟨1, _⟩ => show win0_14.index t (1 : Fin 2) * 128 + 1 * k.val = k.val; omega

/-- The staged vector of window 5 at j is the argument's entry. -/
theorem iblk5_at (c : Dev nD) (t : Fin cfg0.N) (j : Fin 128) :
    (iblk m c 5 t : Vec Ideal S128 .f32) (ix1 j) = (m ((c : Thread nD τ).loc main_arg7) : S128.Idx → EReal) (ix1 j) := by
  have e0 := idx5 t
  refine Eq.trans ?_ (congrFun (V_main_arg7 m c) (ix1 j))
  unfold iblk
  rw [View.read_apply]
  show V m c main_arg7 _ = V m c main_arg7 _
  refine congrArg (V m c main_arg7 : S128.Idx → EReal) ?_
  funext a; apply Fin.ext
  match a with
  | ⟨0, _⟩ => show win0_5.index t (0 : Fin 1) * 128 + 1 * j.val = j.val; omega

/-- The staged vector of window 6 at j is the argument's entry. -/
theorem iblk6_at (c : Dev nD) (t : Fin cfg0.N) (j : Fin 128) :
    (iblk m c 6 t : Vec Ideal S128 .f32) (ix1 j) = (m ((c : Thread nD τ).loc main_arg8) : S128.Idx → EReal) (ix1 j) := by
  have e0 := idx6 t
  refine Eq.trans ?_ (congrFun (V_main_arg8 m c) (ix1 j))
  unfold iblk
  rw [View.read_apply]
  show V m c main_arg8 _ = V m c main_arg8 _
  refine congrArg (V m c main_arg8 : S128.Idx → EReal) ?_
  funext a; apply Fin.ext
  match a with
  | ⟨0, _⟩ => show win0_6.index t (0 : Fin 1) * 128 + 1 * j.val = j.val; omega

/-- The staged vector of window 7 at j is the argument's entry. -/
theorem iblk7_at (c : Dev nD) (t : Fin cfg0.N) (j : Fin 128) :
    (iblk m c 7 t : Vec Ideal S128 .f32) (ix1 j) = (m ((c : Thread nD τ).loc main_arg9) : S128.Idx → EReal) (ix1 j) := by
  have e0 := idx7 t
  refine Eq.trans ?_ (congrFun (V_main_arg9 m c) (ix1 j))
  unfold iblk
  rw [View.read_apply]
  show V m c main_arg9 _ = V m c main_arg9 _
  refine congrArg (V m c main_arg9 : S128.Idx → EReal) ?_
  funext a; apply Fin.ext
  match a with
  | ⟨0, _⟩ => show win0_7.index t (0 : Fin 1) * 128 + 1 * j.val = j.val; omega

/-- The staged vector of window 8 at j is the argument's entry. -/
theorem iblk8_at (c : Dev nD) (t : Fin cfg0.N) (j : Fin 128) :
    (iblk m c 8 t : Vec Ideal S128 .f32) (ix1 j) = (m ((c : Thread nD τ).loc main_arg10) : S128.Idx → EReal) (ix1 j) := by
  have e0 := idx8 t
  refine Eq.trans ?_ (congrFun (V_main_arg10 m c) (ix1 j))
  unfold iblk
  rw [View.read_apply]
  show V m c main_arg10 _ = V m c main_arg10 _
  refine congrArg (V m c main_arg10 : S128.Idx → EReal) ?_
  funext a; apply Fin.ext
  match a with
  | ⟨0, _⟩ => show win0_8.index t (0 : Fin 1) * 128 + 1 * j.val = j.val; omega

/-- The staged vector of window 9 at j is the argument's entry. -/
theorem iblk9_at (c : Dev nD) (t : Fin cfg0.N) (j : Fin 128) :
    (iblk m c 9 t : Vec Ideal S128 .f32) (ix1 j) = (m ((c : Thread nD τ).loc main_arg11) : S128.Idx → EReal) (ix1 j) := by
  have e0 := idx9 t
  refine Eq.trans ?_ (congrFun (V_main_arg11 m c) (ix1 j))
  unfold iblk
  rw [View.read_apply]
  show V m c main_arg11 _ = V m c main_arg11 _
  refine congrArg (V m c main_arg11 : S128.Idx → EReal) ?_
  funext a; apply Fin.ext
  match a with
  | ⟨0, _⟩ => show win0_9.index t (0 : Fin 1) * 128 + 1 * j.val = j.val; omega

/-- The staged vector of window 11 at j is the argument's entry. -/
theorem iblk11_at (c : Dev nD) (t : Fin cfg0.N) (j : Fin 10) :
    (iblk m c 11 t : Vec Ideal S10 .f32) (ix1 j) = (m ((c : Thread nD τ).loc main_arg13) : S10.Idx → EReal) (ix1 j) := by
  have e0 := idx11 t
  refine Eq.trans ?_ (congrFun (V_main_arg13 m c) (ix1 j))
  unfold iblk
  rw [View.read_apply]
  show V m c main_arg13 _ = V m c main_arg13 _
  refine congrArg (V m c main_arg13 : S10.Idx → EReal) ?_
  funext a; apply Fin.ext
  match a with
  | ⟨0, _⟩ => show win0_11.index t (0 : Fin 1) * 10 + 1 * j.val = j.val; omega

/-- The staged vector of window 13 at j is the argument's entry. -/
theorem iblk13_at (c : Dev nD) (t : Fin cfg0.N) (j : Fin 10) :
    (iblk m c 13 t : Vec Ideal S10 .f32) (ix1 j) = (m ((c : Thread nD τ).loc main_arg15) : S10.Idx → EReal) (ix1 j) := by
  have e0 := idx13 t
  refine Eq.trans ?_ (congrFun (V_main_arg15 m c) (ix1 j))
  unfold iblk
  rw [View.read_apply]
  show V m c main_arg15 _ = V m c main_arg15 _
  refine congrArg (V m c main_arg15 : S10.Idx → EReal) ?_
  funext a; apply Fin.ext
  match a with
  | ⟨0, _⟩ => show win0_13.index t (0 : Fin 1) * 10 + 1 * j.val = j.val; omega

/-- The staged vector of window 15 at j is the argument's entry. -/
theorem iblk15_at (c : Dev nD) (t : Fin cfg0.N) (j : Fin 10) :
    (iblk m c 15 t : Vec Ideal S10 .f32) (ix1 j) = (m ((c : Thread nD τ).loc main_arg17) : S10.Idx → EReal) (ix1 j) := by
  have e0 := idx15 t
  refine Eq.trans ?_ (congrFun (V_main_arg17 m c) (ix1 j))
  unfold iblk
  rw [View.read_apply]
  show V m c main_arg17 _ = V m c main_arg17 _
  refine congrArg (V m c main_arg17 : S10.Idx → EReal) ?_
  funext a; apply Fin.ext
  match a with
  | ⟨0, _⟩ => show win0_15.index t (0 : Fin 1) * 10 + 1 * j.val = j.val; omega

end Cert.KernelIdeal.ArrIn

end
-- ==== Proof.KernelArrFn.lean ====
/-
  The arrays the grid writes, each as one function of the argument arrays.

  Entry (b, g, l, t) of a head array [8, 10, 48, 512] is the head's value at component g for the pair of ligand row
  48 b + l and protein row 512 b + t; entry (b, l, t) of the distance array [8, 48, 512] is the distance of the pair's
  positions. A grid point's block holds the same values once each staged block is read as rows of the arguments.
-/
import proofs.«116319_j22119081575276_2_alg».proof.Proof.Spec
import proofs.«116319_j22119081575276_2_alg».proof.Proof.SpecRows
import proofs.«116319_j22119081575276_2_alg».proof.Proof.KernelBlock
import Idealize.ShloMosaic.Lib.ValueIdx

set_option maxRecDepth 16384

noncomputable section

namespace Cert.KernelIdeal.ArrFn

open Idealize.ShloMosaic Idealize.ShloMosaic.ValueIdx Cert.KernelIdeal Cert.KernelIdeal.BlockValue Cert.Gmm

/-- A head's ten pre-activations for the pair of ligand row lr and protein row pr. -/
def pairZ (a0 : A2 384 128) (a3 : A2 4096 128) (a6 : A2 128 128) (a7 a8 a9 a10 a11 : A1 128) (W : A2 10 128) (bias : A1 10)
    (lr : Fin 384) (pr : Fin 4096) : Fin 10 → EReal :=
  logit (fun g k => W (ix2 g k)) (fun g => bias (ix1 g))
    (rowAct (fun j k => a6 (ix2 j k)) (fun j => a7 (ix1 j)) (fun j => a10 (ix1 j)) (fun j => a11 (ix1 j))
      (fun j => a8 (ix1 j)) (fun j => a9 (ix1 j)) (fun k => a0 (ix2 lr k)) (fun k => a3 (ix2 pr k)))

/-- The pre-activations of an output row are those of its pair of rows. -/
theorem zOf_eq (a0 : A2 384 128) (a3 : A2 4096 128) (a6 : A2 128 128) (a7 a8 a9 a10 a11 : A1 128) (W : A2 10 128) (bias : A1 10)
    (r : Fin 196608) : zOf a0 a3 a6 a7 a8 a9 a10 a11 W bias r = pairZ a0 a3 a6 a7 a8 a9 a10 a11 W bias (ligRow r) (proRow r) := rfl

/-- A head array [8, 10, 48, 512]: f is the softmax, the width or the mean of the ten pre-activations. -/
def headArr (f : (Fin 10 → EReal) → Fin 10 → EReal) (a0 : A2 384 128) (a3 : A2 4096 128) (a6 : A2 128 128)
    (a7 a8 a9 a10 a11 : A1 128) (W : A2 10 128) (bias : A1 10) : S8x10x48x512.Idx → EReal :=
  fun i => f (pairZ a0 a3 a6 a7 a8 a9 a10 a11 W bias (ligOf (i 0) (i 2)) (proOf (i 0) (i 3))) (i 1)

/-- The distance array [8, 48, 512]. -/
def distArr (a1 : A2 384 3) (a4 : A2 4096 3) : S8x48x512.Idx → EReal :=
  fun i => dist (fun d => a1 (ix2 (ligOf (i 0) (i 1)) d)) (fun d => a4 (ix2 (proOf (i 0) (i 2)) d))

theorem headArr_apply (f : (Fin 10 → EReal) → Fin 10 → EReal) (a0 : A2 384 128) (a3 : A2 4096 128) (a6 : A2 128 128)
    (a7 a8 a9 a10 a11 : A1 128) (W : A2 10 128) (bias : A1 10) (b : Fin 8) (g : Fin 10) (l : Fin 48) (t : Fin 512) :
    headArr f a0 a3 a6 a7 a8 a9 a10 a11 W bias (ix4 b g l t) = f (pairZ a0 a3 a6 a7 a8 a9 a10 a11 W bias (ligOf b l) (proOf b t)) g := rfl

theorem distArr_apply (a1 : A2 384 3) (a4 : A2 4096 3) (b : Fin 8) (l : Fin 48) (t : Fin 512) :
    distArr a1 a4 (ix3 b l t) = dist (fun d => a1 (ix2 (ligOf b l) d)) (fun d => a4 (ix2 (proOf b t) d)) := rfl

/-- A block's pre-activations for the pair (l, t') are those of the rows the pair's staged rows are. -/
theorem blkZ_eq (x0 : Vec Ideal S1x48x128 .f32) (x2 : Vec Ideal S1x128x128 .f32) (x4 : Vec Ideal S128x128 .bf16)
    (x5 x6 x7 x8 x9 : Vec Ideal S128 .f32) (xW : Vec Ideal S10x128 .bf16) (xb : Vec Ideal S10 .f32)
    (a0 : A2 384 128) (a3 : A2 4096 128) (a6 : A2 128 128) (a7 a8 a9 a10 a11 : A1 128) (W : A2 10 128) (bias : A1 10)
    (l : Fin 48) (t' : Fin 128) (lr : Fin 384) (pr : Fin 4096)
    (h0 : ∀ k, x0 (ix3 (0 : Fin 1) l k) = a0 (ix2 lr k)) (h2 : ∀ k, x2 (ix3 (0 : Fin 1) t' k) = a3 (ix2 pr k))
    (h4 : ∀ k j, x4 (ix2 k j) = a6 (ix2 j k)) (h5 : ∀ j, x5 (ix1 j) = a7 (ix1 j)) (h6 : ∀ j, x6 (ix1 j) = a8 (ix1 j))
    (h7 : ∀ j, x7 (ix1 j) = a9 (ix1 j)) (h8 : ∀ j, x8 (ix1 j) = a10 (ix1 j)) (h9 : ∀ j, x9 (ix1 j) = a11 (ix1 j))
    (hW : ∀ g k, xW (ix2 g k) = W (ix2 g k)) (hb : ∀ g, xb (ix1 g) = bias (ix1 g)) :
    blkZ x0 x2 x4 x5 x6 x7 x8 x9 xW xb l t' = pairZ a0 a3 a6 a7 a8 a9 a10 a11 W bias lr pr := by
  unfold blkZ blkAct pairZ
  simp only [h0, h2, h4, h5, h6, h7, h8, h9, hW, hb]

/-- A block's distance for the pair (l, t') is that of the rows the pair's staged positions are. -/
theorem blkDist_eq (x1 : Vec Ideal S1x48x3 .f32) (x3 : Vec Ideal S1x128x3 .f32) (a1 : A2 384 3) (a4 : A2 4096 3)
    (l : Fin 48) (t' : Fin 128) (lr : Fin 384) (pr : Fin 4096)
    (h1 : ∀ d, x1 (ix3 (0 : Fin 1) l d) = a1 (ix2 lr d)) (h3 : ∀ d, x3 (ix3 (0 : Fin 1) t' d) = a4 (ix2 pr d)) :
    dist (fun d => x1 (ix3 (0 : Fin 1) l d)) (fun d => x3 (ix3 (0 : Fin 1) t' d))
      = dist (fun d => a1 (ix2 lr d)) (fun d => a4 (ix2 pr d)) := by
  simp only [h1, h3]

end Cert.KernelIdeal.ArrFn

end
-- ==== Proof.KernelArrPi.lean ====
/-
  The mixture-weight array [8, 10, 48, 512] after the grid.

  Grid point n = 4 b + s writes block (b, ·, ·, s): entry (g, l, t') of the block is the softmax, at component g, of
  the pre-activations of ligand row 48 b + l and protein row 512 b + 128 s + t'. The 32 blocks tile the array, so the
  array ends as one function of the argument arrays.
-/
import proofs.«116319_j22119081575276_2_alg».proof.Proof.Spec
import proofs.«116319_j22119081575276_2_alg».proof.Proof.SpecRows
import proofs.«116319_j22119081575276_2_alg».proof.Proof.KernelBlock
import proofs.«116319_j22119081575276_2_alg».proof.Proof.KernelArrIn
import proofs.«116319_j22119081575276_2_alg».proof.Proof.KernelArrFn
import proofs.«116319_j22119081575276_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.ArrPi

open Idealize.ShloMosaic Idealize.ShloMosaic.TcCoe Idealize.SL.Sem Idealize.ShloMosaic.ValueIdx
open Cert.KernelIdeal Cert.KernelIdeal.Gen Cert.KernelIdeal.BlockValue Cert.KernelIdeal.ArrIn Cert.KernelIdeal.ArrFn

variable (m : (ℓ : Loc nD τ sig) → Buf (Elt Ideal) ℓ)

/-- The array the grid leaves: the mixture weights (the softmax) of every pair's ten pre-activations. -/
abbrev H (c : Dev nD) : S8x10x48x512.Idx → EReal :=
  headArr Cert.Gmm.sm (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Point n writes block (n / 4, ·, ·, n % 4). -/
theorem idxOut : ∀ t : Fin cfg0.N, win0_16.index t (0 : Fin 4) = t.val / 4 ∧ win0_16.index t (1 : Fin 4) = 0
    ∧ win0_16.index t (2 : Fin 4) = 0 ∧ win0_16.index t (3 : Fin 4) = t.val % 4 ∧ t.val / 4 < 8 :=
  (by decide +kernel : ∀ t : Fin grid0.N, _)

/-- Every (b, s) is the block of some point. -/
theorem onto : ∀ (b : Fin 8) (s : Fin 4), ∃ t : Fin cfg0.N, t.val / 4 = b.val ∧ t.val % 4 = s.val :=
  (by decide +kernel : ∀ (b : Fin 8) (s : Fin 4), ∃ t : Fin grid0.N, t.val / 4 = b.val ∧ t.val % 4 = s.val)

/-- The body's block at any entry (the leading axis has one coordinate). -/
theorem out_at (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (j : S1x10x48x128.Idx) :
    out0_16 (F := Ideal) x0 x1 x2 x3 x4 x5 x6 x7 x8 x9 x10 x11 x12 x13 x14 x15 j
      = Cert.Gmm.sm (blkZ x0 x2 x4 x5 x6 x7 x8 x9 x10 x11 (j 2) (j 3)) (j 1) := by
  have hj : j = ix4 (0 : Fin 1) (j 1) (j 2) (j 3) := by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl
  exact (congrArg (out0_16 (F := Ideal) x0 x1 x2 x3 x4 x5 x6 x7 x8 x9 x10 x11 x12 x13 x14 x15) hj).trans
    (out16_apply x0 x1 x2 x3 x4 x5 x6 x7 x8 x9 x10 x11 x12 x13 x14 x15 (j 1) (j 2) (j 3))

/-- What point n = 4 b + s writes back is block (b, ·, ·, s) of the array: its entry (g, l, t') is the pair of ligand row
    48 b + l and protein row 512 b + 128 s + t'. -/
theorem flushed_eq (c : Dev nD) (t : Fin cfg0.N) :
    (dats m 0 c).flushed 16 t = ((cfg0.win 16).blk t).view.read (Elt Ideal) (H m c) := by
  show (cfg0.win 16).cut (grid0.coords t) ((dats m 0 c).after 16 t) = _
  rw [after0_16]
  obtain ⟨e0, e1, e2, e3, hb8⟩ := idxOut t
  funext j
  rw [View.read_apply]
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = H m c (((cfg0.win 16).blk t).view.emb j)
  have h0 : (j 0).val < 1 := (j 0).isLt
  have h3 : (j 3).val < 128 := (j 3).isLt
  have hemb : ((cfg0.win 16).blk t).view.emb j
      = ix4 (n0 := 8) (n1 := 10) (n2 := 48) (n3 := 512) ⟨t.val / 4, hb8⟩ (j 1) (j 2) ⟨128 * (t.val % 4) + (j 3).val, by omega⟩ := by
    funext a; apply Fin.ext
    match a with
    | ⟨0, _⟩ => show win0_16.index t (0 : Fin 4) * 1 + 1 * (j 0).val = t.val / 4; omega
    | ⟨1, _⟩ => show win0_16.index t (1 : Fin 4) * 10 + 1 * (j 1).val = (j 1).val; omega
    | ⟨2, _⟩ => show win0_16.index t (2 : Fin 4) * 48 + 1 * (j 2).val = (j 2).val; omega
    | ⟨3, _⟩ => show win0_16.index t (3 : Fin 4) * 128 + 1 * (j 3).val = 128 * (t.val % 4) + (j 3).val; omega
  rw [hemb]
  show _ = Cert.Gmm.sm (pairZ (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (Cert.Gmm.ligOf (⟨t.val / 4, hb8⟩ : Fin 8) (j 2))
    (Cert.Gmm.proOf (⟨t.val / 4, hb8⟩ : Fin 8) (⟨128 * (t.val % 4) + (j 3).val, by omega⟩ : Fin 512))) (j 1)
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j).trans ?_
  refine congrArg (fun z => Cert.Gmm.sm z (j 1)) ?_
  exact blkZ_eq (iblk m c 0 t) (iblk m c 2 t) (iblk m c 4 t) (iblk m c 5 t) (iblk m c 6 t) (iblk m c 7 t) (iblk m c 8 t) (iblk m c 9 t)
    (iblk m c 10 t) (iblk m c 11 t) (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
    (j 2) (j 3) (Cert.Gmm.ligOf (⟨t.val / 4, hb8⟩ : Fin 8) (j 2))
    (Cert.Gmm.proOf (⟨t.val / 4, hb8⟩ : Fin 8) (⟨128 * (t.val % 4) + (j 3).val, by omega⟩ : Fin 512))
    (fun k => iblk0_at m c t ⟨t.val / 4, hb8⟩ rfl (j 2) k)
    (fun k => iblk2_at m c t ⟨t.val / 4, hb8⟩ rfl ⟨t.val % 4, by omega⟩ rfl (j 3) ⟨128 * (t.val % 4) + (j 3).val, by omega⟩ rfl k)
    (fun k j' => iblk4_at m c t k j') (fun j' => iblk5_at m c t j') (fun j' => iblk6_at m c t j') (fun j' => iblk7_at m c t j')
    (fun j' => iblk8_at m c t j') (fun j' => iblk9_at m c t j') (fun g k => iblk10_at m c t g k) (fun g => iblk11_at m c t g)

/-- An entry of the array is in point n's block iff each coordinate is in the block's range. -/
theorem mem_blk (t : Fin cfg0.N) (i : S8x10x48x512.Idx) :
    i ∈ ((cfg0.win 16).blk t).view.set ↔ ∀ a : Fin 4, win0_16.index t a * S1x10x48x128.size a ≤ (i a).val
      ∧ (i a).val < win0_16.index t a * S1x10x48x128.size a + S1x10x48x128.size a := by
  show i ∈ ((View.whole main_v9_0).slice (win0_16.rect t)).set ↔ _
  rw [View.set_slice_whole, Rect.mem_set_unit]
  exact Iff.rfl

/-- The 32 blocks tile the array: entry (b, ·, ·, t) is in the block of the point (b, t / 128). -/
theorem cover (i : S8x10x48x512.Idx) : ∃ t : Fin cfg0.N, (cfg0.win 16).flush t = true ∧ i ∈ ((cfg0.win 16).blk t).view.set := by
  have h0 : (i 0).val < 8 := (i 0).isLt
  have h1 : (i 1).val < 10 := (i 1).isLt
  have h2 : (i 2).val < 48 := (i 2).isLt
  have h3 : (i 3).val < 512 := (i 3).isLt
  obtain ⟨t, hb, hs⟩ := onto ⟨(i 0).val, h0⟩ ⟨(i 3).val / 128, by omega⟩
  have hb' : t.val / 4 = (i 0).val := hb
  have hs' : t.val % 4 = (i 3).val / 128 := hs
  obtain ⟨e0, e1, e2, e3, _⟩ := idxOut t
  refine ⟨t, flush0_16 t, ?_⟩
  rw [mem_blk]
  intro a
  match a with
  | ⟨0, _⟩ => show win0_16.index t (0 : Fin 4) * 1 ≤ (i 0).val ∧ (i 0).val < win0_16.index t (0 : Fin 4) * 1 + 1; omega
  | ⟨1, _⟩ => show win0_16.index t (1 : Fin 4) * 10 ≤ (i 1).val ∧ (i 1).val < win0_16.index t (1 : Fin 4) * 10 + 10; omega
  | ⟨2, _⟩ => show win0_16.index t (2 : Fin 4) * 48 ≤ (i 2).val ∧ (i 2).val < win0_16.index t (2 : Fin 4) * 48 + 48; omega
  | ⟨3, _⟩ => show win0_16.index t (3 : Fin 4) * 128 ≤ (i 3).val ∧ (i 3).val < win0_16.index t (3 : Fin 4) * 128 + 128; omega

/-- After the grid the array holds the mixture weights (the softmax) of every pair. -/
theorem final (c : Dev nD) : (dats m 0 c).arrAt 16 cfg0.N = H m c :=
  (dats m 0 c).arrAt_eq_of_cover 16 (H m c) (fun t _ => flushed_eq m c t) cover

end Cert.KernelIdeal.ArrPi

end
-- ==== Proof.KernelArrSigma.lean ====
/-
  The width array [8, 10, 48, 512] after the grid.

  Grid point n = 4 b + s writes block (b, ·, ·, s): entry (g, l, t') of the block is elu + 1.1, at component g, of the
  second head's pre-activations of ligand row 48 b + l and protein row 512 b + 128 s + t'. The 32 blocks tile the
  array, so the array ends as one function of the argument arrays.
-/
import proofs.«116319_j22119081575276_2_alg».proof.Proof.Spec
import proofs.«116319_j22119081575276_2_alg».proof.Proof.SpecRows
import proofs.«116319_j22119081575276_2_alg».proof.Proof.KernelBlock
import proofs.«116319_j22119081575276_2_alg».proof.Proof.KernelArrIn
import proofs.«116319_j22119081575276_2_alg».proof.Proof.KernelArrFn
import proofs.«116319_j22119081575276_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.ArrSigma

open Idealize.ShloMosaic Idealize.ShloMosaic.TcCoe Idealize.SL.Sem Idealize.ShloMosaic.ValueIdx
open Cert.KernelIdeal Cert.KernelIdeal.Gen Cert.KernelIdeal.BlockValue Cert.KernelIdeal.ArrIn Cert.KernelIdeal.ArrFn

variable (m : (ℓ : Loc nD τ sig) → Buf (Elt Ideal) ℓ)

/-- The array the grid leaves: the widths (elu + 1.1) of every pair's ten pre-activations. -/
abbrev H (c : Dev nD) : S8x10x48x512.Idx → EReal :=
  headArr Cert.Gmm.sigmaOf (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15))

/-- Point n writes block (n / 4, ·, ·, n % 4). -/
theorem idxOut : ∀ t : Fin cfg0.N, win0_17.index t (0 : Fin 4) = t.val / 4 ∧ win0_17.index t (1 : Fin 4) = 0
    ∧ win0_17.index t (2 : Fin 4) = 0 ∧ win0_17.index t (3 : Fin 4) = t.val % 4 ∧ t.val / 4 < 8 :=
  (by decide +kernel : ∀ t : Fin grid0.N, _)

/-- Every (b, s) is the block of some point. -/
theorem onto : ∀ (b : Fin 8) (s : Fin 4), ∃ t : Fin cfg0.N, t.val / 4 = b.val ∧ t.val % 4 = s.val :=
  (by decide +kernel : ∀ (b : Fin 8) (s : Fin 4), ∃ t : Fin grid0.N, t.val / 4 = b.val ∧ t.val % 4 = s.val)

/-- The body's block at any entry (the leading axis has one coordinate). -/
theorem out_at (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (j : S1x10x48x128.Idx) :
    out0_17 (F := Ideal) x0 x1 x2 x3 x4 x5 x6 x7 x8 x9 x10 x11 x12 x13 x14 x15 j
      = Cert.Gmm.sigmaOf (blkZ x0 x2 x4 x5 x6 x7 x8 x9 x12 x13 (j 2) (j 3)) (j 1) := by
  have hj : j = ix4 (0 : Fin 1) (j 1) (j 2) (j 3) := by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl
  exact (congrArg (out0_17 (F := Ideal) x0 x1 x2 x3 x4 x5 x6 x7 x8 x9 x10 x11 x12 x13 x14 x15) hj).trans
    (out17_apply x0 x1 x2 x3 x4 x5 x6 x7 x8 x9 x10 x11 x12 x13 x14 x15 (j 1) (j 2) (j 3))

/-- What point n = 4 b + s writes back is block (b, ·, ·, s) of the array: its entry (g, l, t') is the pair of ligand row
    48 b + l and protein row 512 b + 128 s + t'. -/
theorem flushed_eq (c : Dev nD) (t : Fin cfg0.N) :
    (dats m 0 c).flushed 17 t = ((cfg0.win 17).blk t).view.read (Elt Ideal) (H m c) := by
  show (cfg0.win 17).cut (grid0.coords t) ((dats m 0 c).after 17 t) = _
  rw [after0_17]
  obtain ⟨e0, e1, e2, e3, hb8⟩ := idxOut t
  funext j
  rw [View.read_apply]
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = H m c (((cfg0.win 17).blk t).view.emb j)
  have h0 : (j 0).val < 1 := (j 0).isLt
  have h3 : (j 3).val < 128 := (j 3).isLt
  have hemb : ((cfg0.win 17).blk t).view.emb j
      = ix4 (n0 := 8) (n1 := 10) (n2 := 48) (n3 := 512) ⟨t.val / 4, hb8⟩ (j 1) (j 2) ⟨128 * (t.val % 4) + (j 3).val, by omega⟩ := by
    funext a; apply Fin.ext
    match a with
    | ⟨0, _⟩ => show win0_17.index t (0 : Fin 4) * 1 + 1 * (j 0).val = t.val / 4; omega
    | ⟨1, _⟩ => show win0_17.index t (1 : Fin 4) * 10 + 1 * (j 1).val = (j 1).val; omega
    | ⟨2, _⟩ => show win0_17.index t (2 : Fin 4) * 48 + 1 * (j 2).val = (j 2).val; omega
    | ⟨3, _⟩ => show win0_17.index t (3 : Fin 4) * 128 + 1 * (j 3).val = 128 * (t.val % 4) + (j 3).val; omega
  rw [hemb]
  show _ = Cert.Gmm.sigmaOf (pairZ (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15))
    (Cert.Gmm.ligOf (⟨t.val / 4, hb8⟩ : Fin 8) (j 2))
    (Cert.Gmm.proOf (⟨t.val / 4, hb8⟩ : Fin 8) (⟨128 * (t.val % 4) + (j 3).val, by omega⟩ : Fin 512))) (j 1)
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j).trans ?_
  refine congrArg (fun z => Cert.Gmm.sigmaOf z (j 1)) ?_
  exact blkZ_eq (iblk m c 0 t) (iblk m c 2 t) (iblk m c 4 t) (iblk m c 5 t) (iblk m c 6 t) (iblk m c 7 t) (iblk m c 8 t) (iblk m c 9 t)
    (iblk m c 12 t) (iblk m c 13 t) (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15))
    (j 2) (j 3) (Cert.Gmm.ligOf (⟨t.val / 4, hb8⟩ : Fin 8) (j 2))
    (Cert.Gmm.proOf (⟨t.val / 4, hb8⟩ : Fin 8) (⟨128 * (t.val % 4) + (j 3).val, by omega⟩ : Fin 512))
    (fun k => iblk0_at m c t ⟨t.val / 4, hb8⟩ rfl (j 2) k)
    (fun k => iblk2_at m c t ⟨t.val / 4, hb8⟩ rfl ⟨t.val % 4, by omega⟩ rfl (j 3) ⟨128 * (t.val % 4) + (j 3).val, by omega⟩ rfl k)
    (fun k j' => iblk4_at m c t k j') (fun j' => iblk5_at m c t j') (fun j' => iblk6_at m c t j') (fun j' => iblk7_at m c t j')
    (fun j' => iblk8_at m c t j') (fun j' => iblk9_at m c t j') (fun g k => iblk12_at m c t g k) (fun g => iblk13_at m c t g)

/-- An entry of the array is in point n's block iff each coordinate is in the block's range. -/
theorem mem_blk (t : Fin cfg0.N) (i : S8x10x48x512.Idx) :
    i ∈ ((cfg0.win 17).blk t).view.set ↔ ∀ a : Fin 4, win0_17.index t a * S1x10x48x128.size a ≤ (i a).val
      ∧ (i a).val < win0_17.index t a * S1x10x48x128.size a + S1x10x48x128.size a := by
  show i ∈ ((View.whole main_v9_1).slice (win0_17.rect t)).set ↔ _
  rw [View.set_slice_whole, Rect.mem_set_unit]
  exact Iff.rfl

/-- The 32 blocks tile the array: entry (b, ·, ·, t) is in the block of the point (b, t / 128). -/
theorem cover (i : S8x10x48x512.Idx) : ∃ t : Fin cfg0.N, (cfg0.win 17).flush t = true ∧ i ∈ ((cfg0.win 17).blk t).view.set := by
  have h0 : (i 0).val < 8 := (i 0).isLt
  have h1 : (i 1).val < 10 := (i 1).isLt
  have h2 : (i 2).val < 48 := (i 2).isLt
  have h3 : (i 3).val < 512 := (i 3).isLt
  obtain ⟨t, hb, hs⟩ := onto ⟨(i 0).val, h0⟩ ⟨(i 3).val / 128, by omega⟩
  have hb' : t.val / 4 = (i 0).val := hb
  have hs' : t.val % 4 = (i 3).val / 128 := hs
  obtain ⟨e0, e1, e2, e3, _⟩ := idxOut t
  refine ⟨t, flush0_17 t, ?_⟩
  rw [mem_blk]
  intro a
  match a with
  | ⟨0, _⟩ => show win0_17.index t (0 : Fin 4) * 1 ≤ (i 0).val ∧ (i 0).val < win0_17.index t (0 : Fin 4) * 1 + 1; omega
  | ⟨1, _⟩ => show win0_17.index t (1 : Fin 4) * 10 ≤ (i 1).val ∧ (i 1).val < win0_17.index t (1 : Fin 4) * 10 + 10; omega
  | ⟨2, _⟩ => show win0_17.index t (2 : Fin 4) * 48 ≤ (i 2).val ∧ (i 2).val < win0_17.index t (2 : Fin 4) * 48 + 48; omega
  | ⟨3, _⟩ => show win0_17.index t (3 : Fin 4) * 128 ≤ (i 3).val ∧ (i 3).val < win0_17.index t (3 : Fin 4) * 128 + 128; omega

/-- After the grid the array holds the widths (elu + 1.1) of every pair. -/
theorem final (c : Dev nD) : (dats m 0 c).arrAt 17 cfg0.N = H m c :=
  (dats m 0 c).arrAt_eq_of_cover 17 (H m c) (fun t _ => flushed_eq m c t) cover

end Cert.KernelIdeal.ArrSigma

end
-- ==== Proof.KernelArrMu.lean ====
/-
  The mean array [8, 10, 48, 512] after the grid.

  Grid point n = 4 b + s writes block (b, ·, ·, s): entry (g, l, t') of the block is elu + 1, at component g, of the
  third head's pre-activations of ligand row 48 b + l and protein row 512 b + 128 s + t'. The 32 blocks tile the
  array, so the array ends as one function of the argument arrays.
-/
import proofs.«116319_j22119081575276_2_alg».proof.Proof.Spec
import proofs.«116319_j22119081575276_2_alg».proof.Proof.SpecRows
import proofs.«116319_j22119081575276_2_alg».proof.Proof.KernelBlock
import proofs.«116319_j22119081575276_2_alg».proof.Proof.KernelArrIn
import proofs.«116319_j22119081575276_2_alg».proof.Proof.KernelArrFn
import proofs.«116319_j22119081575276_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.ArrMu

open Idealize.ShloMosaic Idealize.ShloMosaic.TcCoe Idealize.SL.Sem Idealize.ShloMosaic.ValueIdx
open Cert.KernelIdeal Cert.KernelIdeal.Gen Cert.KernelIdeal.BlockValue Cert.KernelIdeal.ArrIn Cert.KernelIdeal.ArrFn

variable (m : (ℓ : Loc nD τ sig) → Buf (Elt Ideal) ℓ)

/-- The array the grid leaves: the means (elu + 1) of every pair's ten pre-activations. -/
abbrev H (c : Dev nD) : S8x10x48x512.Idx → EReal :=
  headArr Cert.Gmm.muOf (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17))

/-- Point n writes block (n / 4, ·, ·, n % 4). -/
theorem idxOut : ∀ t : Fin cfg0.N, win0_18.index t (0 : Fin 4) = t.val / 4 ∧ win0_18.index t (1 : Fin 4) = 0
    ∧ win0_18.index t (2 : Fin 4) = 0 ∧ win0_18.index t (3 : Fin 4) = t.val % 4 ∧ t.val / 4 < 8 :=
  (by decide +kernel : ∀ t : Fin grid0.N, _)

/-- Every (b, s) is the block of some point. -/
theorem onto : ∀ (b : Fin 8) (s : Fin 4), ∃ t : Fin cfg0.N, t.val / 4 = b.val ∧ t.val % 4 = s.val :=
  (by decide +kernel : ∀ (b : Fin 8) (s : Fin 4), ∃ t : Fin grid0.N, t.val / 4 = b.val ∧ t.val % 4 = s.val)

/-- The body's block at any entry (the leading axis has one coordinate). -/
theorem out_at (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (j : S1x10x48x128.Idx) :
    out0_18 (F := Ideal) x0 x1 x2 x3 x4 x5 x6 x7 x8 x9 x10 x11 x12 x13 x14 x15 j
      = Cert.Gmm.muOf (blkZ x0 x2 x4 x5 x6 x7 x8 x9 x14 x15 (j 2) (j 3)) (j 1) := by
  have hj : j = ix4 (0 : Fin 1) (j 1) (j 2) (j 3) := by
    funext a
    match a with
    | ⟨0, _⟩ => exact Fin.ext (by have h : (j 0).val < 1 := (j 0).isLt; show (j 0).val = 0; omega)
    | ⟨1, _⟩ => rfl
    | ⟨2, _⟩ => rfl
    | ⟨3, _⟩ => rfl
  exact (congrArg (out0_18 (F := Ideal) x0 x1 x2 x3 x4 x5 x6 x7 x8 x9 x10 x11 x12 x13 x14 x15) hj).trans
    (out18_apply x0 x1 x2 x3 x4 x5 x6 x7 x8 x9 x10 x11 x12 x13 x14 x15 (j 1) (j 2) (j 3))

/-- What point n = 4 b + s writes back is block (b, ·, ·, s) of the array: its entry (g, l, t') is the pair of ligand row
    48 b + l and protein row 512 b + 128 s + t'. -/
theorem flushed_eq (c : Dev nD) (t : Fin cfg0.N) :
    (dats m 0 c).flushed 18 t = ((cfg0.win 18).blk t).view.read (Elt Ideal) (H m c) := by
  show (cfg0.win 18).cut (grid0.coords t) ((dats m 0 c).after 18 t) = _
  rw [after0_18]
  obtain ⟨e0, e1, e2, e3, hb8⟩ := idxOut t
  funext j
  rw [View.read_apply]
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = H m c (((cfg0.win 18).blk t).view.emb j)
  have h0 : (j 0).val < 1 := (j 0).isLt
  have h3 : (j 3).val < 128 := (j 3).isLt
  have hemb : ((cfg0.win 18).blk t).view.emb j
      = ix4 (n0 := 8) (n1 := 10) (n2 := 48) (n3 := 512) ⟨t.val / 4, hb8⟩ (j 1) (j 2) ⟨128 * (t.val % 4) + (j 3).val, by omega⟩ := by
    funext a; apply Fin.ext
    match a with
    | ⟨0, _⟩ => show win0_18.index t (0 : Fin 4) * 1 + 1 * (j 0).val = t.val / 4; omega
    | ⟨1, _⟩ => show win0_18.index t (1 : Fin 4) * 10 + 1 * (j 1).val = (j 1).val; omega
    | ⟨2, _⟩ => show win0_18.index t (2 : Fin 4) * 48 + 1 * (j 2).val = (j 2).val; omega
    | ⟨3, _⟩ => show win0_18.index t (3 : Fin 4) * 128 + 1 * (j 3).val = 128 * (t.val % 4) + (j 3).val; omega
  rw [hemb]
  show _ = Cert.Gmm.muOf (pairZ (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17))
    (Cert.Gmm.ligOf (⟨t.val / 4, hb8⟩ : Fin 8) (j 2))
    (Cert.Gmm.proOf (⟨t.val / 4, hb8⟩ : Fin 8) (⟨128 * (t.val % 4) + (j 3).val, by omega⟩ : Fin 512))) (j 1)
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j).trans ?_
  refine congrArg (fun z => Cert.Gmm.muOf z (j 1)) ?_
  exact blkZ_eq (iblk m c 0 t) (iblk m c 2 t) (iblk m c 4 t) (iblk m c 5 t) (iblk m c 6 t) (iblk m c 7 t) (iblk m c 8 t) (iblk m c 9 t)
    (iblk m c 14 t) (iblk m c 15 t) (m ((c : Thread nD τ).loc main_arg0)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg16)) (m ((c : Thread nD τ).loc main_arg17))
    (j 2) (j 3) (Cert.Gmm.ligOf (⟨t.val / 4, hb8⟩ : Fin 8) (j 2))
    (Cert.Gmm.proOf (⟨t.val / 4, hb8⟩ : Fin 8) (⟨128 * (t.val % 4) + (j 3).val, by omega⟩ : Fin 512))
    (fun k => iblk0_at m c t ⟨t.val / 4, hb8⟩ rfl (j 2) k)
    (fun k => iblk2_at m c t ⟨t.val / 4, hb8⟩ rfl ⟨t.val % 4, by omega⟩ rfl (j 3) ⟨128 * (t.val % 4) + (j 3).val, by omega⟩ rfl k)
    (fun k j' => iblk4_at m c t k j') (fun j' => iblk5_at m c t j') (fun j' => iblk6_at m c t j') (fun j' => iblk7_at m c t j')
    (fun j' => iblk8_at m c t j') (fun j' => iblk9_at m c t j') (fun g k => iblk14_at m c t g k) (fun g => iblk15_at m c t g)

/-- An entry of the array is in point n's block iff each coordinate is in the block's range. -/
theorem mem_blk (t : Fin cfg0.N) (i : S8x10x48x512.Idx) :
    i ∈ ((cfg0.win 18).blk t).view.set ↔ ∀ a : Fin 4, win0_18.index t a * S1x10x48x128.size a ≤ (i a).val
      ∧ (i a).val < win0_18.index t a * S1x10x48x128.size a + S1x10x48x128.size a := by
  show i ∈ ((View.whole main_v9_2).slice (win0_18.rect t)).set ↔ _
  rw [View.set_slice_whole, Rect.mem_set_unit]
  exact Iff.rfl

/-- The 32 blocks tile the array: entry (b, ·, ·, t) is in the block of the point (b, t / 128). -/
theorem cover (i : S8x10x48x512.Idx) : ∃ t : Fin cfg0.N, (cfg0.win 18).flush t = true ∧ i ∈ ((cfg0.win 18).blk t).view.set := by
  have h0 : (i 0).val < 8 := (i 0).isLt
  have h1 : (i 1).val < 10 := (i 1).isLt
  have h2 : (i 2).val < 48 := (i 2).isLt
  have h3 : (i 3).val < 512 := (i 3).isLt
  obtain ⟨t, hb, hs⟩ := onto ⟨(i 0).val, h0⟩ ⟨(i 3).val / 128, by omega⟩
  have hb' : t.val / 4 = (i 0).val := hb
  have hs' : t.val % 4 = (i 3).val / 128 := hs
  obtain ⟨e0, e1, e2, e3, _⟩ := idxOut t
  refine ⟨t, flush0_18 t, ?_⟩
  rw [mem_blk]
  intro a
  match a with
  | ⟨0, _⟩ => show win0_18.index t (0 : Fin 4) * 1 ≤ (i 0).val ∧ (i 0).val < win0_18.index t (0 : Fin 4) * 1 + 1; omega
  | ⟨1, _⟩ => show win0_18.index t (1 : Fin 4) * 10 ≤ (i 1).val ∧ (i 1).val < win0_18.index t (1 : Fin 4) * 10 + 10; omega
  | ⟨2, _⟩ => show win0_18.index t (2 : Fin 4) * 48 ≤ (i 2).val ∧ (i 2).val < win0_18.index t (2 : Fin 4) * 48 + 48; omega
  | ⟨3, _⟩ => show win0_18.index t (3 : Fin 4) * 128 ≤ (i 3).val ∧ (i 3).val < win0_18.index t (3 : Fin 4) * 128 + 128; omega

/-- After the grid the array holds the means (elu + 1) of every pair. -/
theorem final (c : Dev nD) : (dats m 0 c).arrAt 18 cfg0.N = H m c :=
  (dats m 0 c).arrAt_eq_of_cover 18 (H m c) (fun t _ => flushed_eq m c t) cover

end Cert.KernelIdeal.ArrMu

end
-- ==== Proof.KernelArrDist.lean ====
/-
  The distance array [8, 48, 512] after the grid.

  Grid point n = 4 b + s writes block (b, ·, s): entry (l, t') of the block is the distance between the positions of
  ligand row 48 b + l and protein row 512 b + 128 s + t'. The 32 blocks tile the array, so the array ends as one
  function of the two position arguments.
-/
import proofs.«116319_j22119081575276_2_alg».proof.Proof.Spec
import proofs.«116319_j22119081575276_2_alg».proof.Proof.SpecRows
import proofs.«116319_j22119081575276_2_alg».proof.Proof.KernelBlock
import proofs.«116319_j22119081575276_2_alg».proof.Proof.KernelArrIn
import proofs.«116319_j22119081575276_2_alg».proof.Proof.KernelArrFn
import proofs.«116319_j22119081575276_2_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.ArrDist

open Idealize.ShloMosaic Idealize.ShloMosaic.TcCoe Idealize.SL.Sem Idealize.ShloMosaic.ValueIdx
open Cert.KernelIdeal Cert.KernelIdeal.Gen Cert.KernelIdeal.BlockValue Cert.KernelIdeal.ArrIn Cert.KernelIdeal.ArrFn

variable (m : (ℓ : Loc nD τ sig) → Buf (Elt Ideal) ℓ)

/-- The array the grid leaves: the distance of every pair's positions. -/
abbrev H (c : Dev nD) : S8x48x512.Idx → EReal :=
  distArr (m ((c : Thread nD τ).loc main_arg1)) (m ((c : Thread nD τ).loc main_arg4))

/-- Point n writes block (n / 4, ·, n % 4). -/
theorem idxOut : ∀ t : Fin cfg0.N, win0_19.index t (0 : Fin 3) = t.val / 4 ∧ win0_19.index t (1 : Fin 3) = 0
    ∧ win0_19.index t (2 : Fin 3) = t.val % 4 ∧ t.val / 4 < 8 :=
  (by decide +kernel : ∀ t : Fin grid0.N, _)

/-- Every (b, s) is the block of some point. -/
theorem onto : ∀ (b : Fin 8) (s : Fin 4), ∃ t : Fin cfg0.N, t.val / 4 = b.val ∧ t.val % 4 = s.val :=
  (by decide +kernel : ∀ (b : Fin 8) (s : Fin 4), ∃ t : Fin grid0.N, t.val / 4 = b.val ∧ t.val % 4 = s.val)

/-- The body's block at any entry (the leading axis has one coordinate). -/
theorem out_at (x0 : Vec Ideal S1x48x128 .f32) (x1 : Vec Ideal S1x48x3 .f32) (x2 : Vec Ideal S1x128x128 .f32)
    (x3 : Vec Ideal S1x128x3 .f32) (x4 : Vec Ideal S128x128 .bf16) (x5 x6 x7 x8 x9 : Vec Ideal S128 .f32)
    (x10 : Vec Ideal S10x128 .bf16) (x11 : Vec Ideal S10 .f32) (x12 : Vec Ideal S10x128 .bf16) (x13 : Vec Ideal S10 .f32)
    (x14 : Vec Ideal S10x128 .bf16) (x15 : Vec Ideal S10 .f32) (j : S1x48x128.Idx) :
    out0_19 (F := Ideal) x0 x1 x2 x3 x4 x5 x6 x7 x8 x9 x10 x11 x12 x13 x14 x15 j
      = Cert.Gmm.dist (fun d => x1 (ix3 (0 : Fin 1) (j 1) d)) (fun d => x3 (ix3 (0 : Fin 1) (j 2) d)) := by
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  exact (congrArg (out0_19 (F := Ideal) x0 x1 x2 x3 x4 x5 x6 x7 x8 x9 x10 x11 x12 x13 x14 x15) hj).trans
    (out19_apply x0 x1 x2 x3 x4 x5 x6 x7 x8 x9 x10 x11 x12 x13 x14 x15 (j 1) (j 2))

/-- What point n = 4 b + s writes back is block (b, ·, s) of the array: its entry (l, t') is the pair of ligand row
    48 b + l and protein row 512 b + 128 s + t'. -/
theorem flushed_eq (c : Dev nD) (t : Fin cfg0.N) :
    (dats m 0 c).flushed 19 t = ((cfg0.win 19).blk t).view.read (Elt Ideal) (H m c) := by
  show (cfg0.win 19).cut (grid0.coords t) ((dats m 0 c).after 19 t) = _
  rw [after0_19]
  obtain ⟨e0, e1, e2, hb8⟩ := idxOut t
  funext j
  rw [View.read_apply]
  show out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j = H m c (((cfg0.win 19).blk t).view.emb j)
  have h0 : (j 0).val < 1 := (j 0).isLt
  have h2 : (j 2).val < 128 := (j 2).isLt
  have hemb : ((cfg0.win 19).blk t).view.emb j
      = ix3 (n0 := 8) (n1 := 48) (n2 := 512) ⟨t.val / 4, hb8⟩ (j 1) ⟨128 * (t.val % 4) + (j 2).val, by omega⟩ := by
    funext a; apply Fin.ext
    match a with
    | ⟨0, _⟩ => show win0_19.index t (0 : Fin 3) * 1 + 1 * (j 0).val = t.val / 4; omega
    | ⟨1, _⟩ => show win0_19.index t (1 : Fin 3) * 48 + 1 * (j 1).val = (j 1).val; omega
    | ⟨2, _⟩ => show win0_19.index t (2 : Fin 3) * 128 + 1 * (j 2).val = 128 * (t.val % 4) + (j 2).val; omega
  rw [hemb]
  show _ = Cert.Gmm.dist
    (fun d => (m ((c : Thread nD τ).loc main_arg1)) (ix2 (Cert.Gmm.ligOf (⟨t.val / 4, hb8⟩ : Fin 8) (j 1)) d))
    (fun d => (m ((c : Thread nD τ).loc main_arg4)) (ix2 (Cert.Gmm.proOf (⟨t.val / 4, hb8⟩ : Fin 8) (⟨128 * (t.val % 4) + (j 2).val, by omega⟩ : Fin 512)) d))
  refine (out_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j).trans ?_
  exact blkDist_eq (iblk m c 1 t) (iblk m c 3 t) (m ((c : Thread nD τ).loc main_arg1)) (m ((c : Thread nD τ).loc main_arg4))
    (j 1) (j 2) (Cert.Gmm.ligOf (⟨t.val / 4, hb8⟩ : Fin 8) (j 1))
    (Cert.Gmm.proOf (⟨t.val / 4, hb8⟩ : Fin 8) (⟨128 * (t.val % 4) + (j 2).val, by omega⟩ : Fin 512))
    (fun d => iblk1_at m c t ⟨t.val / 4, hb8⟩ rfl (j 1) d)
    (fun d => iblk3_at m c t ⟨t.val / 4, hb8⟩ rfl ⟨t.val % 4, by omega⟩ rfl (j 2) ⟨128 * (t.val % 4) + (j 2).val, by omega⟩ rfl d)

/-- An entry of the array is in point n's block iff each coordinate is in the block's range. -/
theorem mem_blk (t : Fin cfg0.N) (i : S8x48x512.Idx) :
    i ∈ ((cfg0.win 19).blk t).view.set ↔ ∀ a : Fin 3, win0_19.index t a * S1x48x128.size a ≤ (i a).val
      ∧ (i a).val < win0_19.index t a * S1x48x128.size a + S1x48x128.size a := by
  show i ∈ ((View.whole main_v9_3).slice (win0_19.rect t)).set ↔ _
  rw [View.set_slice_whole, Rect.mem_set_unit]
  exact Iff.rfl

/-- The 32 blocks tile the array: entry (b, ·, t) is in the block of the point (b, t / 128). -/
theorem cover (i : S8x48x512.Idx) : ∃ t : Fin cfg0.N, (cfg0.win 19).flush t = true ∧ i ∈ ((cfg0.win 19).blk t).view.set := by
  have h0 : (i 0).val < 8 := (i 0).isLt
  have h1 : (i 1).val < 48 := (i 1).isLt
  have h2 : (i 2).val < 512 := (i 2).isLt
  obtain ⟨t, hb, hs⟩ := onto ⟨(i 0).val, h0⟩ ⟨(i 2).val / 128, by omega⟩
  have hb' : t.val / 4 = (i 0).val := hb
  have hs' : t.val % 4 = (i 2).val / 128 := hs
  obtain ⟨e0, e1, e2, _⟩ := idxOut t
  refine ⟨t, flush0_19 t, ?_⟩
  rw [mem_blk]
  intro a
  match a with
  | ⟨0, _⟩ => show win0_19.index t (0 : Fin 3) * 1 ≤ (i 0).val ∧ (i 0).val < win0_19.index t (0 : Fin 3) * 1 + 1; omega
  | ⟨1, _⟩ => show win0_19.index t (1 : Fin 3) * 48 ≤ (i 1).val ∧ (i 1).val < win0_19.index t (1 : Fin 3) * 48 + 48; omega
  | ⟨2, _⟩ => show win0_19.index t (2 : Fin 3) * 128 ≤ (i 2).val ∧ (i 2).val < win0_19.index t (2 : Fin 3) * 128 + 128; omega

/-- After the grid the array holds the distance of every pair. -/
theorem final (c : Dev nD) : (dats m 0 c).arrAt 19 cfg0.N = H m c :=
  (dats m 0 c).arrAt_eq_of_cover 19 (H m c) (fun t _ => flushed_eq m c t) cover

end Cert.KernelIdeal.ArrDist

end
-- ==== Proof.KernelArrTail.lean ====
/-
  The program's results, read off the arrays the grid leaves.

  After the grid the program moves the component axis of each head array [8, 10, 48, 512] last and flattens
  (b, l, t) to the output row; the distances [8, 48, 512] are flattened to a column; the batch of each row is an
  iota over the eight batches, repeated 24576 times each. Each result below is those operations applied to whatever
  array the grid left.
-/
import proofs.«116319_j22119081575276_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.ArrTail

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ)

/-- The program's result %11: the component axis of the grid's array 0 moved last, then the pairs flattened. -/
theorem tail_v11 (c : Dev nD) (H : S8x10x48x512.Idx → EReal) (hfin : (dats m 0 c).arrAt 16 cfg0.N = H) :
    (Pipeline.afterTail₀ cfgs (dats m) 0 (V0 m) [hostOps1] c main_v11 : S196608x10.Idx → EReal)
      = shapeCast S196608x10 (transpose S8x48x512x10 [0, 2, 3, 1] H transposes_S8x10x48x512_S8x48x512x10_0_2_3_1) shapeCasts_S8x48x512x10_S196608x10 := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v9_0) = H :=
    (Pipeline.withArrays_arr spec0 launch0.win.arr_inj c (V0 m c) (fun w => (dats m 0 c).arrAt w cfg0.N) 16).trans hfin
  rw [e]
  rfl

/-- The program's result %13: the component axis of the grid's array 1 moved last, then the pairs flattened. -/
theorem tail_v13 (c : Dev nD) (H : S8x10x48x512.Idx → EReal) (hfin : (dats m 0 c).arrAt 17 cfg0.N = H) :
    (Pipeline.afterTail₀ cfgs (dats m) 0 (V0 m) [hostOps1] c main_v13 : S196608x10.Idx → EReal)
      = shapeCast S196608x10 (transpose S8x48x512x10 [0, 2, 3, 1] H transposes_S8x10x48x512_S8x48x512x10_0_2_3_1) shapeCasts_S8x48x512x10_S196608x10 := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v9_1) = H :=
    (Pipeline.withArrays_arr spec0 launch0.win.arr_inj c (V0 m c) (fun w => (dats m 0 c).arrAt w cfg0.N) 17).trans hfin
  rw [e]
  rfl

/-- The program's result %15: the component axis of the grid's array 2 moved last, then the pairs flattened. -/
theorem tail_v15 (c : Dev nD) (H : S8x10x48x512.Idx → EReal) (hfin : (dats m 0 c).arrAt 18 cfg0.N = H) :
    (Pipeline.afterTail₀ cfgs (dats m) 0 (V0 m) [hostOps1] c main_v15 : S196608x10.Idx → EReal)
      = shapeCast S196608x10 (transpose S8x48x512x10 [0, 2, 3, 1] H transposes_S8x10x48x512_S8x48x512x10_0_2_3_1) shapeCasts_S8x48x512x10_S196608x10 := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v9_2) = H :=
    (Pipeline.withArrays_arr spec0 launch0.win.arr_inj c (V0 m c) (fun w => (dats m 0 c).arrAt w cfg0.N) 18).trans hfin
  rw [e]
  rfl

/-- The program's result %16: the grid's distance array flattened to a column. -/
theorem tail_v16 (c : Dev nD) (H : S8x48x512.Idx → EReal) (hfin : (dats m 0 c).arrAt 19 cfg0.N = H) :
    (Pipeline.afterTail₀ cfgs (dats m) 0 (V0 m) [hostOps1] c main_v16 : S196608x1.Idx → EReal)
      = shapeCast S196608x1 H shapeCasts_S8x48x512_S196608x1 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v9_3) = H :=
    (Pipeline.withArrays_arr spec0 launch0.win.arr_inj c (V0 m c) (fun w => (dats m 0 c).arrAt w cfg0.N) 19).trans hfin
  rw [e]
  rfl

/-- The program's result %19: the batch numbers, each repeated over its 24576 rows. -/
theorem tail_v19 (c : Dev nD) :
    (Pipeline.afterTail₀ cfgs (dats m) 0 (V0 m) [hostOps1] c main_v19 : S196608.Idx → BitVec 32)
      = shapeCast S196608 (broadcastInDim S8x24576 ![0] bcast_S8_S8x24576_0 (iotaInDim S8 32 0)) shapeCasts_S8x24576_S196608 := by
  unfold Pipeline.afterTail₀
  show StableHlo.after hostOps1 _ (Proc.devRef .tc main_v19) = _
  after_results
  rfl

end Cert.KernelIdeal.ArrTail

end
-- ==== Proof.KernelTailOps.lean ====
/-
  The layout operations after the region, read entry by entry.

  Each head's result [8, 10, 48, 512] is transposed to [8, 48, 512, 10] and flattened to [196608, 10]: row
  (48 b + l) · 512 + t, column g is entry (b, g, l, t). The distances [8, 48, 512] are flattened to [196608, 1]: row
  (48 b + l) · 512 + t is entry (b, l, t). The batch of a row: the numbers 0 … 7, each repeated along 24576 columns,
  flattened to [196608], so that entry r is r / 24576.
-/
import proofs.«116319_j22119081575276_2_alg».proof.Proof.SpecRows
import proofs.«116319_j22119081575276_2_alg».proof.Proof.Gen.KernelIdeal
import Idealize.ShloMosaic.Lib.ValueIdx
import Idealize.ShloMosaic.Lib.ValueLayout
import Idealize.ShloMosaic.Lib.Pipeline.Value

set_option maxRecDepth 16384

noncomputable section

namespace Cert.KernelIdeal.TailOps

open Idealize.ShloMosaic Idealize.ShloMosaic.ValueIdx Cert.KernelIdeal

/-- A head's result, transposed and flattened, at the row of (b, l, t) and column g, is its entry (b, g, l, t). -/
theorem headTail_apply {α : Type} (W : S8x10x48x512.Idx → α) (h : S8x10x48x512.Transposes [0, 2, 3, 1] S8x48x512x10)
    (h' : S8x48x512x10.ShapeCasts S196608x10) (b : Fin 8) (l : Fin 48) (t : Fin 512) (g : Fin 10) :
    shapeCast S196608x10 (transpose S8x48x512x10 [0, 2, 3, 1] W h) h' (ix2 (Cert.Gmm.outRow b l t) g) = W (ix4 b g l t) := by
  refine (shapeCast_apply _ h' (ix2 (Cert.Gmm.outRow b l t) g) (ix4 b l t g) ?_).trans ?_
  · rw [Shape.rowMajor_val_four, Shape.rowMajor_val_two]
    show ((b.val * 48 + l.val) * 512 + t.val) * 10 + g.val = ((48 * b.val + l.val) * 512 + t.val) * 10 + g.val
    omega
  · refine transpose_apply _ W h (ix4 b l t g) (ix4 b g l t) fun c => ?_
    match c with
    | ⟨0, _⟩ => rfl
    | ⟨1, _⟩ => rfl
    | ⟨2, _⟩ => rfl
    | ⟨3, _⟩ => rfl

/-- The distances, flattened, at the row of (b, l, t), are entry (b, l, t). -/
theorem distTail_apply {α : Type} (D : S8x48x512.Idx → α) (h : S8x48x512.ShapeCasts S196608x1)
    (b : Fin 8) (l : Fin 48) (t : Fin 512) :
    shapeCast S196608x1 D h (ix2 (Cert.Gmm.outRow b l t) (0 : Fin 1)) = D (ix3 b l t) := by
  refine shapeCast_apply D h (ix2 (Cert.Gmm.outRow b l t) (0 : Fin 1)) (ix3 b l t) ?_
  rw [Shape.rowMajor_val_three, Shape.rowMajor_val_two]
  show (b.val * 48 + l.val) * 512 + t.val = ((48 * b.val + l.val) * 512 + t.val) * 1 + 0
  omega

/-- The batch of each output row: entry r of the flattened [8, 24576] array of row numbers is r / 24576. -/
theorem batchTail_eq (hb : S8.BroadcastsInDim S8x24576 (![0] : Fin 1 → Fin S8x24576.rank))
    (hs : S8x24576.ShapeCasts S196608) :
    shapeCast S196608 (broadcastInDim S8x24576 ![0] hb (iotaInDim S8 32 0)) hs = Cert.Gmm.Gbatch := by
  funext i
  obtain ⟨r, rfl⟩ : ∃ r : Fin 196608, i = ix1 r := ⟨i 0, eq_ix1 i⟩
  have hr : r.val < 196608 := r.isLt
  refine (shapeCast_apply _ hs (ix1 r) (ix2 (⟨r.val / 24576, by omega⟩ : Fin 8) (⟨r.val % 24576, by omega⟩ : Fin 24576)) ?_).trans ?_
  · rw [Shape.rowMajor_val_two, Shape.rowMajor_val_one]
    show r.val / 24576 * 24576 + r.val % 24576 = r.val
    omega
  · refine (broadcastInDim_apply _ hb (iotaInDim S8 32 0) _ (ix1 (⟨r.val / 24576, by omega⟩ : Fin 8)) fun a => ?_).trans rfl
    match a with
    | ⟨0, _⟩ => rfl

end Cert.KernelIdeal.TailOps

end
-- ==== Proof.KernelArrOut.lean ====
/-
  The program's results are the specification's functions.

  Row (48 b + l) · 512 + t, column g of a head's result is entry (b, g, l, t) of the array the grid left, which is the
  head at component g for ligand row 48 b + l and protein row 512 b + t: the ligand and protein rows of that output
  row. The same for the distances' column.
-/
import proofs.«116319_j22119081575276_2_alg».proof.Proof.Spec
import proofs.«116319_j22119081575276_2_alg».proof.Proof.SpecRows
import proofs.«116319_j22119081575276_2_alg».proof.Proof.KernelArrFn
import proofs.«116319_j22119081575276_2_alg».proof.Proof.KernelTailOps
import Idealize.ShloMosaic.Lib.ValueIdx

set_option maxRecDepth 16384

noncomputable section

namespace Cert.KernelIdeal.ArrOut

open Idealize.ShloMosaic Idealize.ShloMosaic.ValueIdx Cert.KernelIdeal Cert.KernelIdeal.ArrFn Cert.Gmm

/-- A head array, component axis moved last and pairs flattened, is the head of every output row. -/
theorem head_out (f : (Fin 10 → EReal) → Fin 10 → EReal) (a0 : A2 384 128) (a3 : A2 4096 128) (a6 : A2 128 128)
    (a7 a8 a9 a10 a11 : A1 128) (W : A2 10 128) (bias : A1 10) (G : A2 196608 10)
    (hG : ∀ (r : Fin 196608) (g : Fin 10), G (ix2 r g) = f (zOf a0 a3 a6 a7 a8 a9 a10 a11 W bias r) g)
    (h : S8x10x48x512.Transposes [0, 2, 3, 1] S8x48x512x10) (h' : S8x48x512x10.ShapeCasts S196608x10) :
    shapeCast S196608x10 (transpose S8x48x512x10 [0, 2, 3, 1] (headArr f a0 a3 a6 a7 a8 a9 a10 a11 W bias) h) h' = G := by
  funext i
  obtain ⟨r, g, rfl⟩ : ∃ (r : Fin 196608) (g : Fin 10), i = ix2 r g := ⟨i 0, i 1, eq_ix2 i⟩
  obtain ⟨b, l, t, rfl⟩ := exists_outRow r
  rw [TailOps.headTail_apply, headArr_apply, hG, zOf_eq, ligRow_outRow, proRow_outRow]

theorem pi_out (a0 : A2 384 128) (a3 : A2 4096 128) (a6 : A2 128 128) (a7 a8 a9 a10 a11 : A1 128) (W : A2 10 128) (bias : A1 10)
    (h : S8x10x48x512.Transposes [0, 2, 3, 1] S8x48x512x10) (h' : S8x48x512x10.ShapeCasts S196608x10) :
    shapeCast S196608x10 (transpose S8x48x512x10 [0, 2, 3, 1] (headArr sm a0 a3 a6 a7 a8 a9 a10 a11 W bias) h) h'
      = Gpi a0 a3 a6 a7 a8 a9 a10 a11 W bias :=
  head_out sm a0 a3 a6 a7 a8 a9 a10 a11 W bias _ (fun _ _ => rfl) h h'

theorem sigma_out (a0 : A2 384 128) (a3 : A2 4096 128) (a6 : A2 128 128) (a7 a8 a9 a10 a11 : A1 128) (W : A2 10 128) (bias : A1 10)
    (h : S8x10x48x512.Transposes [0, 2, 3, 1] S8x48x512x10) (h' : S8x48x512x10.ShapeCasts S196608x10) :
    shapeCast S196608x10 (transpose S8x48x512x10 [0, 2, 3, 1] (headArr sigmaOf a0 a3 a6 a7 a8 a9 a10 a11 W bias) h) h'
      = Gsigma a0 a3 a6 a7 a8 a9 a10 a11 W bias :=
  head_out sigmaOf a0 a3 a6 a7 a8 a9 a10 a11 W bias _ (fun _ _ => rfl) h h'

theorem mu_out (a0 : A2 384 128) (a3 : A2 4096 128) (a6 : A2 128 128) (a7 a8 a9 a10 a11 : A1 128) (W : A2 10 128) (bias : A1 10)
    (h : S8x10x48x512.Transposes [0, 2, 3, 1] S8x48x512x10) (h' : S8x48x512x10.ShapeCasts S196608x10) :
    shapeCast S196608x10 (transpose S8x48x512x10 [0, 2, 3, 1] (headArr muOf a0 a3 a6 a7 a8 a9 a10 a11 W bias) h) h'
      = Gmu a0 a3 a6 a7 a8 a9 a10 a11 W bias :=
  head_out muOf a0 a3 a6 a7 a8 a9 a10 a11 W bias _ (fun _ _ => rfl) h h'

/-- The distance array flattened to a column is the distance of every output row. -/
theorem dist_out (a1 : A2 384 3) (a4 : A2 4096 3) (h : S8x48x512.ShapeCasts S196608x1) :
    shapeCast S196608x1 (distArr a1 a4) h = Gdist a1 a4 := by
  funext i
  obtain ⟨r, z, rfl⟩ : ∃ (r : Fin 196608) (z : Fin 1), i = ix2 r z := ⟨i 0, i 1, eq_ix2 i⟩
  obtain rfl : z = 0 := Subsingleton.elim _ _
  obtain ⟨b, l, t, rfl⟩ := exists_outRow r
  rw [TailOps.distTail_apply, distArr_apply]
  show _ = dist (fun d => a1 (ix2 (ligRow (outRow b l t)) d)) (fun d => a4 (ix2 (proRow (outRow b l t)) d))
  rw [ligRow_outRow, proRow_outRow]

end Cert.KernelIdeal.ArrOut

end
-- ==== Proof.KernelValue.lean ====
/-
  The idealized kernel's program, run whole: every result array as a function of the argument arrays.

  Grid point (b, s) of the 8 × 4 grid holds ligand block b, protein rows 128 s … 128 s + 127 of batch b, and writes
  block (b, ·, ·, s) of the three head arrays [8, 10, 48, 512] and block (b, ·, s) of the distances [8, 48, 512]; the
  32 blocks tile the arrays. The program then moves the component axis last and flattens (b, l, t) to the output row
  (48 b + l) · 512 + t.
-/
import proofs.«116319_j22119081575276_2_alg».proof.Proof.Spec
import proofs.«116319_j22119081575276_2_alg».proof.Proof.KernelBlock
import proofs.«116319_j22119081575276_2_alg».proof.Proof.KernelArrPi
import proofs.«116319_j22119081575276_2_alg».proof.Proof.KernelArrSigma
import proofs.«116319_j22119081575276_2_alg».proof.Proof.KernelArrMu
import proofs.«116319_j22119081575276_2_alg».proof.Proof.KernelArrDist
import proofs.«116319_j22119081575276_2_alg».proof.Proof.KernelArrTail
import proofs.«116319_j22119081575276_2_alg».proof.Proof.KernelArrOut
import proofs.«116319_j22119081575276_2_alg».proof.Proof.KernelTailOps
import proofs.«116319_j22119081575276_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Value

open Idealize.ShloMosaic Idealize.ShloMosaic.TcCoe Idealize.SL.Sem Idealize.ShloMosaic.ValueIdx

/-- After the run every argument array is as launched: the lines before and after the grid write none of them, and
    the grid only reads the ones it stages. -/
theorem kept (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Gen.dats m) 0 (Pipeline.afterTail₀ Cert.KernelIdeal.cfgs (Gen.dats m) 0 (Gen.V0 m) [Gen.hostOps1]) r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17) :=
  ⟨(((h c).2 main_arg0 (Pipeline.mem_restRefs_of main_arg0 (by decide) (by decide))).trans (Gen.W_main_arg0 m (Gen.dats m) c)),
    (((h c).2 main_arg1 (Pipeline.mem_restRefs_of main_arg1 (by decide) (by decide))).trans (Gen.W_main_arg1 m (Gen.dats m) c)),
    (((h c).2 main_arg2 (Pipeline.mem_restRefs_of main_arg2 (by decide) (by decide))).trans (Gen.W_main_arg2 m (Gen.dats m) c)),
    (((h c).2 main_arg3 (Pipeline.mem_restRefs_of main_arg3 (by decide) (by decide))).trans (Gen.W_main_arg3 m (Gen.dats m) c)),
    (((h c).2 main_arg4 (Pipeline.mem_restRefs_of main_arg4 (by decide) (by decide))).trans (Gen.W_main_arg4 m (Gen.dats m) c)),
    (((h c).2 main_arg5 (Pipeline.mem_restRefs_of main_arg5 (by decide) (by decide))).trans (Gen.W_main_arg5 m (Gen.dats m) c)),
    (((h c).2 main_arg6 (Pipeline.mem_restRefs_of main_arg6 (by decide) (by decide))).trans (Gen.W_main_arg6 m (Gen.dats m) c)),
    (((h c).1 5).trans (((Gen.dats m 0 c).arrAt_in 5 rfl _).trans ((Gen.A_eq m c 5).trans (Gen.V_main_arg7 m c)))),
    (((h c).1 6).trans (((Gen.dats m 0 c).arrAt_in 6 rfl _).trans ((Gen.A_eq m c 6).trans (Gen.V_main_arg8 m c)))),
    (((h c).1 7).trans (((Gen.dats m 0 c).arrAt_in 7 rfl _).trans ((Gen.A_eq m c 7).trans (Gen.V_main_arg9 m c)))),
    (((h c).1 8).trans (((Gen.dats m 0 c).arrAt_in 8 rfl _).trans ((Gen.A_eq m c 8).trans (Gen.V_main_arg10 m c)))),
    (((h c).1 9).trans (((Gen.dats m 0 c).arrAt_in 9 rfl _).trans ((Gen.A_eq m c 9).trans (Gen.V_main_arg11 m c)))),
    (((h c).2 main_arg12 (Pipeline.mem_restRefs_of main_arg12 (by decide) (by decide))).trans (Gen.W_main_arg12 m (Gen.dats m) c)),
    (((h c).1 11).trans (((Gen.dats m 0 c).arrAt_in 11 rfl _).trans ((Gen.A_eq m c 11).trans (Gen.V_main_arg13 m c)))),
    (((h c).2 main_arg14 (Pipeline.mem_restRefs_of main_arg14 (by decide) (by decide))).trans (Gen.W_main_arg14 m (Gen.dats m) c)),
    (((h c).1 13).trans (((Gen.dats m 0 c).arrAt_in 13 rfl _).trans ((Gen.A_eq m c 13).trans (Gen.V_main_arg15 m c)))),
    (((h c).2 main_arg16 (Pipeline.mem_restRefs_of main_arg16 (by decide) (by decide))).trans (Gen.W_main_arg16 m (Gen.dats m) c)),
    (((h c).1 15).trans (((Gen.dats m 0 c).arrAt_in 15 rfl _).trans ((Gen.A_eq m c 15).trans (Gen.V_main_arg17 m c))))⟩

/-- The mixture weights: the first head's array after the grid, its component axis moved last and its pairs flattened. -/
theorem res_pi (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Gen.dats m) 0 (Pipeline.afterTail₀ Cert.KernelIdeal.cfgs (Gen.dats m) 0 (Gen.V0 m) [Gen.hostOps1]) r)
    (c : Dev Cert.KernelIdeal.nD) :
    r.2.mem ((c.tc : Thread Cert.KernelIdeal.nD Cert.KernelIdeal.τ).loc Cert.KernelIdeal.main_v11) = Cert.Gmm.Gpi (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) :=
  ((h c).2 Cert.KernelIdeal.main_v11 (Pipeline.mem_restRefs_of Cert.KernelIdeal.main_v11 (by decide) (by decide))).trans
    ((ArrTail.tail_v11 m c (ArrPi.H m c) (ArrPi.final m c)).trans (ArrOut.pi_out _ _ _ _ _ _ _ _ _ _ _ _))

/-- The widths, from the second head's array. -/
theorem res_sigma (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Gen.dats m) 0 (Pipeline.afterTail₀ Cert.KernelIdeal.cfgs (Gen.dats m) 0 (Gen.V0 m) [Gen.hostOps1]) r)
    (c : Dev Cert.KernelIdeal.nD) :
    r.2.mem ((c.tc : Thread Cert.KernelIdeal.nD Cert.KernelIdeal.τ).loc Cert.KernelIdeal.main_v13) = Cert.Gmm.Gsigma (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) :=
  ((h c).2 Cert.KernelIdeal.main_v13 (Pipeline.mem_restRefs_of Cert.KernelIdeal.main_v13 (by decide) (by decide))).trans
    ((ArrTail.tail_v13 m c (ArrSigma.H m c) (ArrSigma.final m c)).trans (ArrOut.sigma_out _ _ _ _ _ _ _ _ _ _ _ _))

/-- The means, from the third head's array. -/
theorem res_mu (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Gen.dats m) 0 (Pipeline.afterTail₀ Cert.KernelIdeal.cfgs (Gen.dats m) 0 (Gen.V0 m) [Gen.hostOps1]) r)
    (c : Dev Cert.KernelIdeal.nD) :
    r.2.mem ((c.tc : Thread Cert.KernelIdeal.nD Cert.KernelIdeal.τ).loc Cert.KernelIdeal.main_v15) = Cert.Gmm.Gmu (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) :=
  ((h c).2 Cert.KernelIdeal.main_v15 (Pipeline.mem_restRefs_of Cert.KernelIdeal.main_v15 (by decide) (by decide))).trans
    ((ArrTail.tail_v15 m c (ArrMu.H m c) (ArrMu.final m c)).trans (ArrOut.mu_out _ _ _ _ _ _ _ _ _ _ _ _))

/-- The distances, from the grid's distance array flattened. -/
theorem res_dist (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Gen.dats m) 0 (Pipeline.afterTail₀ Cert.KernelIdeal.cfgs (Gen.dats m) 0 (Gen.V0 m) [Gen.hostOps1]) r)
    (c : Dev Cert.KernelIdeal.nD) :
    r.2.mem ((c.tc : Thread Cert.KernelIdeal.nD Cert.KernelIdeal.τ).loc Cert.KernelIdeal.main_v16) = Cert.Gmm.Gdist (m ((c.tc : Thread Cert.KernelIdeal.nD Cert.KernelIdeal.τ).loc Cert.KernelIdeal.main_arg1)) (m ((c.tc : Thread Cert.KernelIdeal.nD Cert.KernelIdeal.τ).loc Cert.KernelIdeal.main_arg4)) :=
  ((h c).2 Cert.KernelIdeal.main_v16 (Pipeline.mem_restRefs_of Cert.KernelIdeal.main_v16 (by decide) (by decide))).trans
    ((ArrTail.tail_v16 m c (ArrDist.H m c) (ArrDist.final m c)).trans (ArrOut.dist_out _ _ _))

/-- The batch of each output row. -/
theorem res_batch (m : (ℓ : Loc Cert.KernelIdeal.nD Cert.KernelIdeal.τ Cert.KernelIdeal.sig) → Buf (Elt Ideal) ℓ) (r : PUnit × MemSt Cert.KernelIdeal.nD Cert.KernelIdeal.τ Cert.KernelIdeal.sig (Elt Ideal))
    (h : Pipeline.FramePost Cert.KernelIdeal.cfgs (Gen.dats m) 0 (Pipeline.afterTail₀ Cert.KernelIdeal.cfgs (Gen.dats m) 0 (Gen.V0 m) [Gen.hostOps1]) r)
    (c : Dev Cert.KernelIdeal.nD) :
    r.2.mem ((c.tc : Thread Cert.KernelIdeal.nD Cert.KernelIdeal.τ).loc Cert.KernelIdeal.main_v19) = Cert.Gmm.Gbatch :=
  ((h c).2 Cert.KernelIdeal.main_v19 (Pipeline.mem_restRefs_of Cert.KernelIdeal.main_v19 (by decide) (by decide))).trans
    ((ArrTail.tail_v19 m c).trans (TailOps.batchTail_eq _ _))

theorem run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v11) = Cert.Gmm.Gpi (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.KernelIdeal.nD Cert.KernelIdeal.τ).loc Cert.KernelIdeal.main_v13) = Cert.Gmm.Gsigma (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v15) = Cert.Gmm.Gmu (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      ∧ r.2.mem ((c.tc : Thread Cert.KernelIdeal.nD Cert.KernelIdeal.τ).loc Cert.KernelIdeal.main_v16) = Cert.Gmm.Gdist (m ((c.tc : Thread Cert.KernelIdeal.nD Cert.KernelIdeal.τ).loc Cert.KernelIdeal.main_arg1)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v19) = Cert.Gmm.Gbatch
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run (Cert.KernelIdeal.defs (F := Ideal)) _ _).mono
    (fun r h c => ⟨res_pi m r h c, res_sigma m r h c, res_mu m r h c, res_dist m r h c, res_batch m r h c, kept m r h c⟩)
    (Gen.run_main m g)

end Cert.KernelIdeal.Value

end
-- ==== Proof.RefRunOps.lean ====
/-
  The idealized reference's @main as a list of its host operations, the three calls of elu unfolded at their call
  sites: each call is fifteen operations over that call's own buffers (the zero and its broadcast, the comparison
  u > 0, a second zero, broadcast and comparison, a third zero passed through where — its conversion, its broadcast,
  the select that zeroes the positive part —, exp − 1, the one and its broadcast, the product, and the outer select).
  The list is in two parts, one per window of @main; the program is the straight line of the two parts in order.
-/
import proofs.«116319_j22119081575276_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main: eighty-eight operations. -/
abbrev ops0 : List (HloOp τ sig (Elt F)) :=
  [ reshape main_arg0 main_v0 rfl shapeCasts_S384x128_S8x48x128,
    reshape main_arg3 main_v1 rfl shapeCasts_S4096x128_S8x512x128,
    unary main_v0 main_v2 (broadcastInDim S8x48x1x128 ![0, 1, 3] bcast_S8x48x128_S8x48x1x128_0_1_3 : (⟨S8x48x128, .f32⟩ : BufTy).Contents (Elt F) → (⟨S8x48x1x128, .f32⟩ : BufTy).Contents (Elt F)),
    unary main_v1 main_v3 (broadcastInDim S8x1x512x128 ![0, 2, 3] bcast_S8x512x128_S8x1x512x128_0_2_3 : (⟨S8x512x128, .f32⟩ : BufTy).Contents (Elt F) → (⟨S8x1x512x128, .f32⟩ : BufTy).Contents (Elt F)),
    unary main_v2 main_v4 (broadcastInDim S8x48x512x128 ![0, 1, 2, 3] bcast_S8x48x1x128_S8x48x512x128_0_1_2_3 : (⟨S8x48x1x128, .f32⟩ : BufTy).Contents (Elt F) → (⟨S8x48x512x128, .f32⟩ : BufTy).Contents (Elt F)),
    unary main_v3 main_v5 (broadcastInDim S8x48x512x128 ![0, 1, 2, 3] bcast_S8x1x512x128_S8x48x512x128_0_1_2_3 : (⟨S8x1x512x128, .f32⟩ : BufTy).Contents (Elt F) → (⟨S8x48x512x128, .f32⟩ : BufTy).Contents (Elt F)),
    binary main_v4 main_v5 main_v6 (addf : (⟨S8x48x512x128, .f32⟩ : BufTy).Contents (Elt F) → (⟨S8x48x512x128, .f32⟩ : BufTy).Contents (Elt F) → (⟨S8x48x512x128, .f32⟩ : BufTy).Contents (Elt F)),
    reshape main_v6 main_v7 rfl shapeCasts_S8x48x512x128_S196608x128,
    unary main_arg6 main_v8 ((transpose S128x128 [1, 0] · transposes_S128x128_S128x128_1_0) : (⟨S128x128, .f32⟩ : BufTy).Contents (Elt F) → (⟨S128x128, .f32⟩ : BufTy).Contents (Elt F)),
    binary main_v7 main_v8 main_v9 ((fun l r => Host.dotGeneral dot_S196608x128_S128x128_S196608x128_1_0_0_1_n_n none l r) : (⟨S196608x128, .f32⟩ : BufTy).Contents (Elt F) → (⟨S128x128, .f32⟩ : BufTy).Contents (Elt F) → (⟨S196608x128, .f32⟩ : BufTy).Contents (Elt F)),
    unary main_arg7 main_v10 (broadcastInDim S1x128 ![1] bcast_S128_S1x128_1 : (⟨S128, .f32⟩ : BufTy).Contents (Elt F) → (⟨S1x128, .f32⟩ : BufTy).Contents (Elt F)),
    unary main_v10 main_v11 (broadcastInDim S196608x128 ![0, 1] bcast_S1x128_S196608x128_0_1 : (⟨S1x128, .f32⟩ : BufTy).Contents (Elt F) → (⟨S196608x128, .f32⟩ : BufTy).Contents (Elt F)),
    binary main_v9 main_v11 main_v12 (addf : (⟨S196608x128, .f32⟩ : BufTy).Contents (Elt F) → (⟨S196608x128, .f32⟩ : BufTy).Contents (Elt F) → (⟨S196608x128, .f32⟩ : BufTy).Contents (Elt F)),
    unary main_arg10 main_v13 (broadcastInDim S1x128 ![1] bcast_S128_S1x128_1 : (⟨S128, .f32⟩ : BufTy).Contents (Elt F) → (⟨S1x128, .f32⟩ : BufTy).Contents (Elt F)),
    unary main_v13 main_v14 (broadcastInDim S196608x128 ![0, 1] bcast_S1x128_S196608x128_0_1 : (⟨S1x128, .f32⟩ : BufTy).Contents (Elt F) → (⟨S196608x128, .f32⟩ : BufTy).Contents (Elt F)),
    binary main_v12 main_v14 main_v15 (subf : (⟨S196608x128, .f32⟩ : BufTy).Contents (Elt F) → (⟨S196608x128, .f32⟩ : BufTy).Contents (Elt F) → (⟨S196608x128, .f32⟩ : BufTy).Contents (Elt F)),
    nullary main_cst (constant S_ .f32 0x3727C5AC#32),
    unary main_cst main_v16 (broadcastInDim S128 ![] bcast_S_S128 : (⟨S_, .f32⟩ : BufTy).Contents (Elt F) → (⟨S128, .f32⟩ : BufTy).Contents (Elt F)),
    binary main_arg11 main_v16 main_v17 (addf : (⟨S128, .f32⟩ : BufTy).Contents (Elt F) → (⟨S128, .f32⟩ : BufTy).Contents (Elt F) → (⟨S128, .f32⟩ : BufTy).Contents (Elt F)),
    unary main_v17 main_v18 (Host.rsqrt : (⟨S128, .f32⟩ : BufTy).Contents (Elt F) → (⟨S128, .f32⟩ : BufTy).Contents (Elt F)),
    unary main_v18 main_v19 (broadcastInDim S1x128 ![1] bcast_S128_S1x128_1 : (⟨S128, .f32⟩ : BufTy).Contents (Elt F) → (⟨S1x128, .f32⟩ : BufTy).Contents (Elt F)),
    unary main_v19 main_v20 (broadcastInDim S196608x128 ![0, 1] bcast_S1x128_S196608x128_0_1 : (⟨S1x128, .f32⟩ : BufTy).Contents (Elt F) → (⟨S196608x128, .f32⟩ : BufTy).Contents (Elt F)),
    binary main_v15 main_v20 main_v21 (mulf : (⟨S196608x128, .f32⟩ : BufTy).Contents (Elt F) → (⟨S196608x128, .f32⟩ : BufTy).Contents (Elt F) → (⟨S196608x128, .f32⟩ : BufTy).Contents (Elt F)),
    unary main_arg8 main_v22 (broadcastInDim S1x128 ![1] bcast_S128_S1x128_1 : (⟨S128, .f32⟩ : BufTy).Contents (Elt F) → (⟨S1x128, .f32⟩ : BufTy).Contents (Elt F)),
    unary main_v22 main_v23 (broadcastInDim S196608x128 ![0, 1] bcast_S1x128_S196608x128_0_1 : (⟨S1x128, .f32⟩ : BufTy).Contents (Elt F) → (⟨S196608x128, .f32⟩ : BufTy).Contents (Elt F)),
    binary main_v21 main_v23 main_v24 (mulf : (⟨S196608x128, .f32⟩ : BufTy).Contents (Elt F) → (⟨S196608x128, .f32⟩ : BufTy).Contents (Elt F) → (⟨S196608x128, .f32⟩ : BufTy).Contents (Elt F)),
    unary main_arg9 main_v25 (broadcastInDim S1x128 ![1] bcast_S128_S1x128_1 : (⟨S128, .f32⟩ : BufTy).Contents (Elt F) → (⟨S1x128, .f32⟩ : BufTy).Contents (Elt F)),
    unary main_v25 main_v26 (broadcastInDim S196608x128 ![0, 1] bcast_S1x128_S196608x128_0_1 : (⟨S1x128, .f32⟩ : BufTy).Contents (Elt F) → (⟨S196608x128, .f32⟩ : BufTy).Contents (Elt F)),
    binary main_v24 main_v26 main_v27 (addf : (⟨S196608x128, .f32⟩ : BufTy).Contents (Elt F) → (⟨S196608x128, .f32⟩ : BufTy).Contents (Elt F) → (⟨S196608x128, .f32⟩ : BufTy).Contents (Elt F)),
    TRef.nullary main_call0.cst (constant S_ .f32 0x00000000#32),
    TRef.unary main_call0.cst main_call0.v0 (broadcastInDim S196608x128 ![] bcast_S_S196608x128),
    TRef.binary (.of main_v27) main_call0.v0 main_call0.v1 (cmpf .ogt),
    TRef.nullary main_call0.cst_0 (constant S_ .f32 0x00000000#32),
    TRef.unary main_call0.cst_0 main_call0.v2 (broadcastInDim S196608x128 ![] bcast_S_S196608x128),
    TRef.binary (.of main_v27) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S196608x128 ![] bcast_S_S196608x128),
    TRef.ternary main_call0.v3 main_call0.call0.v1 (.of main_v27) main_call0.call0.v2 select,
    TRef.unary main_call0.call0.v2 main_call0.v5 Host.expm1,
    TRef.nullary main_call0.cst_2 (constant S_ .f32 0x3F800000#32),
    TRef.unary main_call0.cst_2 main_call0.v6 (broadcastInDim S196608x128 ![] bcast_S_S196608x128),
    TRef.binary main_call0.v6 main_call0.v5 main_call0.v7 mulf,
    TRef.ternary main_call0.v1 (.of main_v27) main_call0.v7 main_call0.call1.v0 select,
    unary main_arg12 main_v29 ((transpose S128x10 [1, 0] · transposes_S10x128_S128x10_1_0) : (⟨S10x128, .f32⟩ : BufTy).Contents (Elt F) → (⟨S128x10, .f32⟩ : BufTy).Contents (Elt F)),
    binary main_v28 main_v29 main_v30 ((fun l r => Host.dotGeneral dot_S196608x128_S128x10_S196608x10_1_0_0_1_n_n none l r) : (⟨S196608x128, .f32⟩ : BufTy).Contents (Elt F) → (⟨S128x10, .f32⟩ : BufTy).Contents (Elt F) → (⟨S196608x10, .f32⟩ : BufTy).Contents (Elt F)),
    unary main_arg13 main_v31 (broadcastInDim S1x10 ![1] bcast_S10_S1x10_1 : (⟨S10, .f32⟩ : BufTy).Contents (Elt F) → (⟨S1x10, .f32⟩ : BufTy).Contents (Elt F)),
    unary main_v31 main_v32 (broadcastInDim S196608x10 ![0, 1] bcast_S1x10_S196608x10_0_1 : (⟨S1x10, .f32⟩ : BufTy).Contents (Elt F) → (⟨S196608x10, .f32⟩ : BufTy).Contents (Elt F)),
    binary main_v30 main_v32 main_v33 (addf : (⟨S196608x10, .f32⟩ : BufTy).Contents (Elt F) → (⟨S196608x10, .f32⟩ : BufTy).Contents (Elt F) → (⟨S196608x10, .f32⟩ : BufTy).Contents (Elt F)),
    nullary main_cst_0 (constant S_ .f32 0xFF800000#32),
    binary main_v33 main_cst_0 main_v34 ((fun x v => Host.reduce FloatOps.maximumf x v reducesTo_S196608x10_S196608_d1 h_S_) : (⟨S196608x10, .f32⟩ : BufTy).Contents (Elt F) → (⟨S_, .f32⟩ : BufTy).Contents (Elt F) → (⟨S196608, .f32⟩ : BufTy).Contents (Elt F)),
    nullary main_cst_1 (constant S_ .f32 0xFF800000#32),
    unary main_cst_1 main_v35 (broadcastInDim S196608 ![] bcast_S_S196608 : (⟨S_, .f32⟩ : BufTy).Contents (Elt F) → (⟨S196608, .f32⟩ : BufTy).Contents (Elt F)),
    binary main_v35 main_v34 main_v36 (maximumf : (⟨S196608, .f32⟩ : BufTy).Contents (Elt F) → (⟨S196608, .f32⟩ : BufTy).Contents (Elt F) → (⟨S196608, .f32⟩ : BufTy).Contents (Elt F)),
    unary main_v36 main_v37 (broadcastInDim S196608x1 ![0] bcast_S196608_S196608x1_0 : (⟨S196608, .f32⟩ : BufTy).Contents (Elt F) → (⟨S196608x1, .f32⟩ : BufTy).Contents (Elt F)),
    unary main_v37 main_v38 (broadcastInDim S196608x10 ![0, 1] bcast_S196608x1_S196608x10_0_1 : (⟨S196608x1, .f32⟩ : BufTy).Contents (Elt F) → (⟨S196608x10, .f32⟩ : BufTy).Contents (Elt F)),
    binary main_v33 main_v38 main_v39 (subf : (⟨S196608x10, .f32⟩ : BufTy).Contents (Elt F) → (⟨S196608x10, .f32⟩ : BufTy).Contents (Elt F) → (⟨S196608x10, .f32⟩ : BufTy).Contents (Elt F)),
    unary main_v39 main_v40 (Host.exp : (⟨S196608x10, .f32⟩ : BufTy).Contents (Elt F) → (⟨S196608x10, .f32⟩ : BufTy).Contents (Elt F)),
    nullary main_cst_2 (constant S_ .f32 0x00000000#32),
    binary main_v40 main_cst_2 main_v41 ((fun x v => Host.reduceAdd x v reducesTo_S196608x10_S196608_d1 h_S_) : (⟨S196608x10, .f32⟩ : BufTy).Contents (Elt F) → (⟨S_, .f32⟩ : BufTy).Contents (Elt F) → (⟨S196608, .f32⟩ : BufTy).Contents (Elt F)),
    unary main_v41 main_v42 (broadcastInDim S196608x1 ![0] bcast_S196608_S196608x1_0 : (⟨S196608, .f32⟩ : BufTy).Contents (Elt F) → (⟨S196608x1, .f32⟩ : BufTy).Contents (Elt F)),
    unary main_v42 main_v43 (broadcastInDim S196608x10 ![0, 1] bcast_S196608x1_S196608x10_0_1 : (⟨S196608x1, .f32⟩ : BufTy).Contents (Elt F) → (⟨S196608x10, .f32⟩ : BufTy).Contents (Elt F)),
    binary main_v40 main_v43 main_v44 (Host.divf : (⟨S196608x10, .f32⟩ : BufTy).Contents (Elt F) → (⟨S196608x10, .f32⟩ : BufTy).Contents (Elt F) → (⟨S196608x10, .f32⟩ : BufTy).Contents (Elt F)),
    unary main_arg14 main_v45 ((transpose S128x10 [1, 0] · transposes_S10x128_S128x10_1_0) : (⟨S10x128, .f32⟩ : BufTy).Contents (Elt F) → (⟨S128x10, .f32⟩ : BufTy).Contents (Elt F)),
    binary main_v28 main_v45 main_v46 ((fun l r => Host.dotGeneral dot_S196608x128_S128x10_S196608x10_1_0_0_1_n_n none l r) : (⟨S196608x128, .f32⟩ : BufTy).Contents (Elt F) → (⟨S128x10, .f32⟩ : BufTy).Contents (Elt F) → (⟨S196608x10, .f32⟩ : BufTy).Contents (Elt F)),
    unary main_arg15 main_v47 (broadcastInDim S1x10 ![1] bcast_S10_S1x10_1 : (⟨S10, .f32⟩ : BufTy).Contents (Elt F) → (⟨S1x10, .f32⟩ : BufTy).Contents (Elt F)),
    unary main_v47 main_v48 (broadcastInDim S196608x10 ![0, 1] bcast_S1x10_S196608x10_0_1 : (⟨S1x10, .f32⟩ : BufTy).Contents (Elt F) → (⟨S196608x10, .f32⟩ : BufTy).Contents (Elt F)),
    binary main_v46 main_v48 main_v49 (addf : (⟨S196608x10, .f32⟩ : BufTy).Contents (Elt F) → (⟨S196608x10, .f32⟩ : BufTy).Contents (Elt F) → (⟨S196608x10, .f32⟩ : BufTy).Contents (Elt F)),
    TRef.nullary main_call1.cst (constant S_ .f32 0x00000000#32),
    TRef.unary main_call1.cst main_call1.v0 (broadcastInDim S196608x10 ![] bcast_S_S196608x10),
    TRef.binary (.of main_v49) main_call1.v0 main_call1.v1 (cmpf .ogt),
    TRef.nullary main_call1.cst_0 (constant S_ .f32 0x00000000#32),
    TRef.unary main_call1.cst_0 main_call1.v2 (broadcastInDim S196608x10 ![] bcast_S_S196608x10),
    TRef.binary (.of main_v49) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S196608x10 ![] bcast_S_S196608x10),
    TRef.ternary main_call1.v3 main_call1.call0.v1 (.of main_v49) main_call1.call0.v2 select,
    TRef.unary main_call1.call0.v2 main_call1.v5 Host.expm1,
    TRef.nullary main_call1.cst_2 (constant S_ .f32 0x3F800000#32),
    TRef.unary main_call1.cst_2 main_call1.v6 (broadcastInDim S196608x10 ![] bcast_S_S196608x10),
    TRef.binary main_call1.v6 main_call1.v5 main_call1.v7 mulf,
    TRef.ternary main_call1.v1 (.of main_v49) main_call1.v7 main_call1.call1.v0 select,
    nullary main_cst_3 (constant S_ .f32 0x3F8CCCCD#32),
    unary main_cst_3 main_v51 (broadcastInDim S196608x10 ![] bcast_S_S196608x10 : (⟨S_, .f32⟩ : BufTy).Contents (Elt F) → (⟨S196608x10, .f32⟩ : BufTy).Contents (Elt F)),
    binary main_v50 main_v51 main_v52 (addf : (⟨S196608x10, .f32⟩ : BufTy).Contents (Elt F) → (⟨S196608x10, .f32⟩ : BufTy).Contents (Elt F) → (⟨S196608x10, .f32⟩ : BufTy).Contents (Elt F)),
    unary main_arg16 main_v53 ((transpose S128x10 [1, 0] · transposes_S10x128_S128x10_1_0) : (⟨S10x128, .f32⟩ : BufTy).Contents (Elt F) → (⟨S128x10, .f32⟩ : BufTy).Contents (Elt F)),
    binary main_v28 main_v53 main_v54 ((fun l r => Host.dotGeneral dot_S196608x128_S128x10_S196608x10_1_0_0_1_n_n none l r) : (⟨S196608x128, .f32⟩ : BufTy).Contents (Elt F) → (⟨S128x10, .f32⟩ : BufTy).Contents (Elt F) → (⟨S196608x10, .f32⟩ : BufTy).Contents (Elt F)) ]

/-- Statements 61 … 92 of @main: forty-five operations. -/
abbrev ops1 : List (HloOp τ sig (Elt F)) :=
  [ unary main_arg17 main_v55 (broadcastInDim S1x10 ![1] bcast_S10_S1x10_1 : (⟨S10, .f32⟩ : BufTy).Contents (Elt F) → (⟨S1x10, .f32⟩ : BufTy).Contents (Elt F)),
    unary main_v55 main_v56 (broadcastInDim S196608x10 ![0, 1] bcast_S1x10_S196608x10_0_1 : (⟨S1x10, .f32⟩ : BufTy).Contents (Elt F) → (⟨S196608x10, .f32⟩ : BufTy).Contents (Elt F)),
    binary main_v54 main_v56 main_v57 (addf : (⟨S196608x10, .f32⟩ : BufTy).Contents (Elt F) → (⟨S196608x10, .f32⟩ : BufTy).Contents (Elt F) → (⟨S196608x10, .f32⟩ : BufTy).Contents (Elt F)),
    TRef.nullary main_call2.cst (constant S_ .f32 0x00000000#32),
    TRef.unary main_call2.cst main_call2.v0 (broadcastInDim S196608x10 ![] bcast_S_S196608x10),
    TRef.binary (.of main_v57) main_call2.v0 main_call2.v1 (cmpf .ogt),
    TRef.nullary main_call2.cst_0 (constant S_ .f32 0x00000000#32),
    TRef.unary main_call2.cst_0 main_call2.v2 (broadcastInDim S196608x10 ![] bcast_S_S196608x10),
    TRef.binary (.of main_v57) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S196608x10 ![] bcast_S_S196608x10),
    TRef.ternary main_call2.v3 main_call2.call0.v1 (.of main_v57) main_call2.call0.v2 select,
    TRef.unary main_call2.call0.v2 main_call2.v5 Host.expm1,
    TRef.nullary main_call2.cst_2 (constant S_ .f32 0x3F800000#32),
    TRef.unary main_call2.cst_2 main_call2.v6 (broadcastInDim S196608x10 ![] bcast_S_S196608x10),
    TRef.binary main_call2.v6 main_call2.v5 main_call2.v7 mulf,
    TRef.ternary main_call2.v1 (.of main_v57) main_call2.v7 main_call2.call1.v0 select,
    nullary main_cst_4 (constant S_ .f32 0x3F800000#32),
    unary main_cst_4 main_v59 (broadcastInDim S196608x10 ![] bcast_S_S196608x10 : (⟨S_, .f32⟩ : BufTy).Contents (Elt F) → (⟨S196608x10, .f32⟩ : BufTy).Contents (Elt F)),
    binary main_v58 main_v59 main_v60 (addf : (⟨S196608x10, .f32⟩ : BufTy).Contents (Elt F) → (⟨S196608x10, .f32⟩ : BufTy).Contents (Elt F) → (⟨S196608x10, .f32⟩ : BufTy).Contents (Elt F)),
    reshape main_arg1 main_v61 rfl shapeCasts_S384x3_S8x48x3,
    reshape main_arg4 main_v62 rfl shapeCasts_S4096x3_S8x512x3,
    binary main_v61 main_v62 main_v63 ((fun l r => Host.dotGeneral dot_S8x48x3_S8x512x3_S8x48x512_2_2_1_1_0_0 none l r) : (⟨S8x48x3, .f32⟩ : BufTy).Contents (Elt F) → (⟨S8x512x3, .f32⟩ : BufTy).Contents (Elt F) → (⟨S8x48x512, .f32⟩ : BufTy).Contents (Elt F)),
    nullary main_cst_5 (constant S_ .f32 0xC0000000#32),
    unary main_cst_5 main_v64 (broadcastInDim S8x48x512 ![] bcast_S_S8x48x512 : (⟨S_, .f32⟩ : BufTy).Contents (Elt F) → (⟨S8x48x512, .f32⟩ : BufTy).Contents (Elt F)),
    binary main_v64 main_v63 main_v65 (mulf : (⟨S8x48x512, .f32⟩ : BufTy).Contents (Elt F) → (⟨S8x48x512, .f32⟩ : BufTy).Contents (Elt F) → (⟨S8x48x512, .f32⟩ : BufTy).Contents (Elt F)),
    binary main_v62 main_v62 main_v66 (mulf : (⟨S8x512x3, .f32⟩ : BufTy).Contents (Elt F) → (⟨S8x512x3, .f32⟩ : BufTy).Contents (Elt F) → (⟨S8x512x3, .f32⟩ : BufTy).Contents (Elt F)),
    nullary main_cst_6 (constant S_ .f32 0x00000000#32),
    binary main_v66 main_cst_6 main_v67 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    unary main_v67 main_v68 (broadcastInDim S8x1x512 ![0, 2] bcast_S8x512_S8x1x512_0_2 : (⟨S8x512, .f32⟩ : BufTy).Contents (Elt F) → (⟨S8x1x512, .f32⟩ : BufTy).Contents (Elt F)),
    unary main_v68 main_v69 (broadcastInDim S8x48x512 ![0, 1, 2] bcast_S8x1x512_S8x48x512_0_1_2 : (⟨S8x1x512, .f32⟩ : BufTy).Contents (Elt F) → (⟨S8x48x512, .f32⟩ : BufTy).Contents (Elt F)),
    binary main_v65 main_v69 main_v70 (addf : (⟨S8x48x512, .f32⟩ : BufTy).Contents (Elt F) → (⟨S8x48x512, .f32⟩ : BufTy).Contents (Elt F) → (⟨S8x48x512, .f32⟩ : BufTy).Contents (Elt F)),
    binary main_v61 main_v61 main_v71 (mulf : (⟨S8x48x3, .f32⟩ : BufTy).Contents (Elt F) → (⟨S8x48x3, .f32⟩ : BufTy).Contents (Elt F) → (⟨S8x48x3, .f32⟩ : BufTy).Contents (Elt F)),
    nullary main_cst_7 (constant S_ .f32 0x00000000#32),
    binary main_v71 main_cst_7 main_v72 ((fun x v => Host.reduceAdd x v reducesTo_S8x48x3_S8x48_d2 h_S_) : (⟨S8x48x3, .f32⟩ : BufTy).Contents (Elt F) → (⟨S_, .f32⟩ : BufTy).Contents (Elt F) → (⟨S8x48, .f32⟩ : BufTy).Contents (Elt F)),
    unary main_v72 main_v73 (broadcastInDim S8x48x1 ![0, 1] bcast_S8x48_S8x48x1_0_1 : (⟨S8x48, .f32⟩ : BufTy).Contents (Elt F) → (⟨S8x48x1, .f32⟩ : BufTy).Contents (Elt F)),
    unary main_v73 main_v74 (broadcastInDim S8x48x512 ![0, 1, 2] bcast_S8x48x1_S8x48x512_0_1_2 : (⟨S8x48x1, .f32⟩ : BufTy).Contents (Elt F) → (⟨S8x48x512, .f32⟩ : BufTy).Contents (Elt F)),
    binary main_v70 main_v74 main_v75 (addf : (⟨S8x48x512, .f32⟩ : BufTy).Contents (Elt F) → (⟨S8x48x512, .f32⟩ : BufTy).Contents (Elt F) → (⟨S8x48x512, .f32⟩ : BufTy).Contents (Elt F)),
    unary main_v75 main_v76 (Host.sqrt : (⟨S8x48x512, .f32⟩ : BufTy).Contents (Elt F) → (⟨S8x48x512, .f32⟩ : BufTy).Contents (Elt F)),
    reshape main_v76 main_v77 rfl shapeCasts_S8x48x512_S196608,
    unary main_v77 main_v78 (broadcastInDim S196608x1 ![0] bcast_S196608_S196608x1_0 : (⟨S196608, .f32⟩ : BufTy).Contents (Elt F) → (⟨S196608x1, .f32⟩ : BufTy).Contents (Elt F)),
    nullary main_v79 (iotaInDim S8 32 0),
    unary main_v79 main_v80 (broadcastInDim S8x24576 ![0] bcast_S8_S8x24576_0 : (⟨S8, .i32⟩ : BufTy).Contents (Elt F) → (⟨S8x24576, .i32⟩ : BufTy).Contents (Elt F)),
    reshape main_v80 main_v81 rfl shapeCasts_S8x24576_S196608 ]

set_option maxRecDepth 4096 in
theorem part0_eq (c : Dev nD) : main_part0 (F := F) c = seq ops0 := by
  simp only [main_part0, fn_elu.body, fn_elu_1.body, fn_where.body, fn_where_0.body, fn_where_2.body, fn_where_3.body, seq, bind_assoc, pure_bind]
  rfl

set_option maxRecDepth 4096 in
theorem part1_eq (c : Dev nD) : main_part1 (F := F) c = seq ops1 := by
  simp only [main_part1, fn_elu_1.body, fn_where_2.body, fn_where_3.body, seq, bind_assoc, pure_bind]

/-- @main's one hundred and thirty-three operations, in order. -/
abbrev ops : List (HloOp τ sig (Elt F)) := ops0 ++ ops1

/-- @main is the straight line of its two windows. -/
theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨reshape_bufs_sub .., reshape_bufs_sub .., unary_bufs_sub .., unary_bufs_sub .., unary_bufs_sub .., unary_bufs_sub .., binary_bufs_sub .., reshape_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., unary_bufs_sub .., binary_bufs_sub ..⟩

set_option maxRecDepth 8192 in
theorem ops1_sub : (ops1 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., reshape_bufs_sub .., reshape_bufs_sub .., binary_bufs_sub .., nullary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub .., unary_bufs_sub .., reshape_bufs_sub .., unary_bufs_sub .., nullary_bufs_sub .., unary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Every weakly fair execution of @main terminates, each TensorCore buffer at the operations' fold over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The idealized reference read as pure terms: each definition is the composition of the functions the program's
  operations apply, in the program's order, at the extended-real instance. Nothing is proved here; the equations
  that read these terms index by index are in the modules that import this one.
-/
import proofs.«116319_j22119081575276_2_alg».proof.Proof.Gen.ReferenceIdeal
import Idealize.ShloMosaic.PureOps.Ideal

noncomputable section

namespace Cert.ReferenceIdeal.RefTerm

open Idealize.ShloMosaic
open Cert.ReferenceIdeal Cert.ReferenceIdeal.Facts₀

/-- An f32 array of shape `s` at the extended reals. -/
abbrev V (s : Shape) : Type := FVec Ideal s .f32

/-- A scalar constant spread over a shape. -/
def splat (s : Shape) (h : S_.BroadcastsInDim s (![] : Fin 0 → Fin s.rank)) (b : BitVec 32) : V s :=
  broadcastInDim s ![] h (constant (F := Ideal) S_ .f32 b)

/-- The sum of a ligand row and a protein row at every pair: both arrays cut by batch, spread over the other's
    axis, added, and the four axes flattened to rows. -/
def pairSum (a0 : V S384x128) (a3 : V S4096x128) : V S196608x128 :=
  shapeCast S196608x128
    (addf
      (broadcastInDim S8x48x512x128 (![0, 1, 2, 3] : Fin 4 → Fin S8x48x512x128.rank) bcast_S8x48x1x128_S8x48x512x128_0_1_2_3
        (broadcastInDim S8x48x1x128 (![0, 1, 3] : Fin 3 → Fin S8x48x1x128.rank) bcast_S8x48x128_S8x48x1x128_0_1_3
          (shapeCast S8x48x128 a0 shapeCasts_S384x128_S8x48x128)))
      (broadcastInDim S8x48x512x128 (![0, 1, 2, 3] : Fin 4 → Fin S8x48x512x128.rank) bcast_S8x1x512x128_S8x48x512x128_0_1_2_3
        (broadcastInDim S8x1x512x128 (![0, 2, 3] : Fin 3 → Fin S8x1x512x128.rank) bcast_S8x512x128_S8x1x512x128_0_2_3
          (shapeCast S8x512x128 a3 shapeCasts_S4096x128_S8x512x128))))
    shapeCasts_S8x48x512x128_S196608x128

/-- A vector of 128 features spread over the 196608 rows. -/
def rows128 (x : V S128) : V S196608x128 :=
  broadcastInDim S196608x128 (![0, 1] : Fin 2 → Fin S196608x128.rank) bcast_S1x128_S196608x128_0_1
    (broadcastInDim S1x128 (![1] : Fin 1 → Fin S1x128.rank) bcast_S128_S1x128_1 x)

/-- A vector of 10 components spread over the 196608 rows. -/
def rows10 (x : V S10) : V S196608x10 :=
  broadcastInDim S196608x10 (![0, 1] : Fin 2 → Fin S196608x10.rank) bcast_S1x10_S196608x10_0_1
    (broadcastInDim S1x10 (![1] : Fin 1 → Fin S1x10.rank) bcast_S10_S1x10_1 x)

/-- A value per row spread over the row's ten components. -/
def cols10 (x : V S196608) : V S196608x10 :=
  broadcastInDim S196608x10 (![0, 1] : Fin 2 → Fin S196608x10.rank) bcast_S196608x1_S196608x10_0_1
    (broadcastInDim S196608x1 (![0] : Fin 1 → Fin S196608x1.rank) bcast_S196608_S196608x1_0 x)

/-- The linear layer and its batch normalisation, before the activation. -/
def preAct (v7 : V S196608x128) (a6 : V S128x128) (a7 a8 a9 a10 a11 : V S128) : V S196608x128 :=
  addf
    (mulf
      (mulf
        (subf
          (addf
            (Host.dotGeneral dot_S196608x128_S128x128_S196608x128_1_0_0_1_n_n none v7
              (transpose S128x128 [1, 0] a6 transposes_S128x128_S128x128_1_0))
            (rows128 a7))
          (rows128 a10))
        (rows128 (Host.rsqrt (addf a11 (splat S128 bcast_S_S128 0x3727C5AC#32)))))
      (rows128 a8))
    (rows128 a9)

/-- The reference's elu at a shape: where x > 0 the argument, elsewhere one times expm1 of the argument with its
    positive part replaced by zero. -/
def eluAt (s : Shape) (h : S_.BroadcastsInDim s (![] : Fin 0 → Fin s.rank)) (x : V s) : V s :=
  select (cmpf .ogt x (splat s h 0x00000000#32)) x
    (mulf (splat s h 0x3F800000#32)
      (Host.expm1
        (select (cmpf .ogt x (splat s h 0x00000000#32))
          (broadcastInDim s ![] h (id (constant (F := Ideal) S_ .f32 0x00000000#32))) x)))

/-- elu on the hidden rows. -/
def elu128 (x : V S196608x128) : V S196608x128 := eluAt S196608x128 bcast_S_S196608x128 x
/-- elu on a head's rows. -/
def elu10 (x : V S196608x10) : V S196608x10 := eluAt S196608x10 bcast_S_S196608x10 x

/-- A head's pre-activations: the hidden rows times the transposed weight, plus the bias. -/
def headZ (A : V S196608x128) (W : V S10x128) (bias : V S10) : V S196608x10 :=
  addf
    (Host.dotGeneral dot_S196608x128_S128x10_S196608x10_1_0_0_1_n_n none A
      (transpose S128x10 [1, 0] W transposes_S10x128_S128x10_1_0))
    (rows10 bias)

/-- The row maximum as the reference takes it: the reduction from −∞, joined with −∞ once more. -/
def rowMax (z : V S196608x10) : V S196608 :=
  maximumf (splat S196608 bcast_S_S196608 0xFF800000#32)
    (Host.reduce (FloatOps.maximumf (F := Ideal) (φ := .f32)) z (constant (F := Ideal) S_ .f32 0xFF800000#32)
      reducesTo_S196608x10_S196608_d1 h_S_)

/-- The shifted exponentials. -/
def expShift (z : V S196608x10) : V S196608x10 := Host.exp (subf z (cols10 (rowMax z)))

/-- The softmax over a row's ten components. -/
def softmax (z : V S196608x10) : V S196608x10 :=
  Host.divf (expShift z)
    (cols10 (Host.reduceAdd (expShift z) (constant (F := Ideal) S_ .f32 0x00000000#32) reducesTo_S196608x10_S196608_d1 h_S_))

/-- The hidden rows as a function of the arguments. -/
def hidden (a0 : V S384x128) (a3 : V S4096x128) (a6 : V S128x128) (a7 a8 a9 a10 a11 : V S128) : V S196608x128 :=
  elu128 (preAct (pairSum a0 a3) a6 a7 a8 a9 a10 a11)

/-- The mixture weights. -/
def pi (a0 : V S384x128) (a3 : V S4096x128) (a6 : V S128x128) (a7 a8 a9 a10 a11 : V S128) (a12 : V S10x128) (a13 : V S10) :
    V S196608x10 :=
  softmax (headZ (hidden a0 a3 a6 a7 a8 a9 a10 a11) a12 a13)

/-- The widths. -/
def sigma (a0 : V S384x128) (a3 : V S4096x128) (a6 : V S128x128) (a7 a8 a9 a10 a11 : V S128) (a14 : V S10x128) (a15 : V S10) :
    V S196608x10 :=
  addf (elu10 (headZ (hidden a0 a3 a6 a7 a8 a9 a10 a11) a14 a15)) (splat S196608x10 bcast_S_S196608x10 0x3F8CCCCD#32)

/-- The means. -/
def mu (a0 : V S384x128) (a3 : V S4096x128) (a6 : V S128x128) (a7 a8 a9 a10 a11 : V S128) (a16 : V S10x128) (a17 : V S10) :
    V S196608x10 :=
  addf (elu10 (headZ (hidden a0 a3 a6 a7 a8 a9 a10 a11) a16 a17)) (splat S196608x10 bcast_S_S196608x10 0x3F800000#32)

/-- The ligand positions by batch. -/
def lig3 (a1 : V S384x3) : V S8x48x3 := shapeCast S8x48x3 a1 shapeCasts_S384x3_S8x48x3
/-- The protein positions by batch. -/
def pro3 (a4 : V S4096x3) : V S8x512x3 := shapeCast S8x512x3 a4 shapeCasts_S4096x3_S8x512x3

/-- The squared distances by batch, ligand, protein, in the expanded form. -/
def sqDist (v61 : V S8x48x3) (v62 : V S8x512x3) : V S8x48x512 :=
  addf
    (addf
      (mulf (splat S8x48x512 bcast_S_S8x48x512 0xC0000000#32)
        (Host.dotGeneral dot_S8x48x3_S8x512x3_S8x48x512_2_2_1_1_0_0 none v61 v62))
      (broadcastInDim S8x48x512 (![0, 1, 2] : Fin 3 → Fin S8x48x512.rank) bcast_S8x1x512_S8x48x512_0_1_2
        (broadcastInDim S8x1x512 (![0, 2] : Fin 2 → Fin S8x1x512.rank) bcast_S8x512_S8x1x512_0_2
          (Host.reduceAdd (mulf v62 v62) (constant (F := Ideal) S_ .f32 0x00000000#32) reducesTo_S8x512x3_S8x512_d2 h_S_))))
    (broadcastInDim S8x48x512 (![0, 1, 2] : Fin 3 → Fin S8x48x512.rank) bcast_S8x48x1_S8x48x512_0_1_2
      (broadcastInDim S8x48x1 (![0, 1] : Fin 2 → Fin S8x48x1.rank) bcast_S8x48_S8x48x1_0_1
        (Host.reduceAdd (mulf v61 v61) (constant (F := Ideal) S_ .f32 0x00000000#32) reducesTo_S8x48x3_S8x48_d2 h_S_)))

/-- The distances, one column. -/
def dist (a1 : V S384x3) (a4 : V S4096x3) : V S196608x1 :=
  broadcastInDim S196608x1 (![0] : Fin 1 → Fin S196608x1.rank) bcast_S196608_S196608x1_0
    (shapeCast S196608 (Host.sqrt (sqDist (lig3 a1) (pro3 a4))) shapeCasts_S8x48x512_S196608)

/-- The batch of every row. -/
def batch : IVec S196608 32 :=
  shapeCast S196608
    (broadcastInDim S8x24576 (![0] : Fin 1 → Fin S8x24576.rank) bcast_S8_S8x24576_0 (iotaInDim S8 32 0))
    shapeCasts_S8x24576_S196608

end Cert.ReferenceIdeal.RefTerm

end
-- ==== Proof.RefRun.lean ====
/-
  The idealized reference's run, read back: from any memory with zero counters every weakly fair execution of @main
  terminates with each of the five results at its composed term of the argument arrays and the arguments unchanged.
  The operation list is read stretch by stretch — the pairwise sum and the normalised linear layer, elu on the hidden
  rows, the mixture-weight head with its softmax, the width head, the mean head, the distances, the batch indices —:
  a stretch's result is its composed term of the buffers it reads, whatever the contents before it, and a buffer a
  stretch does not write keeps its contents through it.
-/
import proofs.«116319_j22119081575276_2_alg».proof.Proof.RefRunOps
import proofs.«116319_j22119081575276_2_alg».proof.Proof.RefTerm
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The pairwise sum and the normalised linear layer: statements 1 … 29. -/
abbrev sA : List (HloOp τ sig (Elt F)) :=
  [ reshape main_arg0 main_v0 rfl shapeCasts_S384x128_S8x48x128,
    reshape main_arg3 main_v1 rfl shapeCasts_S4096x128_S8x512x128,
    unary main_v0 main_v2 (broadcastInDim S8x48x1x128 ![0, 1, 3] bcast_S8x48x128_S8x48x1x128_0_1_3 : (⟨S8x48x128, .f32⟩ : BufTy).Contents (Elt F) → (⟨S8x48x1x128, .f32⟩ : BufTy).Contents (Elt F)),
    unary main_v1 main_v3 (broadcastInDim S8x1x512x128 ![0, 2, 3] bcast_S8x512x128_S8x1x512x128_0_2_3 : (⟨S8x512x128, .f32⟩ : BufTy).Contents (Elt F) → (⟨S8x1x512x128, .f32⟩ : BufTy).Contents (Elt F)),
    unary main_v2 main_v4 (broadcastInDim S8x48x512x128 ![0, 1, 2, 3] bcast_S8x48x1x128_S8x48x512x128_0_1_2_3 : (⟨S8x48x1x128, .f32⟩ : BufTy).Contents (Elt F) → (⟨S8x48x512x128, .f32⟩ : BufTy).Contents (Elt F)),
    unary main_v3 main_v5 (broadcastInDim S8x48x512x128 ![0, 1, 2, 3] bcast_S8x1x512x128_S8x48x512x128_0_1_2_3 : (⟨S8x1x512x128, .f32⟩ : BufTy).Contents (Elt F) → (⟨S8x48x512x128, .f32⟩ : BufTy).Contents (Elt F)),
    binary main_v4 main_v5 main_v6 (addf : (⟨S8x48x512x128, .f32⟩ : BufTy).Contents (Elt F) → (⟨S8x48x512x128, .f32⟩ : BufTy).Contents (Elt F) → (⟨S8x48x512x128, .f32⟩ : BufTy).Contents (Elt F)),
    reshape main_v6 main_v7 rfl shapeCasts_S8x48x512x128_S196608x128,
    unary main_arg6 main_v8 ((transpose S128x128 [1, 0] · transposes_S128x128_S128x128_1_0) : (⟨S128x128, .f32⟩ : BufTy).Contents (Elt F) → (⟨S128x128, .f32⟩ : BufTy).Contents (Elt F)),
    binary main_v7 main_v8 main_v9 ((fun l r => Host.dotGeneral dot_S196608x128_S128x128_S196608x128_1_0_0_1_n_n none l r) : (⟨S196608x128, .f32⟩ : BufTy).Contents (Elt F) → (⟨S128x128, .f32⟩ : BufTy).Contents (Elt F) → (⟨S196608x128, .f32⟩ : BufTy).Contents (Elt F)),
    unary main_arg7 main_v10 (broadcastInDim S1x128 ![1] bcast_S128_S1x128_1 : (⟨S128, .f32⟩ : BufTy).Contents (Elt F) → (⟨S1x128, .f32⟩ : BufTy).Contents (Elt F)),
    unary main_v10 main_v11 (broadcastInDim S196608x128 ![0, 1] bcast_S1x128_S196608x128_0_1 : (⟨S1x128, .f32⟩ : BufTy).Contents (Elt F) → (⟨S196608x128, .f32⟩ : BufTy).Contents (Elt F)),
    binary main_v9 main_v11 main_v12 (addf : (⟨S196608x128, .f32⟩ : BufTy).Contents (Elt F) → (⟨S196608x128, .f32⟩ : BufTy).Contents (Elt F) → (⟨S196608x128, .f32⟩ : BufTy).Contents (Elt F)),
    unary main_arg10 main_v13 (broadcastInDim S1x128 ![1] bcast_S128_S1x128_1 : (⟨S128, .f32⟩ : BufTy).Contents (Elt F) → (⟨S1x128, .f32⟩ : BufTy).Contents (Elt F)),
    unary main_v13 main_v14 (broadcastInDim S196608x128 ![0, 1] bcast_S1x128_S196608x128_0_1 : (⟨S1x128, .f32⟩ : BufTy).Contents (Elt F) → (⟨S196608x128, .f32⟩ : BufTy).Contents (Elt F)),
    binary main_v12 main_v14 main_v15 (subf : (⟨S196608x128, .f32⟩ : BufTy).Contents (Elt F) → (⟨S196608x128, .f32⟩ : BufTy).Contents (Elt F) → (⟨S196608x128, .f32⟩ : BufTy).Contents (Elt F)),
    nullary main_cst (constant S_ .f32 0x3727C5AC#32),
    unary main_cst main_v16 (broadcastInDim S128 ![] bcast_S_S128 : (⟨S_, .f32⟩ : BufTy).Contents (Elt F) → (⟨S128, .f32⟩ : BufTy).Contents (Elt F)),
    binary main_arg11 main_v16 main_v17 (addf : (⟨S128, .f32⟩ : BufTy).Contents (Elt F) → (⟨S128, .f32⟩ : BufTy).Contents (Elt F) → (⟨S128, .f32⟩ : BufTy).Contents (Elt F)),
    unary main_v17 main_v18 (Host.rsqrt : (⟨S128, .f32⟩ : BufTy).Contents (Elt F) → (⟨S128, .f32⟩ : BufTy).Contents (Elt F)),
    unary main_v18 main_v19 (broadcastInDim S1x128 ![1] bcast_S128_S1x128_1 : (⟨S128, .f32⟩ : BufTy).Contents (Elt F) → (⟨S1x128, .f32⟩ : BufTy).Contents (Elt F)),
    unary main_v19 main_v20 (broadcastInDim S196608x128 ![0, 1] bcast_S1x128_S196608x128_0_1 : (⟨S1x128, .f32⟩ : BufTy).Contents (Elt F) → (⟨S196608x128, .f32⟩ : BufTy).Contents (Elt F)),
    binary main_v15 main_v20 main_v21 (mulf : (⟨S196608x128, .f32⟩ : BufTy).Contents (Elt F) → (⟨S196608x128, .f32⟩ : BufTy).Contents (Elt F) → (⟨S196608x128, .f32⟩ : BufTy).Contents (Elt F)),
    unary main_arg8 main_v22 (broadcastInDim S1x128 ![1] bcast_S128_S1x128_1 : (⟨S128, .f32⟩ : BufTy).Contents (Elt F) → (⟨S1x128, .f32⟩ : BufTy).Contents (Elt F)),
    unary main_v22 main_v23 (broadcastInDim S196608x128 ![0, 1] bcast_S1x128_S196608x128_0_1 : (⟨S1x128, .f32⟩ : BufTy).Contents (Elt F) → (⟨S196608x128, .f32⟩ : BufTy).Contents (Elt F)),
    binary main_v21 main_v23 main_v24 (mulf : (⟨S196608x128, .f32⟩ : BufTy).Contents (Elt F) → (⟨S196608x128, .f32⟩ : BufTy).Contents (Elt F) → (⟨S196608x128, .f32⟩ : BufTy).Contents (Elt F)),
    unary main_arg9 main_v25 (broadcastInDim S1x128 ![1] bcast_S128_S1x128_1 : (⟨S128, .f32⟩ : BufTy).Contents (Elt F) → (⟨S1x128, .f32⟩ : BufTy).Contents (Elt F)),
    unary main_v25 main_v26 (broadcastInDim S196608x128 ![0, 1] bcast_S1x128_S196608x128_0_1 : (⟨S1x128, .f32⟩ : BufTy).Contents (Elt F) → (⟨S196608x128, .f32⟩ : BufTy).Contents (Elt F)),
    binary main_v24 main_v26 main_v27 (addf : (⟨S196608x128, .f32⟩ : BufTy).Contents (Elt F) → (⟨S196608x128, .f32⟩ : BufTy).Contents (Elt F) → (⟨S196608x128, .f32⟩ : BufTy).Contents (Elt F)) ]

/-- elu on the hidden rows: the first call's fifteen operations. -/
abbrev sB : List (HloOp τ sig (Elt F)) :=
  [ TRef.nullary main_call0.cst (constant S_ .f32 0x00000000#32),
    TRef.unary main_call0.cst main_call0.v0 (broadcastInDim S196608x128 ![] bcast_S_S196608x128),
    TRef.binary (.of main_v27) main_call0.v0 main_call0.v1 (cmpf .ogt),
    TRef.nullary main_call0.cst_0 (constant S_ .f32 0x00000000#32),
    TRef.unary main_call0.cst_0 main_call0.v2 (broadcastInDim S196608x128 ![] bcast_S_S196608x128),
    TRef.binary (.of main_v27) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S196608x128 ![] bcast_S_S196608x128),
    TRef.ternary main_call0.v3 main_call0.call0.v1 (.of main_v27) main_call0.call0.v2 select,
    TRef.unary main_call0.call0.v2 main_call0.v5 Host.expm1,
    TRef.nullary main_call0.cst_2 (constant S_ .f32 0x3F800000#32),
    TRef.unary main_call0.cst_2 main_call0.v6 (broadcastInDim S196608x128 ![] bcast_S_S196608x128),
    TRef.binary main_call0.v6 main_call0.v5 main_call0.v7 mulf,
    TRef.ternary main_call0.v1 (.of main_v27) main_call0.v7 main_call0.call1.v0 select ]

/-- The mixture-weight head and its softmax. -/
abbrev sC : List (HloOp τ sig (Elt F)) :=
  [ unary main_arg12 main_v29 ((transpose S128x10 [1, 0] · transposes_S10x128_S128x10_1_0) : (⟨S10x128, .f32⟩ : BufTy).Contents (Elt F) → (⟨S128x10, .f32⟩ : BufTy).Contents (Elt F)),
    binary main_v28 main_v29 main_v30 ((fun l r => Host.dotGeneral dot_S196608x128_S128x10_S196608x10_1_0_0_1_n_n none l r) : (⟨S196608x128, .f32⟩ : BufTy).Contents (Elt F) → (⟨S128x10, .f32⟩ : BufTy).Contents (Elt F) → (⟨S196608x10, .f32⟩ : BufTy).Contents (Elt F)),
    unary main_arg13 main_v31 (broadcastInDim S1x10 ![1] bcast_S10_S1x10_1 : (⟨S10, .f32⟩ : BufTy).Contents (Elt F) → (⟨S1x10, .f32⟩ : BufTy).Contents (Elt F)),
    unary main_v31 main_v32 (broadcastInDim S196608x10 ![0, 1] bcast_S1x10_S196608x10_0_1 : (⟨S1x10, .f32⟩ : BufTy).Contents (Elt F) → (⟨S196608x10, .f32⟩ : BufTy).Contents (Elt F)),
    binary main_v30 main_v32 main_v33 (addf : (⟨S196608x10, .f32⟩ : BufTy).Contents (Elt F) → (⟨S196608x10, .f32⟩ : BufTy).Contents (Elt F) → (⟨S196608x10, .f32⟩ : BufTy).Contents (Elt F)),
    nullary main_cst_0 (constant S_ .f32 0xFF800000#32),
    binary main_v33 main_cst_0 main_v34 ((fun x v => Host.reduce FloatOps.maximumf x v reducesTo_S196608x10_S196608_d1 h_S_) : (⟨S196608x10, .f32⟩ : BufTy).Contents (Elt F) → (⟨S_, .f32⟩ : BufTy).Contents (Elt F) → (⟨S196608, .f32⟩ : BufTy).Contents (Elt F)),
    nullary main_cst_1 (constant S_ .f32 0xFF800000#32),
    unary main_cst_1 main_v35 (broadcastInDim S196608 ![] bcast_S_S196608 : (⟨S_, .f32⟩ : BufTy).Contents (Elt F) → (⟨S196608, .f32⟩ : BufTy).Contents (Elt F)),
    binary main_v35 main_v34 main_v36 (maximumf : (⟨S196608, .f32⟩ : BufTy).Contents (Elt F) → (⟨S196608, .f32⟩ : BufTy).Contents (Elt F) → (⟨S196608, .f32⟩ : BufTy).Contents (Elt F)),
    unary main_v36 main_v37 (broadcastInDim S196608x1 ![0] bcast_S196608_S196608x1_0 : (⟨S196608, .f32⟩ : BufTy).Contents (Elt F) → (⟨S196608x1, .f32⟩ : BufTy).Contents (Elt F)),
    unary main_v37 main_v38 (broadcastInDim S196608x10 ![0, 1] bcast_S196608x1_S196608x10_0_1 : (⟨S196608x1, .f32⟩ : BufTy).Contents (Elt F) → (⟨S196608x10, .f32⟩ : BufTy).Contents (Elt F)),
    binary main_v33 main_v38 main_v39 (subf : (⟨S196608x10, .f32⟩ : BufTy).Contents (Elt F) → (⟨S196608x10, .f32⟩ : BufTy).Contents (Elt F) → (⟨S196608x10, .f32⟩ : BufTy).Contents (Elt F)),
    unary main_v39 main_v40 (Host.exp : (⟨S196608x10, .f32⟩ : BufTy).Contents (Elt F) → (⟨S196608x10, .f32⟩ : BufTy).Contents (Elt F)),
    nullary main_cst_2 (constant S_ .f32 0x00000000#32),
    binary main_v40 main_cst_2 main_v41 ((fun x v => Host.reduceAdd x v reducesTo_S196608x10_S196608_d1 h_S_) : (⟨S196608x10, .f32⟩ : BufTy).Contents (Elt F) → (⟨S_, .f32⟩ : BufTy).Contents (Elt F) → (⟨S196608, .f32⟩ : BufTy).Contents (Elt F)),
    unary main_v41 main_v42 (broadcastInDim S196608x1 ![0] bcast_S196608_S196608x1_0 : (⟨S196608, .f32⟩ : BufTy).Contents (Elt F) → (⟨S196608x1, .f32⟩ : BufTy).Contents (Elt F)),
    unary main_v42 main_v43 (broadcastInDim S196608x10 ![0, 1] bcast_S196608x1_S196608x10_0_1 : (⟨S196608x1, .f32⟩ : BufTy).Contents (Elt F) → (⟨S196608x10, .f32⟩ : BufTy).Contents (Elt F)),
    binary main_v40 main_v43 main_v44 (Host.divf : (⟨S196608x10, .f32⟩ : BufTy).Contents (Elt F) → (⟨S196608x10, .f32⟩ : BufTy).Contents (Elt F) → (⟨S196608x10, .f32⟩ : BufTy).Contents (Elt F)) ]

/-- The width head: its pre-activations, elu (the second call), plus the constant. -/
abbrev sD : List (HloOp τ sig (Elt F)) :=
  [ unary main_arg14 main_v45 ((transpose S128x10 [1, 0] · transposes_S10x128_S128x10_1_0) : (⟨S10x128, .f32⟩ : BufTy).Contents (Elt F) → (⟨S128x10, .f32⟩ : BufTy).Contents (Elt F)),
    binary main_v28 main_v45 main_v46 ((fun l r => Host.dotGeneral dot_S196608x128_S128x10_S196608x10_1_0_0_1_n_n none l r) : (⟨S196608x128, .f32⟩ : BufTy).Contents (Elt F) → (⟨S128x10, .f32⟩ : BufTy).Contents (Elt F) → (⟨S196608x10, .f32⟩ : BufTy).Contents (Elt F)),
    unary main_arg15 main_v47 (broadcastInDim S1x10 ![1] bcast_S10_S1x10_1 : (⟨S10, .f32⟩ : BufTy).Contents (Elt F) → (⟨S1x10, .f32⟩ : BufTy).Contents (Elt F)),
    unary main_v47 main_v48 (broadcastInDim S196608x10 ![0, 1] bcast_S1x10_S196608x10_0_1 : (⟨S1x10, .f32⟩ : BufTy).Contents (Elt F) → (⟨S196608x10, .f32⟩ : BufTy).Contents (Elt F)),
    binary main_v46 main_v48 main_v49 (addf : (⟨S196608x10, .f32⟩ : BufTy).Contents (Elt F) → (⟨S196608x10, .f32⟩ : BufTy).Contents (Elt F) → (⟨S196608x10, .f32⟩ : BufTy).Contents (Elt F)),
    TRef.nullary main_call1.cst (constant S_ .f32 0x00000000#32),
    TRef.unary main_call1.cst main_call1.v0 (broadcastInDim S196608x10 ![] bcast_S_S196608x10),
    TRef.binary (.of main_v49) main_call1.v0 main_call1.v1 (cmpf .ogt),
    TRef.nullary main_call1.cst_0 (constant S_ .f32 0x00000000#32),
    TRef.unary main_call1.cst_0 main_call1.v2 (broadcastInDim S196608x10 ![] bcast_S_S196608x10),
    TRef.binary (.of main_v49) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S196608x10 ![] bcast_S_S196608x10),
    TRef.ternary main_call1.v3 main_call1.call0.v1 (.of main_v49) main_call1.call0.v2 select,
    TRef.unary main_call1.call0.v2 main_call1.v5 Host.expm1,
    TRef.nullary main_call1.cst_2 (constant S_ .f32 0x3F800000#32),
    TRef.unary main_call1.cst_2 main_call1.v6 (broadcastInDim S196608x10 ![] bcast_S_S196608x10),
    TRef.binary main_call1.v6 main_call1.v5 main_call1.v7 mulf,
    TRef.ternary main_call1.v1 (.of main_v49) main_call1.v7 main_call1.call1.v0 select,
    nullary main_cst_3 (constant S_ .f32 0x3F8CCCCD#32),
    unary main_cst_3 main_v51 (broadcastInDim S196608x10 ![] bcast_S_S196608x10 : (⟨S_, .f32⟩ : BufTy).Contents (Elt F) → (⟨S196608x10, .f32⟩ : BufTy).Contents (Elt F)),
    binary main_v50 main_v51 main_v52 (addf : (⟨S196608x10, .f32⟩ : BufTy).Contents (Elt F) → (⟨S196608x10, .f32⟩ : BufTy).Contents (Elt F) → (⟨S196608x10, .f32⟩ : BufTy).Contents (Elt F)) ]

/-- The mean head: its pre-activations, elu (the third call), plus one. -/
abbrev sE : List (HloOp τ sig (Elt F)) :=
  [ unary main_arg16 main_v53 ((transpose S128x10 [1, 0] · transposes_S10x128_S128x10_1_0) : (⟨S10x128, .f32⟩ : BufTy).Contents (Elt F) → (⟨S128x10, .f32⟩ : BufTy).Contents (Elt F)),
    binary main_v28 main_v53 main_v54 ((fun l r => Host.dotGeneral dot_S196608x128_S128x10_S196608x10_1_0_0_1_n_n none l r) : (⟨S196608x128, .f32⟩ : BufTy).Contents (Elt F) → (⟨S128x10, .f32⟩ : BufTy).Contents (Elt F) → (⟨S196608x10, .f32⟩ : BufTy).Contents (Elt F)),
    unary main_arg17 main_v55 (broadcastInDim S1x10 ![1] bcast_S10_S1x10_1 : (⟨S10, .f32⟩ : BufTy).Contents (Elt F) → (⟨S1x10, .f32⟩ : BufTy).Contents (Elt F)),
    unary main_v55 main_v56 (broadcastInDim S196608x10 ![0, 1] bcast_S1x10_S196608x10_0_1 : (⟨S1x10, .f32⟩ : BufTy).Contents (Elt F) → (⟨S196608x10, .f32⟩ : BufTy).Contents (Elt F)),
    binary main_v54 main_v56 main_v57 (addf : (⟨S196608x10, .f32⟩ : BufTy).Contents (Elt F) → (⟨S196608x10, .f32⟩ : BufTy).Contents (Elt F) → (⟨S196608x10, .f32⟩ : BufTy).Contents (Elt F)),
    TRef.nullary main_call2.cst (constant S_ .f32 0x00000000#32),
    TRef.unary main_call2.cst main_call2.v0 (broadcastInDim S196608x10 ![] bcast_S_S196608x10),
    TRef.binary (.of main_v57) main_call2.v0 main_call2.v1 (cmpf .ogt),
    TRef.nullary main_call2.cst_0 (constant S_ .f32 0x00000000#32),
    TRef.unary main_call2.cst_0 main_call2.v2 (broadcastInDim S196608x10 ![] bcast_S_S196608x10),
    TRef.binary (.of main_v57) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S196608x10 ![] bcast_S_S196608x10),
    TRef.ternary main_call2.v3 main_call2.call0.v1 (.of main_v57) main_call2.call0.v2 select,
    TRef.unary main_call2.call0.v2 main_call2.v5 Host.expm1,
    TRef.nullary main_call2.cst_2 (constant S_ .f32 0x3F800000#32),
    TRef.unary main_call2.cst_2 main_call2.v6 (broadcastInDim S196608x10 ![] bcast_S_S196608x10),
    TRef.binary main_call2.v6 main_call2.v5 main_call2.v7 mulf,
    TRef.ternary main_call2.v1 (.of main_v57) main_call2.v7 main_call2.call1.v0 select,
    nullary main_cst_4 (constant S_ .f32 0x3F800000#32),
    unary main_cst_4 main_v59 (broadcastInDim S196608x10 ![] bcast_S_S196608x10 : (⟨S_, .f32⟩ : BufTy).Contents (Elt F) → (⟨S196608x10, .f32⟩ : BufTy).Contents (Elt F)),
    binary main_v58 main_v59 main_v60 (addf : (⟨S196608x10, .f32⟩ : BufTy).Contents (Elt F) → (⟨S196608x10, .f32⟩ : BufTy).Contents (Elt F) → (⟨S196608x10, .f32⟩ : BufTy).Contents (Elt F)) ]

/-- The distances. -/
abbrev sF : List (HloOp τ sig (Elt F)) :=
  [ reshape main_arg1 main_v61 rfl shapeCasts_S384x3_S8x48x3,
    reshape main_arg4 main_v62 rfl shapeCasts_S4096x3_S8x512x3,
    binary main_v61 main_v62 main_v63 ((fun l r => Host.dotGeneral dot_S8x48x3_S8x512x3_S8x48x512_2_2_1_1_0_0 none l r) : (⟨S8x48x3, .f32⟩ : BufTy).Contents (Elt F) → (⟨S8x512x3, .f32⟩ : BufTy).Contents (Elt F) → (⟨S8x48x512, .f32⟩ : BufTy).Contents (Elt F)),
    nullary main_cst_5 (constant S_ .f32 0xC0000000#32),
    unary main_cst_5 main_v64 (broadcastInDim S8x48x512 ![] bcast_S_S8x48x512 : (⟨S_, .f32⟩ : BufTy).Contents (Elt F) → (⟨S8x48x512, .f32⟩ : BufTy).Contents (Elt F)),
    binary main_v64 main_v63 main_v65 (mulf : (⟨S8x48x512, .f32⟩ : BufTy).Contents (Elt F) → (⟨S8x48x512, .f32⟩ : BufTy).Contents (Elt F) → (⟨S8x48x512, .f32⟩ : BufTy).Contents (Elt F)),
    binary main_v62 main_v62 main_v66 (mulf : (⟨S8x512x3, .f32⟩ : BufTy).Contents (Elt F) → (⟨S8x512x3, .f32⟩ : BufTy).Contents (Elt F) → (⟨S8x512x3, .f32⟩ : BufTy).Contents (Elt F)),
    nullary main_cst_6 (constant S_ .f32 0x00000000#32),
    binary main_v66 main_cst_6 main_v67 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    unary main_v67 main_v68 (broadcastInDim S8x1x512 ![0, 2] bcast_S8x512_S8x1x512_0_2 : (⟨S8x512, .f32⟩ : BufTy).Contents (Elt F) → (⟨S8x1x512, .f32⟩ : BufTy).Contents (Elt F)),
    unary main_v68 main_v69 (broadcastInDim S8x48x512 ![0, 1, 2] bcast_S8x1x512_S8x48x512_0_1_2 : (⟨S8x1x512, .f32⟩ : BufTy).Contents (Elt F) → (⟨S8x48x512, .f32⟩ : BufTy).Contents (Elt F)),
    binary main_v65 main_v69 main_v70 (addf : (⟨S8x48x512, .f32⟩ : BufTy).Contents (Elt F) → (⟨S8x48x512, .f32⟩ : BufTy).Contents (Elt F) → (⟨S8x48x512, .f32⟩ : BufTy).Contents (Elt F)),
    binary main_v61 main_v61 main_v71 (mulf : (⟨S8x48x3, .f32⟩ : BufTy).Contents (Elt F) → (⟨S8x48x3, .f32⟩ : BufTy).Contents (Elt F) → (⟨S8x48x3, .f32⟩ : BufTy).Contents (Elt F)),
    nullary main_cst_7 (constant S_ .f32 0x00000000#32),
    binary main_v71 main_cst_7 main_v72 ((fun x v => Host.reduceAdd x v reducesTo_S8x48x3_S8x48_d2 h_S_) : (⟨S8x48x3, .f32⟩ : BufTy).Contents (Elt F) → (⟨S_, .f32⟩ : BufTy).Contents (Elt F) → (⟨S8x48, .f32⟩ : BufTy).Contents (Elt F)),
    unary main_v72 main_v73 (broadcastInDim S8x48x1 ![0, 1] bcast_S8x48_S8x48x1_0_1 : (⟨S8x48, .f32⟩ : BufTy).Contents (Elt F) → (⟨S8x48x1, .f32⟩ : BufTy).Contents (Elt F)),
    unary main_v73 main_v74 (broadcastInDim S8x48x512 ![0, 1, 2] bcast_S8x48x1_S8x48x512_0_1_2 : (⟨S8x48x1, .f32⟩ : BufTy).Contents (Elt F) → (⟨S8x48x512, .f32⟩ : BufTy).Contents (Elt F)),
    binary main_v70 main_v74 main_v75 (addf : (⟨S8x48x512, .f32⟩ : BufTy).Contents (Elt F) → (⟨S8x48x512, .f32⟩ : BufTy).Contents (Elt F) → (⟨S8x48x512, .f32⟩ : BufTy).Contents (Elt F)),
    unary main_v75 main_v76 (Host.sqrt : (⟨S8x48x512, .f32⟩ : BufTy).Contents (Elt F) → (⟨S8x48x512, .f32⟩ : BufTy).Contents (Elt F)),
    reshape main_v76 main_v77 rfl shapeCasts_S8x48x512_S196608,
    unary main_v77 main_v78 (broadcastInDim S196608x1 ![0] bcast_S196608_S196608x1_0 : (⟨S196608, .f32⟩ : BufTy).Contents (Elt F) → (⟨S196608x1, .f32⟩ : BufTy).Contents (Elt F)) ]

/-- The batch indices. -/
abbrev sG : List (HloOp τ sig (Elt F)) :=
  [ nullary main_v79 (iotaInDim S8 32 0),
    unary main_v79 main_v80 (broadcastInDim S8x24576 ![0] bcast_S8_S8x24576_0 : (⟨S8, .i32⟩ : BufTy).Contents (Elt F) → (⟨S8x24576, .i32⟩ : BufTy).Contents (Elt F)),
    reshape main_v80 main_v81 rfl shapeCasts_S8x24576_S196608 ]

theorem ops_split : (ops : List (HloOp τ sig (Elt F))) = sA ++ (sB ++ (sC ++ (sD ++ (sE ++ (sF ++ sG))))) := rfl

/-! ## What a stretch leaves alone -/

/-- An operation that writes one buffer, a member of a list, writes inside the list. -/
theorem writes_sub_of {op : HloOp τ sig (Elt F)} {y : Ref sig .tc} {W : List (Ref sig .tc)}
    (hw : op.writes = {Proc.devRef .tc y}) (hy : y ∈ W) :
    op.writes ⊆ (W.map (Proc.devRef (τ := τ) .tc)).toFinset := by
  rw [hw]; exact Finset.singleton_subset_iff.mpr (List.mem_toFinset.mpr (List.mem_map_of_mem hy))

/-- The buffers that stretch writes. -/
abbrev sA_W : List (Ref sig .tc) := [main_v0, main_v1, main_v2, main_v3, main_v4, main_v5, main_v6, main_v7, main_v8, main_v9, main_v10, main_v11, main_v12, main_v13, main_v14, main_v15, main_cst, main_v16, main_v17, main_v18, main_v19, main_v20, main_v21, main_v22, main_v23, main_v24, main_v25, main_v26, main_v27]
theorem sA_writes : (sA (F := F)).Forall fun op => op.writes ⊆ (sA_W.map (Proc.devRef (τ := τ) .tc)).toFinset :=
  ⟨writes_sub_of (y := main_v0) rfl (by decide),
    writes_sub_of (y := main_v1) rfl (by decide),
    writes_sub_of (y := main_v2) rfl (by decide),
    writes_sub_of (y := main_v3) rfl (by decide),
    writes_sub_of (y := main_v4) rfl (by decide),
    writes_sub_of (y := main_v5) rfl (by decide),
    writes_sub_of (y := main_v6) rfl (by decide),
    writes_sub_of (y := main_v7) rfl (by decide),
    writes_sub_of (y := main_v8) rfl (by decide),
    writes_sub_of (y := main_v9) rfl (by decide),
    writes_sub_of (y := main_v10) rfl (by decide),
    writes_sub_of (y := main_v11) rfl (by decide),
    writes_sub_of (y := main_v12) rfl (by decide),
    writes_sub_of (y := main_v13) rfl (by decide),
    writes_sub_of (y := main_v14) rfl (by decide),
    writes_sub_of (y := main_v15) rfl (by decide),
    writes_sub_of (y := main_cst) rfl (by decide),
    writes_sub_of (y := main_v16) rfl (by decide),
    writes_sub_of (y := main_v17) rfl (by decide),
    writes_sub_of (y := main_v18) rfl (by decide),
    writes_sub_of (y := main_v19) rfl (by decide),
    writes_sub_of (y := main_v20) rfl (by decide),
    writes_sub_of (y := main_v21) rfl (by decide),
    writes_sub_of (y := main_v22) rfl (by decide),
    writes_sub_of (y := main_v23) rfl (by decide),
    writes_sub_of (y := main_v24) rfl (by decide),
    writes_sub_of (y := main_v25) rfl (by decide),
    writes_sub_of (y := main_v26) rfl (by decide),
    writes_sub_of (y := main_v27) rfl (by decide)⟩
/-- A buffer the stretch does not write keeps its contents through it. -/
theorem sA_keep (W : Valuation τ sig (Elt F)) (r : Ref sig .tc) (h : r ∉ sA_W) :
    after (sA (F := F)) W (Proc.devRef .tc r) = W (Proc.devRef .tc r) :=
  after_of_writes_sub sA W sA_writes h

/-- The buffers that stretch writes. -/
abbrev sB_W : List (Ref sig .tc) := [main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]
theorem sB_writes : (sB (F := F)).Forall fun op => op.writes ⊆ (sB_W.map (Proc.devRef (τ := τ) .tc)).toFinset :=
  ⟨writes_sub_of (y := main_call0.cst.ref) rfl (by decide),
    writes_sub_of (y := main_call0.v0.ref) rfl (by decide),
    writes_sub_of (y := main_call0.v1.ref) rfl (by decide),
    writes_sub_of (y := main_call0.cst_0.ref) rfl (by decide),
    writes_sub_of (y := main_call0.v2.ref) rfl (by decide),
    writes_sub_of (y := main_call0.v3.ref) rfl (by decide),
    writes_sub_of (y := main_call0.cst_1.ref) rfl (by decide),
    writes_sub_of (y := main_call0.call0.v0.ref) rfl (by decide),
    writes_sub_of (y := main_call0.call0.v1.ref) rfl (by decide),
    writes_sub_of (y := main_call0.call0.v2.ref) rfl (by decide),
    writes_sub_of (y := main_call0.v5.ref) rfl (by decide),
    writes_sub_of (y := main_call0.cst_2.ref) rfl (by decide),
    writes_sub_of (y := main_call0.v6.ref) rfl (by decide),
    writes_sub_of (y := main_call0.v7.ref) rfl (by decide),
    writes_sub_of (y := main_call0.call1.v0.ref) rfl (by decide)⟩
/-- A buffer the stretch does not write keeps its contents through it. -/
theorem sB_keep (W : Valuation τ sig (Elt F)) (r : Ref sig .tc) (h : r ∉ sB_W) :
    after (sB (F := F)) W (Proc.devRef .tc r) = W (Proc.devRef .tc r) :=
  after_of_writes_sub sB W sB_writes h

/-- The buffers that stretch writes. -/
abbrev sC_W : List (Ref sig .tc) := [main_v29, main_v30, main_v31, main_v32, main_v33, main_cst_0, main_v34, main_cst_1, main_v35, main_v36, main_v37, main_v38, main_v39, main_v40, main_cst_2, main_v41, main_v42, main_v43, main_v44]
theorem sC_writes : (sC (F := F)).Forall fun op => op.writes ⊆ (sC_W.map (Proc.devRef (τ := τ) .tc)).toFinset :=
  ⟨writes_sub_of (y := main_v29) rfl (by decide),
    writes_sub_of (y := main_v30) rfl (by decide),
    writes_sub_of (y := main_v31) rfl (by decide),
    writes_sub_of (y := main_v32) rfl (by decide),
    writes_sub_of (y := main_v33) rfl (by decide),
    writes_sub_of (y := main_cst_0) rfl (by decide),
    writes_sub_of (y := main_v34) rfl (by decide),
    writes_sub_of (y := main_cst_1) rfl (by decide),
    writes_sub_of (y := main_v35) rfl (by decide),
    writes_sub_of (y := main_v36) rfl (by decide),
    writes_sub_of (y := main_v37) rfl (by decide),
    writes_sub_of (y := main_v38) rfl (by decide),
    writes_sub_of (y := main_v39) rfl (by decide),
    writes_sub_of (y := main_v40) rfl (by decide),
    writes_sub_of (y := main_cst_2) rfl (by decide),
    writes_sub_of (y := main_v41) rfl (by decide),
    writes_sub_of (y := main_v42) rfl (by decide),
    writes_sub_of (y := main_v43) rfl (by decide),
    writes_sub_of (y := main_v44) rfl (by decide)⟩
/-- A buffer the stretch does not write keeps its contents through it. -/
theorem sC_keep (W : Valuation τ sig (Elt F)) (r : Ref sig .tc) (h : r ∉ sC_W) :
    after (sC (F := F)) W (Proc.devRef .tc r) = W (Proc.devRef .tc r) :=
  after_of_writes_sub sC W sC_writes h

/-- The buffers that stretch writes. -/
abbrev sD_W : List (Ref sig .tc) := [main_v45, main_v46, main_v47, main_v48, main_v49, main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref, main_cst_3, main_v51, main_v52]
theorem sD_writes : (sD (F := F)).Forall fun op => op.writes ⊆ (sD_W.map (Proc.devRef (τ := τ) .tc)).toFinset :=
  ⟨writes_sub_of (y := main_v45) rfl (by decide),
    writes_sub_of (y := main_v46) rfl (by decide),
    writes_sub_of (y := main_v47) rfl (by decide),
    writes_sub_of (y := main_v48) rfl (by decide),
    writes_sub_of (y := main_v49) rfl (by decide),
    writes_sub_of (y := main_call1.cst.ref) rfl (by decide),
    writes_sub_of (y := main_call1.v0.ref) rfl (by decide),
    writes_sub_of (y := main_call1.v1.ref) rfl (by decide),
    writes_sub_of (y := main_call1.cst_0.ref) rfl (by decide),
    writes_sub_of (y := main_call1.v2.ref) rfl (by decide),
    writes_sub_of (y := main_call1.v3.ref) rfl (by decide),
    writes_sub_of (y := main_call1.cst_1.ref) rfl (by decide),
    writes_sub_of (y := main_call1.call0.v0.ref) rfl (by decide),
    writes_sub_of (y := main_call1.call0.v1.ref) rfl (by decide),
    writes_sub_of (y := main_call1.call0.v2.ref) rfl (by decide),
    writes_sub_of (y := main_call1.v5.ref) rfl (by decide),
    writes_sub_of (y := main_call1.cst_2.ref) rfl (by decide),
    writes_sub_of (y := main_call1.v6.ref) rfl (by decide),
    writes_sub_of (y := main_call1.v7.ref) rfl (by decide),
    writes_sub_of (y := main_call1.call1.v0.ref) rfl (by decide),
    writes_sub_of (y := main_cst_3) rfl (by decide),
    writes_sub_of (y := main_v51) rfl (by decide),
    writes_sub_of (y := main_v52) rfl (by decide)⟩
/-- A buffer the stretch does not write keeps its contents through it. -/
theorem sD_keep (W : Valuation τ sig (Elt F)) (r : Ref sig .tc) (h : r ∉ sD_W) :
    after (sD (F := F)) W (Proc.devRef .tc r) = W (Proc.devRef .tc r) :=
  after_of_writes_sub sD W sD_writes h

/-- The buffers that stretch writes. -/
abbrev sE_W : List (Ref sig .tc) := [main_v53, main_v54, main_v55, main_v56, main_v57, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref, main_cst_4, main_v59, main_v60]
theorem sE_writes : (sE (F := F)).Forall fun op => op.writes ⊆ (sE_W.map (Proc.devRef (τ := τ) .tc)).toFinset :=
  ⟨writes_sub_of (y := main_v53) rfl (by decide),
    writes_sub_of (y := main_v54) rfl (by decide),
    writes_sub_of (y := main_v55) rfl (by decide),
    writes_sub_of (y := main_v56) rfl (by decide),
    writes_sub_of (y := main_v57) rfl (by decide),
    writes_sub_of (y := main_call2.cst.ref) rfl (by decide),
    writes_sub_of (y := main_call2.v0.ref) rfl (by decide),
    writes_sub_of (y := main_call2.v1.ref) rfl (by decide),
    writes_sub_of (y := main_call2.cst_0.ref) rfl (by decide),
    writes_sub_of (y := main_call2.v2.ref) rfl (by decide),
    writes_sub_of (y := main_call2.v3.ref) rfl (by decide),
    writes_sub_of (y := main_call2.cst_1.ref) rfl (by decide),
    writes_sub_of (y := main_call2.call0.v0.ref) rfl (by decide),
    writes_sub_of (y := main_call2.call0.v1.ref) rfl (by decide),
    writes_sub_of (y := main_call2.call0.v2.ref) rfl (by decide),
    writes_sub_of (y := main_call2.v5.ref) rfl (by decide),
    writes_sub_of (y := main_call2.cst_2.ref) rfl (by decide),
    writes_sub_of (y := main_call2.v6.ref) rfl (by decide),
    writes_sub_of (y := main_call2.v7.ref) rfl (by decide),
    writes_sub_of (y := main_call2.call1.v0.ref) rfl (by decide),
    writes_sub_of (y := main_cst_4) rfl (by decide),
    writes_sub_of (y := main_v59) rfl (by decide),
    writes_sub_of (y := main_v60) rfl (by decide)⟩
/-- A buffer the stretch does not write keeps its contents through it. -/
theorem sE_keep (W : Valuation τ sig (Elt F)) (r : Ref sig .tc) (h : r ∉ sE_W) :
    after (sE (F := F)) W (Proc.devRef .tc r) = W (Proc.devRef .tc r) :=
  after_of_writes_sub sE W sE_writes h

/-- The buffers that stretch writes. -/
abbrev sF_W : List (Ref sig .tc) := [main_v61, main_v62, main_v63, main_cst_5, main_v64, main_v65, main_v66, main_cst_6, main_v67, main_v68, main_v69, main_v70, main_v71, main_cst_7, main_v72, main_v73, main_v74, main_v75, main_v76, main_v77, main_v78]
theorem sF_writes : (sF (F := F)).Forall fun op => op.writes ⊆ (sF_W.map (Proc.devRef (τ := τ) .tc)).toFinset :=
  ⟨writes_sub_of (y := main_v61) rfl (by decide),
    writes_sub_of (y := main_v62) rfl (by decide),
    writes_sub_of (y := main_v63) rfl (by decide),
    writes_sub_of (y := main_cst_5) rfl (by decide),
    writes_sub_of (y := main_v64) rfl (by decide),
    writes_sub_of (y := main_v65) rfl (by decide),
    writes_sub_of (y := main_v66) rfl (by decide),
    writes_sub_of (y := main_cst_6) rfl (by decide),
    writes_sub_of (y := main_v67) rfl (by decide),
    writes_sub_of (y := main_v68) rfl (by decide),
    writes_sub_of (y := main_v69) rfl (by decide),
    writes_sub_of (y := main_v70) rfl (by decide),
    writes_sub_of (y := main_v71) rfl (by decide),
    writes_sub_of (y := main_cst_7) rfl (by decide),
    writes_sub_of (y := main_v72) rfl (by decide),
    writes_sub_of (y := main_v73) rfl (by decide),
    writes_sub_of (y := main_v74) rfl (by decide),
    writes_sub_of (y := main_v75) rfl (by decide),
    writes_sub_of (y := main_v76) rfl (by decide),
    writes_sub_of (y := main_v77) rfl (by decide),
    writes_sub_of (y := main_v78) rfl (by decide)⟩
/-- A buffer the stretch does not write keeps its contents through it. -/
theorem sF_keep (W : Valuation τ sig (Elt F)) (r : Ref sig .tc) (h : r ∉ sF_W) :
    after (sF (F := F)) W (Proc.devRef .tc r) = W (Proc.devRef .tc r) :=
  after_of_writes_sub sF W sF_writes h

/-- The buffers that stretch writes. -/
abbrev sG_W : List (Ref sig .tc) := [main_v79, main_v80, main_v81]
theorem sG_writes : (sG (F := F)).Forall fun op => op.writes ⊆ (sG_W.map (Proc.devRef (τ := τ) .tc)).toFinset :=
  ⟨writes_sub_of (y := main_v79) rfl (by decide),
    writes_sub_of (y := main_v80) rfl (by decide),
    writes_sub_of (y := main_v81) rfl (by decide)⟩
/-- A buffer the stretch does not write keeps its contents through it. -/
theorem sG_keep (W : Valuation τ sig (Elt F)) (r : Ref sig .tc) (h : r ∉ sG_W) :
    after (sG (F := F)) W (Proc.devRef .tc r) = W (Proc.devRef .tc r) :=
  after_of_writes_sub sG W sG_writes h

/-! ## What a stretch computes, from any contents -/

local notation "𝕍" => Valuation τ sig (Elt Ideal)

set_option maxHeartbeats 2000000 in
theorem sA_v27 (W : 𝕍) : after (sA (F := Ideal)) W (main_v27 : DevRef τ sig)
    = RefTerm.preAct (RefTerm.pairSum (W (main_arg0 : DevRef τ sig)) (W (main_arg3 : DevRef τ sig))) (W (main_arg6 : DevRef τ sig)) (W (main_arg7 : DevRef τ sig)) (W (main_arg8 : DevRef τ sig)) (W (main_arg9 : DevRef τ sig)) (W (main_arg10 : DevRef τ sig)) (W (main_arg11 : DevRef τ sig)) := by
  simp only [sA]
  after_results_simp
  rfl

set_option maxHeartbeats 2000000 in
theorem sB_v28 (W : 𝕍) : after (sB (F := Ideal)) W (main_v28 : DevRef τ sig) = RefTerm.elu128 (W (main_v27 : DevRef τ sig)) := by
  simp only [sB]
  after_results_simp
  rfl

set_option maxHeartbeats 2000000 in
theorem sC_v44 (W : 𝕍) : after (sC (F := Ideal)) W (main_v44 : DevRef τ sig)
    = RefTerm.softmax (RefTerm.headZ (W (main_v28 : DevRef τ sig)) (W (main_arg12 : DevRef τ sig)) (W (main_arg13 : DevRef τ sig))) := by
  simp only [sC]
  after_results_simp
  rfl

set_option maxHeartbeats 2000000 in
theorem sD_v52 (W : 𝕍) : after (sD (F := Ideal)) W (main_v52 : DevRef τ sig)
    = addf (RefTerm.elu10 (RefTerm.headZ (W (main_v28 : DevRef τ sig)) (W (main_arg14 : DevRef τ sig)) (W (main_arg15 : DevRef τ sig))))
        (RefTerm.splat S196608x10 bcast_S_S196608x10 0x3F8CCCCD#32) := by
  simp only [sD]
  after_results_simp
  rfl

set_option maxHeartbeats 2000000 in
theorem sE_v60 (W : 𝕍) : after (sE (F := Ideal)) W (main_v60 : DevRef τ sig)
    = addf (RefTerm.elu10 (RefTerm.headZ (W (main_v28 : DevRef τ sig)) (W (main_arg16 : DevRef τ sig)) (W (main_arg17 : DevRef τ sig))))
        (RefTerm.splat S196608x10 bcast_S_S196608x10 0x3F800000#32) := by
  simp only [sE]
  after_results_simp
  rfl

set_option maxHeartbeats 2000000 in
theorem sF_v78 (W : 𝕍) : after (sF (F := Ideal)) W (main_v78 : DevRef τ sig)
    = RefTerm.dist (W (main_arg1 : DevRef τ sig)) (W (main_arg4 : DevRef τ sig)) := by
  simp only [sF]
  after_results_simp
  rfl

theorem sG_v81 (W : 𝕍) : after (sG (F := Ideal)) W (main_v81 : DevRef τ sig) = RefTerm.batch := by
  simp only [sG]
  after_results_simp
  rfl

/-! ## The contents after each stretch -/

def valA (V : 𝕍) : 𝕍 := after (sA (F := Ideal)) V
def valB (V : 𝕍) : 𝕍 := after (sB (F := Ideal)) (valA V)
def valC (V : 𝕍) : 𝕍 := after (sC (F := Ideal)) (valB V)
def valD (V : 𝕍) : 𝕍 := after (sD (F := Ideal)) (valC V)
def valE (V : 𝕍) : 𝕍 := after (sE (F := Ideal)) (valD V)
def valF (V : 𝕍) : 𝕍 := after (sF (F := Ideal)) (valE V)
def valG (V : 𝕍) : 𝕍 := after (sG (F := Ideal)) (valF V)

theorem after_ops (V : 𝕍) : after (ops (F := Ideal)) V = valG V := by
  rw [ops_split]; simp only [after_append]; rfl

theorem keepA (V : 𝕍) (r : Ref sig .tc) (hA : r ∉ sA_W) : valA V (Proc.devRef .tc r) = V (Proc.devRef .tc r) :=
  sA_keep V r hA
theorem keepB (V : 𝕍) (r : Ref sig .tc) (hA : r ∉ sA_W) (hB : r ∉ sB_W) : valB V (Proc.devRef .tc r) = V (Proc.devRef .tc r) :=
  (sB_keep _ r hB).trans (keepA V r hA)
theorem keepC (V : 𝕍) (r : Ref sig .tc) (hA : r ∉ sA_W) (hB : r ∉ sB_W) (hC : r ∉ sC_W) :
    valC V (Proc.devRef .tc r) = V (Proc.devRef .tc r) :=
  (sC_keep _ r hC).trans (keepB V r hA hB)
theorem keepD (V : 𝕍) (r : Ref sig .tc) (hA : r ∉ sA_W) (hB : r ∉ sB_W) (hC : r ∉ sC_W) (hD : r ∉ sD_W) :
    valD V (Proc.devRef .tc r) = V (Proc.devRef .tc r) :=
  (sD_keep _ r hD).trans (keepC V r hA hB hC)
theorem keepE (V : 𝕍) (r : Ref sig .tc) (hA : r ∉ sA_W) (hB : r ∉ sB_W) (hC : r ∉ sC_W) (hD : r ∉ sD_W) (hE : r ∉ sE_W) :
    valE V (Proc.devRef .tc r) = V (Proc.devRef .tc r) :=
  (sE_keep _ r hE).trans (keepD V r hA hB hC hD)
/-- A buffer no stretch writes — an argument — holds at the end what it held at the start. -/
theorem keepG (V : 𝕍) (r : Ref sig .tc) (hA : r ∉ sA_W) (hB : r ∉ sB_W) (hC : r ∉ sC_W) (hD : r ∉ sD_W) (hE : r ∉ sE_W)
    (hF : r ∉ sF_W) (hG : r ∉ sG_W) : valG V (Proc.devRef .tc r) = V (Proc.devRef .tc r) :=
  (sG_keep _ r hG).trans ((sF_keep _ r hF).trans (keepE V r hA hB hC hD hE))

theorem valA_v27 (V : 𝕍) : valA V (main_v27 : DevRef τ sig)
    = RefTerm.preAct (RefTerm.pairSum (V (main_arg0 : DevRef τ sig)) (V (main_arg3 : DevRef τ sig))) (V (main_arg6 : DevRef τ sig)) (V (main_arg7 : DevRef τ sig)) (V (main_arg8 : DevRef τ sig)) (V (main_arg9 : DevRef τ sig)) (V (main_arg10 : DevRef τ sig)) (V (main_arg11 : DevRef τ sig)) :=
  sA_v27 V

theorem valB_v28 (V : 𝕍) : valB V (main_v28 : DevRef τ sig) = RefTerm.hidden (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  unfold valB RefTerm.hidden
  rw [sB_v28, valA_v27]
theorem valC_v28 (V : 𝕍) : valC V (main_v28 : DevRef τ sig) = RefTerm.hidden (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) :=
  (sC_keep _ main_v28 (by decide)).trans (valB_v28 V)
theorem valD_v28 (V : 𝕍) : valD V (main_v28 : DevRef τ sig) = RefTerm.hidden (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) :=
  (sD_keep _ main_v28 (by decide)).trans (valC_v28 V)

theorem valC_v44 (V : 𝕍) : valC V (main_v44 : DevRef τ sig)
    = RefTerm.pi (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  unfold valC RefTerm.pi
  rw [sC_v44, valB_v28, keepB V main_arg12 (by decide) (by decide), keepB V main_arg13 (by decide) (by decide)]
theorem valD_v52 (V : 𝕍) : valD V (main_v52 : DevRef τ sig)
    = RefTerm.sigma (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) := by
  unfold valD RefTerm.sigma
  rw [sD_v52, valC_v28, keepC V main_arg14 (by decide) (by decide) (by decide), keepC V main_arg15 (by decide) (by decide) (by decide)]
theorem valE_v60 (V : 𝕍) : valE V (main_v60 : DevRef τ sig)
    = RefTerm.mu (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg16 : DevRef τ sig)) (V (main_arg17 : DevRef τ sig)) := by
  unfold valE RefTerm.mu
  rw [sE_v60, valD_v28, keepD V main_arg16 (by decide) (by decide) (by decide) (by decide), keepD V main_arg17 (by decide) (by decide) (by decide) (by decide)]
theorem valF_v78 (V : 𝕍) : valF V (main_v78 : DevRef τ sig) = RefTerm.dist (V (main_arg1 : DevRef τ sig)) (V (main_arg4 : DevRef τ sig)) := by
  unfold valF
  rw [sF_v78, keepE V main_arg1 (by decide) (by decide) (by decide) (by decide) (by decide), keepE V main_arg4 (by decide) (by decide) (by decide) (by decide) (by decide)]

theorem valG_v44 (V : 𝕍) : valG V (main_v44 : DevRef τ sig)
    = RefTerm.pi (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) :=
  (sG_keep _ main_v44 (by decide)).trans ((sF_keep _ main_v44 (by decide)).trans ((sE_keep _ main_v44 (by decide)).trans
    ((sD_keep _ main_v44 (by decide)).trans (valC_v44 V))))
theorem valG_v52 (V : 𝕍) : valG V (main_v52 : DevRef τ sig)
    = RefTerm.sigma (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) :=
  (sG_keep _ main_v52 (by decide)).trans ((sF_keep _ main_v52 (by decide)).trans ((sE_keep _ main_v52 (by decide)).trans (valD_v52 V)))
theorem valG_v60 (V : 𝕍) : valG V (main_v60 : DevRef τ sig)
    = RefTerm.mu (V (main_arg0 : DevRef τ sig)) (V (main_arg3 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg16 : DevRef τ sig)) (V (main_arg17 : DevRef τ sig)) :=
  (sG_keep _ main_v60 (by decide)).trans ((sF_keep _ main_v60 (by decide)).trans (valE_v60 V))
theorem valG_v78 (V : 𝕍) : valG V (main_v78 : DevRef τ sig) = RefTerm.dist (V (main_arg1 : DevRef τ sig)) (V (main_arg4 : DevRef τ sig)) :=
  (sG_keep _ main_v78 (by decide)).trans (valF_v78 V)
theorem valG_v81 (V : 𝕍) : valG V (main_v81 : DevRef τ sig) = RefTerm.batch := sG_v81 _

/-! ## The run -/

theorem after_at (V : 𝕍) (b : DevRef τ sig) : after (ops (F := Ideal)) V b = valG V b := congrFun (after_ops V) b

/-- On every device, from any memory with zero counters: every weakly fair execution of @main terminates with the
    mixture weights, the widths, the means, the distances and the batch indices at their composed terms of the
    argument arrays, and the arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
        r.2.mem ((c.tc : Thread nD τ).loc main_v44) = RefTerm.pi (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v52) = RefTerm.sigma (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15))
      ∧ r.2.mem ((c.tc : Thread nD τ).loc main_v60) = RefTerm.mu (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg16)) (m ((c.tc : Thread nD τ).loc main_arg17))
      ∧ r.2.mem ((c.tc : Thread nD τ).loc main_v78) = RefTerm.dist (m ((c.tc : Thread nD τ).loc main_arg1)) (m ((c.tc : Thread nD τ).loc main_arg4))
      ∧ r.2.mem ((c.tc : Thread nD τ).loc main_v81) = RefTerm.batch
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v44).trans ((after_at _ _).trans (valG_v44 _)),
      (h c main_v52).trans ((after_at _ _).trans (valG_v52 _)),
      (h c main_v60).trans ((after_at _ _).trans (valG_v60 _)),
      (h c main_v78).trans ((after_at _ _).trans (valG_v78 _)),
      (h c main_v81).trans ((after_at _ _).trans (valG_v81 _)),
      (h c main_arg0).trans ((after_at _ _).trans (keepG _ main_arg0 (by decide) (by decide) (by decide) (by decide) (by decide) (by decide) (by decide))),
      (h c main_arg1).trans ((after_at _ _).trans (keepG _ main_arg1 (by decide) (by decide) (by decide) (by decide) (by decide) (by decide) (by decide))),
      (h c main_arg2).trans ((after_at _ _).trans (keepG _ main_arg2 (by decide) (by decide) (by decide) (by decide) (by decide) (by decide) (by decide))),
      (h c main_arg3).trans ((after_at _ _).trans (keepG _ main_arg3 (by decide) (by decide) (by decide) (by decide) (by decide) (by decide) (by decide))),
      (h c main_arg4).trans ((after_at _ _).trans (keepG _ main_arg4 (by decide) (by decide) (by decide) (by decide) (by decide) (by decide) (by decide))),
      (h c main_arg5).trans ((after_at _ _).trans (keepG _ main_arg5 (by decide) (by decide) (by decide) (by decide) (by decide) (by decide) (by decide))),
      (h c main_arg6).trans ((after_at _ _).trans (keepG _ main_arg6 (by decide) (by decide) (by decide) (by decide) (by decide) (by decide) (by decide))),
      (h c main_arg7).trans ((after_at _ _).trans (keepG _ main_arg7 (by decide) (by decide) (by decide) (by decide) (by decide) (by decide) (by decide))),
      (h c main_arg8).trans ((after_at _ _).trans (keepG _ main_arg8 (by decide) (by decide) (by decide) (by decide) (by decide) (by decide) (by decide))),
      (h c main_arg9).trans ((after_at _ _).trans (keepG _ main_arg9 (by decide) (by decide) (by decide) (by decide) (by decide) (by decide) (by decide))),
      (h c main_arg10).trans ((after_at _ _).trans (keepG _ main_arg10 (by decide) (by decide) (by decide) (by decide) (by decide) (by decide) (by decide))),
      (h c main_arg11).trans ((after_at _ _).trans (keepG _ main_arg11 (by decide) (by decide) (by decide) (by decide) (by decide) (by decide) (by decide))),
      (h c main_arg12).trans ((after_at _ _).trans (keepG _ main_arg12 (by decide) (by decide) (by decide) (by decide) (by decide) (by decide) (by decide))),
      (h c main_arg13).trans ((after_at _ _).trans (keepG _ main_arg13 (by decide) (by decide) (by decide) (by decide) (by decide) (by decide) (by decide))),
      (h c main_arg14).trans ((after_at _ _).trans (keepG _ main_arg14 (by decide) (by decide) (by decide) (by decide) (by decide) (by decide) (by decide))),
      (h c main_arg15).trans ((after_at _ _).trans (keepG _ main_arg15 (by decide) (by decide) (by decide) (by decide) (by decide) (by decide) (by decide))),
      (h c main_arg16).trans ((after_at _ _).trans (keepG _ main_arg16 (by decide) (by decide) (by decide) (by decide) (by decide) (by decide) (by decide))),
      (h c main_arg17).trans ((after_at _ _).trans (keepG _ main_arg17 (by decide) (by decide) (by decide) (by decide) (by decide) (by decide) (by decide)))⟩)
    (run_after m g)

end Cert.ReferenceIdeal.RefRun

end
-- ==== Proof.RefValueBase.lean ====
/-
  The reference's terms read at an index, the layout part: a constant spread over a shape is the constant; a vector
  spread over the rows is the vector at the column; a value per row spread over the ten components is the value at
  the row; and the reference's elu, read at an index, is the specification's elu of the argument there.
-/
import proofs.«116319_j22119081575276_2_alg».proof.Proof.Spec
import proofs.«116319_j22119081575276_2_alg».proof.Proof.RefTerm
import Idealize.ShloMosaic.Lib.ValueIdx
import Idealize.ShloMosaic.Lib.Pipeline.Value
import Idealize.ShloMosaic.PureOps.Ideal.Laws

noncomputable section

namespace Cert.ReferenceIdeal.RefValueBase

open Idealize.ShloMosaic Idealize.ShloMosaic.ValueIdx
open Cert.ReferenceIdeal Cert.ReferenceIdeal.RefTerm

/-- A splat read anywhere is its constant. -/
theorem splat_apply (s : Shape) (h : S_.BroadcastsInDim s (![] : Fin 0 → Fin s.rank)) (b : BitVec 32) (i : s.Idx) :
    splat s h b i = Ideal.ofBits .f32 b := rfl

/-- A 128-vector spread over the rows, at (r, j), is the vector at j. -/
theorem rows128_apply (x : V S128) (r : Fin 196608) (j : Fin 128) : rows128 x (ix2 r j) = x (ix1 j) := by
  unfold rows128
  refine (broadcastInDim_apply _ _ _ (ix2 r j) (ix2 (0 : Fin 1) j) ?_).trans ?_
  · intro a; match a with | ⟨0, _⟩ => rfl | ⟨1, _⟩ => rfl
  · refine broadcastInDim_apply _ _ _ (ix2 (0 : Fin 1) j) (ix1 j) ?_
    intro a; match a with | ⟨0, _⟩ => rfl

/-- A 10-vector spread over the rows, at (r, g), is the vector at g. -/
theorem rows10_apply (x : V S10) (r : Fin 196608) (g : Fin 10) : rows10 x (ix2 r g) = x (ix1 g) := by
  unfold rows10
  refine (broadcastInDim_apply _ _ _ (ix2 r g) (ix2 (0 : Fin 1) g) ?_).trans ?_
  · intro a; match a with | ⟨0, _⟩ => rfl | ⟨1, _⟩ => rfl
  · refine broadcastInDim_apply _ _ _ (ix2 (0 : Fin 1) g) (ix1 g) ?_
    intro a; match a with | ⟨0, _⟩ => rfl

/-- A value per row spread over the ten components, at (r, g), is the value at r. -/
theorem cols10_apply (x : V S196608) (r : Fin 196608) (g : Fin 10) : cols10 x (ix2 r g) = x (ix1 r) := by
  unfold cols10
  refine (broadcastInDim_apply _ _ _ (ix2 r g) (ix2 r (0 : Fin 1)) ?_).trans ?_
  · intro a; match a with | ⟨0, _⟩ => rfl | ⟨1, _⟩ => rfl
  · refine broadcastInDim_apply _ _ _ (ix2 r (0 : Fin 1)) (ix1 r) ?_
    intro a; match a with | ⟨0, _⟩ => rfl

/-- The reference's elu at an index is elu of the argument there. -/
theorem eluAt_apply (s : Shape) (h : S_.BroadcastsInDim s (![] : Fin 0 → Fin s.rank)) (x : V s) (i : s.Idx) :
    eluAt s h x i = Cert.Gmm.elu (x i) := by
  rw [← Cert.Gmm.elu_guarded]
  rfl

end Cert.ReferenceIdeal.RefValueBase

end
-- ==== Proof.RefValuePair.lean ====
/-
  The pair sum read at a row: row (48 b + l) · 512 + t of the flattened sum of the two spread arrays is the ligand
  row 48 b + l plus the protein row 512 b + t, feature by feature.
-/
import proofs.«116319_j22119081575276_2_alg».proof.Proof.SpecRows
import proofs.«116319_j22119081575276_2_alg».proof.Proof.RefValueBase

noncomputable section

namespace Cert.ReferenceIdeal.RefValuePair

open Idealize.ShloMosaic Idealize.ShloMosaic.ValueIdx
open Cert.ReferenceIdeal Cert.ReferenceIdeal.RefTerm Cert.Gmm

/-- The ligand features by batch, at (b, l, k). -/
theorem lig_apply (a0 : V S384x128) (b : Fin 8) (l : Fin 48) (k : Fin 128) :
    shapeCast S8x48x128 a0 Facts₀.shapeCasts_S384x128_S8x48x128 (ix3 b l k) = a0 (ix2 (ligOf b l) k) := by
  refine shapeCast_apply a0 _ (ix3 b l k) (ix2 (ligOf b l) k) ?_
  rw [Shape.rowMajor_val_two, Shape.rowMajor_val_three]
  show (48 * b.val + l.val) * 128 + k.val = (b.val * 48 + l.val) * 128 + k.val
  omega

/-- The protein features by batch, at (b, t, k). -/
theorem pro_apply (a3 : V S4096x128) (b : Fin 8) (t : Fin 512) (k : Fin 128) :
    shapeCast S8x512x128 a3 Facts₀.shapeCasts_S4096x128_S8x512x128 (ix3 b t k) = a3 (ix2 (proOf b t) k) := by
  refine shapeCast_apply a3 _ (ix3 b t k) (ix2 (proOf b t) k) ?_
  rw [Shape.rowMajor_val_two, Shape.rowMajor_val_three]
  show (512 * b.val + t.val) * 128 + k.val = (b.val * 512 + t.val) * 128 + k.val
  omega

/-- The pair sum at row (b, l, t), feature k. -/
theorem pairSum_apply (a0 : V S384x128) (a3 : V S4096x128) (b : Fin 8) (l : Fin 48) (t : Fin 512) (k : Fin 128) :
    pairSum a0 a3 (ix2 (outRow b l t) k) = a0 (ix2 (ligOf b l) k) + a3 (ix2 (proOf b t) k) := by
  unfold pairSum
  refine (shapeCast_apply _ _ (ix2 (outRow b l t) k) (ix4 b l t k) ?_).trans ?_
  · rw [Shape.rowMajor_val_two, Shape.rowMajor_val_four]
    show ((b.val * 48 + l.val) * 512 + t.val) * 128 + k.val = ((48 * b.val + l.val) * 512 + t.val) * 128 + k.val
    omega
  · rw [addf_apply]
    congr 1
    · refine (broadcastInDim_apply _ _ _ (ix4 b l t k) (ix4 b l (0 : Fin 1) k) ?_).trans ?_
      · intro a; match a with | ⟨0, _⟩ => rfl | ⟨1, _⟩ => rfl | ⟨2, _⟩ => rfl | ⟨3, _⟩ => rfl
      · refine (broadcastInDim_apply _ _ _ (ix4 b l (0 : Fin 1) k) (ix3 b l k) ?_).trans (lig_apply a0 b l k)
        intro a; match a with | ⟨0, _⟩ => rfl | ⟨1, _⟩ => rfl | ⟨2, _⟩ => rfl
    · refine (broadcastInDim_apply _ _ _ (ix4 b l t k) (ix4 b (0 : Fin 1) t k) ?_).trans ?_
      · intro a; match a with | ⟨0, _⟩ => rfl | ⟨1, _⟩ => rfl | ⟨2, _⟩ => rfl | ⟨3, _⟩ => rfl
      · refine (broadcastInDim_apply _ _ _ (ix4 b (0 : Fin 1) t k) (ix3 b t k) ?_).trans (pro_apply a3 b t k)
        intro a; match a with | ⟨0, _⟩ => rfl | ⟨1, _⟩ => rfl | ⟨2, _⟩ => rfl

/-- The same at any row r, with the specification's row functions. -/
theorem pairSum_row (a0 : V S384x128) (a3 : V S4096x128) (r : Fin 196608) (k : Fin 128) :
    pairSum a0 a3 (ix2 r k) = a0 (ix2 (ligRow r) k) + a3 (ix2 (proRow r) k) := by
  obtain ⟨b, l, t, rfl⟩ := exists_outRow r
  rw [pairSum_apply, ligRow_outRow, proRow_outRow]

end Cert.ReferenceIdeal.RefValuePair

end
-- ==== Proof.RefValueAct.lean ====
/-
  The hidden row: the linear layer with its batch normalisation, then elu, read at a row whose entries are sums x + y.
-/
import proofs.«116319_j22119081575276_2_alg».proof.Proof.RefValueBase
import Idealize.ShloMosaic.Lib.StackMember

noncomputable section

namespace Cert.ReferenceIdeal.RefValueAct

open Idealize.ShloMosaic Idealize.ShloMosaic.ValueIdx
open Cert.ReferenceIdeal Cert.ReferenceIdeal.RefTerm Cert.ReferenceIdeal.RefValueBase Cert.Gmm

/-- The weight transposed, at (k, j), is the weight at (j, k). -/
theorem transpose128_apply (a6 : V S128x128) (k j : Fin 128) :
    transpose S128x128 [1, 0] a6 Facts₀.transposes_S128x128_S128x128_1_0 (ix2 k j) = a6 (ix2 j k) := by
  refine transpose_apply _ a6 _ (ix2 k j) (ix2 j k) ?_
  intro b; match b with | ⟨0, _⟩ => rfl | ⟨1, _⟩ => rfl

/-- The product of the rows with the transposed weight, at (r, j): the sum over the input features. -/
theorem linear_apply (C : V S196608x128) (a6 : V S128x128) (r : Fin 196608) (j : Fin 128) :
    Host.dotGeneral dot_S196608x128_S128x128_S196608x128_1_0_0_1_n_n none C
      (transpose S128x128 [1, 0] a6 Facts₀.transposes_S128x128_S128x128_1_0) (ix2 r j)
      = ∑ k : Fin 128, C (ix2 r k) * a6 (ix2 j k) := by
  refine (StackMember.dotGeneral_plain_apply (m := 196608) (n := 128) (k := 128) none C
    (transpose S128x128 [1, 0] a6 Facts₀.transposes_S128x128_S128x128_1_0) r j).trans ?_
  exact Finset.sum_congr rfl fun k _ => by rw [transpose128_apply]

/-- The normalised linear layer at (r, j). -/
theorem preAct_apply (C : V S196608x128) (a6 : V S128x128) (a7 a8 a9 a10 a11 : V S128) (r : Fin 196608) (j : Fin 128) :
    preAct C a6 a7 a8 a9 a10 a11 (ix2 r j)
      = ((((∑ k : Fin 128, C (ix2 r k) * a6 (ix2 j k)) + a7 (ix1 j)) - a10 (ix1 j)) * Ideal.rsqrt (a11 (ix1 j) + EPS))
          * a8 (ix1 j) + a9 (ix1 j) := by
  unfold preAct
  rw [addf_apply, mulf_apply, mulf_apply, subf_apply, addf_apply, linear_apply, rows128_apply, rows128_apply,
    rows128_apply, rows128_apply, rows128_apply]
  rfl

/-- The hidden row at (r, j), when row r of the input is x + y. -/
theorem hidden_row (C : V S196608x128) (a6 : V S128x128) (a7 a8 a9 a10 a11 : V S128) (r : Fin 196608)
    (x y : Fin 128 → EReal) (hC : ∀ k : Fin 128, C (ix2 r k) = x k + y k) (j : Fin 128) :
    elu128 (preAct C a6 a7 a8 a9 a10 a11) (ix2 r j)
      = rowAct (fun j k => a6 (ix2 j k)) (fun j => a7 (ix1 j)) (fun j => a10 (ix1 j)) (fun j => a11 (ix1 j))
          (fun j => a8 (ix1 j)) (fun j => a9 (ix1 j)) x y j := by
  unfold elu128
  rw [eluAt_apply, preAct_apply]
  unfold rowAct rowPre
  simp only [hC]

end Cert.ReferenceIdeal.RefValueAct

end
-- ==== Proof.RefValueHead.lean ====
/-
  A head's pre-activations read at a row: the hidden row against each component's weight row, plus the bias.
-/
import proofs.«116319_j22119081575276_2_alg».proof.Proof.RefValueBase
import Idealize.ShloMosaic.Lib.StackMember

noncomputable section

namespace Cert.ReferenceIdeal.RefValueHead

open Idealize.ShloMosaic Idealize.ShloMosaic.ValueIdx
open Cert.ReferenceIdeal Cert.ReferenceIdeal.RefTerm Cert.ReferenceIdeal.RefValueBase Cert.Gmm

/-- A head's weight transposed, at (k, g), is the weight at (g, k). -/
theorem transpose10_apply (W : V S10x128) (k : Fin 128) (g : Fin 10) :
    transpose S128x10 [1, 0] W Facts₀.transposes_S10x128_S128x10_1_0 (ix2 k g) = W (ix2 g k) := by
  refine transpose_apply _ W _ (ix2 k g) (ix2 g k) ?_
  intro b; match b with | ⟨0, _⟩ => rfl | ⟨1, _⟩ => rfl

/-- A head's pre-activation at (r, g). -/
theorem headZ_apply (A : V S196608x128) (W : V S10x128) (bias : V S10) (r : Fin 196608) (g : Fin 10) :
    headZ A W bias (ix2 r g) = logit (fun g k => W (ix2 g k)) (fun g => bias (ix1 g)) (fun k => A (ix2 r k)) g := by
  unfold headZ logit
  rw [addf_apply, rows10_apply]
  congr 1
  refine (StackMember.dotGeneral_plain_apply (m := 196608) (n := 10) (k := 128) none A
    (transpose S128x10 [1, 0] W Facts₀.transposes_S10x128_S128x10_1_0) r g).trans ?_
  exact Finset.sum_congr rfl fun k _ => by rw [transpose10_apply]

end Cert.ReferenceIdeal.RefValueHead

end
-- ==== Proof.RefValueSoft.lean ====
/-
  The softmax read at a row: the shift is the largest of the row's ten components (from −∞, joined with −∞ once more),
  the numerator the shifted exponential, the denominator the sum of the ten.
-/
import proofs.«116319_j22119081575276_2_alg».proof.Proof.RefValueBase
import Idealize.ShloMosaic.Lib.IdealHost
import Idealize.ShloMosaic.PureOps.Reduce

noncomputable section

namespace Cert.ReferenceIdeal.RefValueSoft

open Idealize.ShloMosaic Idealize.ShloMosaic.ValueIdx
open Cert.ReferenceIdeal Cert.ReferenceIdeal.RefTerm Cert.ReferenceIdeal.RefValueBase Cert.Gmm

/-- The component axis dropped, as the fact the row reductions are read through. -/
theorem reduces10 : S196608x10.Reduces [1] S196608 := by decide

/-- Row r with component g put back is (r, g). -/
theorem lift_row (r : Fin 196608) (g : Fin (S196608x10.size 1)) :
    reduces10.lift (ix1 r) g = ix2 r (⟨g.val, g.isLt⟩ : Fin 10) := by
  funext c; apply Fin.ext
  fin_cases c <;> rfl

/-- The row maximum at r is the specification's shift of the row. -/
theorem rowMax_apply (z : V S196608x10) (r : Fin 196608) : rowMax z (ix1 r) = mx (fun g => z (ix2 r g)) := by
  unfold rowMax mx
  rw [maximumf_apply, splat_apply,
    Host.reduce_eq_fold_single (FloatOps.maximumf (F := Ideal) (φ := .f32)) z _ Facts₀.reducesTo_S196608x10_S196608_d1 reduces10
      Facts₀.h_S_ (ix1 r)]
  have hf : (z ∘ reduces10.lift (ix1 r)) = fun g : Fin 10 => z (ix2 r g) := funext fun g => congrArg z (lift_row r g)
  rw [hf]
  rfl

/-- The shifted exponential at (r, g). -/
theorem expShift_apply (z : V S196608x10) (r : Fin 196608) (g : Fin 10) :
    expShift z (ix2 r g) = Ideal.exp (z (ix2 r g) - mx (fun g' => z (ix2 r g'))) := by
  unfold expShift
  show Ideal.exp (subf z (cols10 (rowMax z)) (ix2 r g)) = _
  rw [subf_apply, cols10_apply, rowMax_apply]

/-- The softmax at (r, g). -/
theorem softmax_apply (z : V S196608x10) (r : Fin 196608) (g : Fin 10) :
    softmax z (ix2 r g) = sm (fun g' => z (ix2 r g')) g := by
  unfold softmax sm
  rw [hostDivf_apply, cols10_apply, hostReduceAdd_apply, Ideal.hostReduceAdd_single _ reduces10, expShift_apply]
  congr 1
  have h0 : (constant (F := Ideal) S_ .f32 0x00000000#32) (Shape.Idx.first Facts₀.h_S_) = 0 := Ideal.ofBits_zero_f32
  rw [h0, zero_add]
  refine Finset.sum_congr rfl fun g' _ => ?_
  rw [lift_row, expShift_apply]
  rfl

end Cert.ReferenceIdeal.RefValueSoft

end
-- ==== Proof.RefValueHeads.lean ====
/-
  The three heads of the idealized reference are the specification's: the hidden rows are the specification's hidden
  rows, a head's pre-activations its logits, and the three results the softmax, elu + 1.1 and elu + 1 of them.
-/
import proofs.«116319_j22119081575276_2_alg».proof.Proof.RefValuePair
import proofs.«116319_j22119081575276_2_alg».proof.Proof.RefValueAct
import proofs.«116319_j22119081575276_2_alg».proof.Proof.RefValueHead
import proofs.«116319_j22119081575276_2_alg».proof.Proof.RefValueSoft

noncomputable section

namespace Cert.ReferenceIdeal.RefValueHeads

open Idealize.ShloMosaic Idealize.ShloMosaic.ValueIdx
open Cert.ReferenceIdeal Cert.ReferenceIdeal.RefTerm Cert.ReferenceIdeal.RefValueBase Cert.Gmm

/-- The hidden row of output row r. -/
theorem hidden_apply (a0 : V S384x128) (a3 : V S4096x128) (a6 : V S128x128) (a7 a8 a9 a10 a11 : V S128) (r : Fin 196608)
    (j : Fin 128) : RefTerm.hidden a0 a3 a6 a7 a8 a9 a10 a11 (ix2 r j) = actOf a0 a3 a6 a7 a8 a9 a10 a11 r j := by
  unfold RefTerm.hidden actOf
  exact RefValueAct.hidden_row (pairSum a0 a3) a6 a7 a8 a9 a10 a11 r (fun k => a0 (ix2 (ligRow r) k))
    (fun k => a3 (ix2 (proRow r) k)) (fun k => RefValuePair.pairSum_row a0 a3 r k) j

/-- A head's ten pre-activations at output row r. -/
theorem z_row (a0 : V S384x128) (a3 : V S4096x128) (a6 : V S128x128) (a7 a8 a9 a10 a11 : V S128) (W : V S10x128) (bias : V S10)
    (r : Fin 196608) (g : Fin 10) :
    headZ (RefTerm.hidden a0 a3 a6 a7 a8 a9 a10 a11) W bias (ix2 r g) = zOf a0 a3 a6 a7 a8 a9 a10 a11 W bias r g := by
  rw [RefValueHead.headZ_apply]
  unfold zOf
  have hA : (fun k => RefTerm.hidden a0 a3 a6 a7 a8 a9 a10 a11 (ix2 r k)) = actOf a0 a3 a6 a7 a8 a9 a10 a11 r :=
    funext fun k => hidden_apply a0 a3 a6 a7 a8 a9 a10 a11 r k
  rw [hA]

/-- The mixture weights. -/
theorem pi_eq (a0 : V S384x128) (a3 : V S4096x128) (a6 : V S128x128) (a7 a8 a9 a10 a11 : V S128) (a12 : V S10x128) (a13 : V S10) :
    RefTerm.pi a0 a3 a6 a7 a8 a9 a10 a11 a12 a13 = Gpi a0 a3 a6 a7 a8 a9 a10 a11 a12 a13 := by
  funext i
  obtain ⟨r, g, rfl⟩ : ∃ (r : Fin 196608) (g : Fin 10), i = ix2 r g := ⟨i 0, i 1, eq_ix2 i⟩
  show softmax (headZ (RefTerm.hidden a0 a3 a6 a7 a8 a9 a10 a11) a12 a13) (ix2 r g) = sm (zOf a0 a3 a6 a7 a8 a9 a10 a11 a12 a13 r) g
  rw [RefValueSoft.softmax_apply]
  have hz : (fun g' => headZ (RefTerm.hidden a0 a3 a6 a7 a8 a9 a10 a11) a12 a13 (ix2 r g')) = zOf a0 a3 a6 a7 a8 a9 a10 a11 a12 a13 r :=
    funext fun g' => z_row a0 a3 a6 a7 a8 a9 a10 a11 a12 a13 r g'
  rw [hz]

/-- The widths. -/
theorem sigma_eq (a0 : V S384x128) (a3 : V S4096x128) (a6 : V S128x128) (a7 a8 a9 a10 a11 : V S128) (a14 : V S10x128) (a15 : V S10) :
    RefTerm.sigma a0 a3 a6 a7 a8 a9 a10 a11 a14 a15 = Gsigma a0 a3 a6 a7 a8 a9 a10 a11 a14 a15 := by
  funext i
  obtain ⟨r, g, rfl⟩ : ∃ (r : Fin 196608) (g : Fin 10), i = ix2 r g := ⟨i 0, i 1, eq_ix2 i⟩
  show addf (elu10 (headZ (RefTerm.hidden a0 a3 a6 a7 a8 a9 a10 a11) a14 a15)) (splat S196608x10 Facts₀.bcast_S_S196608x10 0x3F8CCCCD#32) (ix2 r g)
    = elu (zOf a0 a3 a6 a7 a8 a9 a10 a11 a14 a15 r g) + C11
  unfold elu10
  rw [addf_apply, splat_apply, eluAt_apply, z_row]
  rfl

/-- The means. -/
theorem mu_eq (a0 : V S384x128) (a3 : V S4096x128) (a6 : V S128x128) (a7 a8 a9 a10 a11 : V S128) (a16 : V S10x128) (a17 : V S10) :
    RefTerm.mu a0 a3 a6 a7 a8 a9 a10 a11 a16 a17 = Gmu a0 a3 a6 a7 a8 a9 a10 a11 a16 a17 := by
  funext i
  obtain ⟨r, g, rfl⟩ : ∃ (r : Fin 196608) (g : Fin 10), i = ix2 r g := ⟨i 0, i 1, eq_ix2 i⟩
  show addf (elu10 (headZ (RefTerm.hidden a0 a3 a6 a7 a8 a9 a10 a11) a16 a17)) (splat S196608x10 Facts₀.bcast_S_S196608x10 0x3F800000#32) (ix2 r g)
    = elu (zOf a0 a3 a6 a7 a8 a9 a10 a11 a16 a17 r g) + ONE
  unfold elu10
  rw [addf_apply, splat_apply, eluAt_apply, z_row]
  rfl

end Cert.ReferenceIdeal.RefValueHeads

end
-- ==== Proof.RefValueDist.lean ====
/-
  The reference's distances and batch numbers, read entry by entry.

  The positions are cut by batch ([384,3] → [8,48,3], [4096,3] → [8,512,3]); at (b, l, t) the squared distance is
  −2 · Σ_d p d · q d plus Σ_d q d² spread over the ligands plus Σ_d p d² spread over the proteins (each sum started
  from zero), p the ligand's and q the protein's position; the root is taken, (b, l, t) flattened to the row
  (48 b + l) · 512 + t, and a unit axis appended. The batch numbers are an iota over the 8 batches spread over the
  24576 pairs of a batch and flattened.
-/
import proofs.«116319_j22119081575276_2_alg».proof.Proof.Spec
import proofs.«116319_j22119081575276_2_alg».proof.Proof.SpecRows
import proofs.«116319_j22119081575276_2_alg».proof.Proof.RefTerm
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.RefValueDist

open Idealize.ShloMosaic Idealize.ShloMosaic.ValueIdx Cert.ReferenceIdeal Cert.ReferenceIdeal.RefTerm
open Cert.ReferenceIdeal.Facts₀

/-- The batch of row r. -/
theorem batch_apply (r : Fin 196608) : RefTerm.batch (ix1 r) = BitVec.ofNat 32 (r.val / 24576) := by
  have hr := r.isLt
  unfold RefTerm.batch
  refine (shapeCast_apply _ _ (ix1 r) (ix2 (⟨r.val / 24576, by omega⟩ : Fin 8) (⟨r.val % 24576, by omega⟩ : Fin 24576)) ?_).trans ?_
  · rw [Shape.rowMajor_val_two, Shape.rowMajor_val_one]
    show r.val / 24576 * 24576 + r.val % 24576 = r.val
    omega
  · refine (broadcastInDim_apply _ _ _ _ (ix1 (⟨r.val / 24576, by omega⟩ : Fin 8)) ?_).trans rfl
    intro a
    match a with
    | ⟨0, _⟩ => rfl

theorem batch_eq : RefTerm.batch = Cert.Gmm.Gbatch := by
  funext i
  rw [eq_ix1 i]
  exact batch_apply (i 0)

/-- The ligand positions cut by batch: entry (b, l, d) is row 48 b + l. -/
theorem lig3_apply (a1 : V S384x3) (b : Fin 8) (l : Fin 48) (d : Fin 3) :
    lig3 a1 (ix3 b l d) = a1 (ix2 (Cert.Gmm.ligOf b l) d) := by
  unfold lig3
  refine shapeCast_apply _ _ (ix3 b l d) (ix2 (Cert.Gmm.ligOf b l) d) ?_
  rw [Shape.rowMajor_val_two, Shape.rowMajor_val_three]
  show (48 * b.val + l.val) * 3 + d.val = (b.val * 48 + l.val) * 3 + d.val
  omega

/-- The protein positions cut by batch: entry (b, t, d) is row 512 b + t. -/
theorem pro3_apply (a4 : V S4096x3) (b : Fin 8) (t : Fin 512) (d : Fin 3) :
    pro3 a4 (ix3 b t d) = a4 (ix2 (Cert.Gmm.proOf b t) d) := by
  unfold pro3
  refine shapeCast_apply _ _ (ix3 b t d) (ix2 (Cert.Gmm.proOf b t) d) ?_
  rw [Shape.rowMajor_val_two, Shape.rowMajor_val_three]
  show (512 * b.val + t.val) * 3 + d.val = (b.val * 512 + t.val) * 3 + d.val
  omega

/-- A scalar spread over a shape reads the scalar. -/
theorem splat_apply (s : Shape) (h : S_.BroadcastsInDim s (![] : Fin 0 → Fin s.rank)) (w : BitVec 32) (i : s.Idx) :
    splat s h w i = Ideal.ofBits .f32 w := by
  unfold splat
  exact (broadcastInDim_scalar_apply h _ i).trans rfl

/-- The batched inner product of the positions at (b, l, t). -/
theorem dot3_apply (v61 : V S8x48x3) (v62 : V S8x512x3) (b : Fin 8) (l : Fin 48) (t : Fin 512) :
    Host.dotGeneral dot_S8x48x3_S8x512x3_S8x48x512_2_2_1_1_0_0 none v61 v62 (ix3 b l t)
      = ∑ d : Fin 3, v61 (ix3 b l d) * v62 (ix3 b t d) := by
  simp only [Host.dotGeneral]
  rw [Ideal.dotGeneral_apply]
  rw [← Equiv.sum_comp (contrEquiv1 dot_S8x48x3_S8x512x3_S8x48x512_2_2_1_1_0_0 3 rfl rfl).symm]
  refine Finset.sum_congr rfl fun d _ => ?_
  refine congrArg₂ (· * ·) (congrArg v61 ?_) (congrArg v62 ?_)
  · funext a
    apply Fin.ext
    match a with
    | ⟨0, _⟩ => simp [DotDims.lhsIdx, dot_S8x48x3_S8x512x3_S8x48x512_2_2_1_1_0_0]; rfl
    | ⟨1, _⟩ => simp [DotDims.lhsIdx, dot_S8x48x3_S8x512x3_S8x48x512_2_2_1_1_0_0]; rfl
    | ⟨2, _⟩ =>
      exact (DotDims.lhsIdx_val_of_single (d := dot_S8x48x3_S8x512x3_S8x48x512_2_2_1_1_0_0) (cl := 2) rfl _ _).trans
        (contrEquiv1_symm_val dot_S8x48x3_S8x512x3_S8x48x512_2_2_1_1_0_0 3 rfl rfl d)
  · funext a
    apply Fin.ext
    match a with
    | ⟨0, _⟩ => simp [DotDims.rhsIdx, dot_S8x48x3_S8x512x3_S8x48x512_2_2_1_1_0_0]; rfl
    | ⟨1, _⟩ => simp [DotDims.rhsIdx, dot_S8x48x3_S8x512x3_S8x48x512_2_2_1_1_0_0]; rfl
    | ⟨2, _⟩ =>
      exact (DotDims.rhsIdx_val_of_single (d := dot_S8x48x3_S8x512x3_S8x48x512_2_2_1_1_0_0) (cr := 2) rfl _ _).trans
        (contrEquiv1_symm_val dot_S8x48x3_S8x512x3_S8x48x512_2_2_1_1_0_0 3 rfl rfl d)

/-- The protein's squared norm, summed from zero and spread over the ligands, at (b, l, t). -/
theorem normPro_apply (v62 : V S8x512x3) (b : Fin 8) (l : Fin 48) (t : Fin 512) :
    broadcastInDim S8x48x512 (![0, 1, 2] : Fin 3 → Fin S8x48x512.rank) bcast_S8x1x512_S8x48x512_0_1_2
        (broadcastInDim S8x1x512 (![0, 2] : Fin 2 → Fin S8x1x512.rank) bcast_S8x512_S8x1x512_0_2
          (Host.reduceAdd (mulf v62 v62) (constant (F := Ideal) S_ .f32 0x00000000#32) reducesTo_S8x512x3_S8x512_d2 h_S_))
        (ix3 b l t)
      = Cert.Gmm.ZERO + ∑ d : Fin 3, v62 (ix3 b t d) * v62 (ix3 b t d) := by
  refine (broadcastInDim_apply _ _ _ (ix3 b l t) (ix3 b (0 : Fin 1) t) ?_).trans ?_
  · intro a
    match a with
    | ⟨0, _⟩ => rfl
    | ⟨1, _⟩ => rfl
    | ⟨2, _⟩ => rfl
  refine (broadcastInDim_apply _ _ _ (ix3 b (0 : Fin 1) t) (ix2 b t) ?_).trans ?_
  · intro a
    match a with
    | ⟨0, _⟩ => rfl
    | ⟨1, _⟩ => rfl
  rw [hostReduceAdd_apply]
  have hR : S8x512x3.Reduces [2] S8x512 := by decide
  rw [Ideal.hostReduceAdd_single reducesTo_S8x512x3_S8x512_d2 hR]
  refine congrArg₂ (· + ·) rfl (Finset.sum_congr rfl fun d _ => ?_)
  have e : hR.lift (ix2 b t) d = ix3 b t (⟨d.val, d.isLt⟩ : Fin 3) := by
    funext a; apply Fin.ext
    match a with
    | ⟨0, _⟩ => rfl
    | ⟨1, _⟩ => rfl
    | ⟨2, _⟩ => rfl
  show v62 (hR.lift (ix2 b t) d) * v62 (hR.lift (ix2 b t) d) = _
  rw [e]
  rfl

/-- The ligand's squared norm, summed from zero and spread over the proteins, at (b, l, t). -/
theorem normLig_apply (v61 : V S8x48x3) (b : Fin 8) (l : Fin 48) (t : Fin 512) :
    broadcastInDim S8x48x512 (![0, 1, 2] : Fin 3 → Fin S8x48x512.rank) bcast_S8x48x1_S8x48x512_0_1_2
        (broadcastInDim S8x48x1 (![0, 1] : Fin 2 → Fin S8x48x1.rank) bcast_S8x48_S8x48x1_0_1
          (Host.reduceAdd (mulf v61 v61) (constant (F := Ideal) S_ .f32 0x00000000#32) reducesTo_S8x48x3_S8x48_d2 h_S_))
        (ix3 b l t)
      = Cert.Gmm.ZERO + ∑ d : Fin 3, v61 (ix3 b l d) * v61 (ix3 b l d) := by
  refine (broadcastInDim_apply _ _ _ (ix3 b l t) (ix3 b l (0 : Fin 1)) ?_).trans ?_
  · intro a
    match a with
    | ⟨0, _⟩ => rfl
    | ⟨1, _⟩ => rfl
    | ⟨2, _⟩ => rfl
  refine (broadcastInDim_apply _ _ _ (ix3 b l (0 : Fin 1)) (ix2 b l) ?_).trans ?_
  · intro a
    match a with
    | ⟨0, _⟩ => rfl
    | ⟨1, _⟩ => rfl
  rw [hostReduceAdd_apply]
  have hR : S8x48x3.Reduces [2] S8x48 := by decide
  rw [Ideal.hostReduceAdd_single reducesTo_S8x48x3_S8x48_d2 hR]
  refine congrArg₂ (· + ·) rfl (Finset.sum_congr rfl fun d _ => ?_)
  have e : hR.lift (ix2 b l) d = ix3 b l (⟨d.val, d.isLt⟩ : Fin 3) := by
    funext a; apply Fin.ext
    match a with
    | ⟨0, _⟩ => rfl
    | ⟨1, _⟩ => rfl
    | ⟨2, _⟩ => rfl
  show v61 (hR.lift (ix2 b l) d) * v61 (hR.lift (ix2 b l) d) = _
  rw [e]
  rfl

/-- The squared distance at (b, l, t), in the expanded form. -/
theorem sqDist_apply (v61 : V S8x48x3) (v62 : V S8x512x3) (b : Fin 8) (l : Fin 48) (t : Fin 512) :
    sqDist v61 v62 (ix3 b l t)
      = ((Cert.Gmm.MTWO * ∑ d : Fin 3, v61 (ix3 b l d) * v62 (ix3 b t d))
          + (Cert.Gmm.ZERO + ∑ d : Fin 3, v62 (ix3 b t d) * v62 (ix3 b t d)))
        + (Cert.Gmm.ZERO + ∑ d : Fin 3, v61 (ix3 b l d) * v61 (ix3 b l d)) := by
  unfold sqDist
  rw [addf_apply, addf_apply, mulf_apply, splat_apply, dot3_apply, normPro_apply, normLig_apply]
  rfl

/-- The distance of output row (b, l, t), in the expanded form. -/
theorem dist_apply (a1 : V S384x3) (a4 : V S4096x3) (b : Fin 8) (l : Fin 48) (t : Fin 512) :
    RefTerm.dist a1 a4 (ix2 (Cert.Gmm.outRow b l t) (0 : Fin 1))
      = Cert.Gmm.distExpanded (fun d => a1 (ix2 (Cert.Gmm.ligOf b l) d)) (fun d => a4 (ix2 (Cert.Gmm.proOf b t) d)) := by
  unfold RefTerm.dist
  refine (broadcastInDim_apply _ _ _ (ix2 (Cert.Gmm.outRow b l t) (0 : Fin 1)) (ix1 (Cert.Gmm.outRow b l t)) ?_).trans ?_
  · intro a
    match a with
    | ⟨0, _⟩ => rfl
  refine (shapeCast_apply _ _ (ix1 (Cert.Gmm.outRow b l t)) (ix3 b l t) ?_).trans ?_
  · rw [Shape.rowMajor_val_three, Shape.rowMajor_val_one]
    show (b.val * 48 + l.val) * 512 + t.val = (48 * b.val + l.val) * 512 + t.val
    omega
  show FloatOps.hostUnary .sqrt (sqDist (lig3 a1) (pro3 a4) (ix3 b l t)) = _
  rw [Ideal.hostUnary_sqrt_def, sqDist_apply]
  simp only [lig3_apply, pro3_apply]
  rfl

theorem dist_eq (a1 : V S384x3) (a4 : V S4096x3) : RefTerm.dist a1 a4 = Cert.Gmm.GdistExpanded a1 a4 := by
  funext i
  obtain ⟨b, l, t, hr⟩ := Cert.Gmm.exists_outRow (i 0)
  have hi : i = ix2 (Cert.Gmm.outRow b l t) (0 : Fin 1) := by
    funext a
    match a with
    | ⟨0, _⟩ => exact hr
    | ⟨1, _⟩ => exact Subsingleton.elim (α := Fin 1) _ _
  subst hi
  refine (dist_apply a1 a4 b l t).trans ?_
  show _ = Cert.Gmm.distExpanded (fun d => a1 (ix2 (Cert.Gmm.ligRow (Cert.Gmm.outRow b l t)) d))
    (fun d => a4 (ix2 (Cert.Gmm.proRow (Cert.Gmm.outRow b l t)) d))
  rw [Cert.Gmm.ligRow_outRow, Cert.Gmm.proRow_outRow]

end Cert.ReferenceIdeal.RefValueDist

end
-- ==== Proof.RefValue.lean ====
/-
  The idealized reference's program, run whole: every result array as a function of the argument arrays (the
  distances in the expanded form −2·⟨p,q⟩ + |q|² + |p|² the reference computes them in).
-/
import proofs.«116319_j22119081575276_2_alg».proof.Proof.Spec
import proofs.«116319_j22119081575276_2_alg».proof.Proof.Gen.ReferenceIdeal
import Idealize.ShloMosaic.Lib.ValueIdx
import Idealize.ShloMosaic.Lib.ValueLayout
import Idealize.ShloMosaic.Lib.Pipeline.Value
import Idealize.ShloMosaic.Lib.StableHlo.Run
import proofs.«116319_j22119081575276_2_alg».proof.Proof.RefRun
import proofs.«116319_j22119081575276_2_alg».proof.Proof.RefValueHeads
import proofs.«116319_j22119081575276_2_alg».proof.Proof.RefValueDist

set_option maxRecDepth 16384

noncomputable section

namespace Cert.ReferenceIdeal.Value

open Idealize.ShloMosaic Idealize.ShloMosaic.TcCoe Idealize.SL.Sem Idealize.ShloMosaic.ValueIdx

theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v44) = Cert.Gmm.Gpi (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_v52) = Cert.Gmm.Gsigma (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_v60) = Cert.Gmm.Gmu (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))
      ∧ r.2.mem ((c.tc : Thread Cert.ReferenceIdeal.nD Cert.ReferenceIdeal.τ).loc Cert.ReferenceIdeal.main_v78) = Cert.Gmm.GdistExpanded (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_v81) = Cert.Gmm.Gbatch
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)) := by
  refine (θ_run (Cert.ReferenceIdeal.defs (F := Ideal)) _ _).mono (fun r h c => ?_) (Cert.ReferenceIdeal.RefRun.run m g)
  obtain ⟨h1, h2, h3, h4, h5, hrest⟩ := h c
  exact ⟨h1.trans (Cert.ReferenceIdeal.RefValueHeads.pi_eq _ _ _ _ _ _ _ _ _ _),
    h2.trans (Cert.ReferenceIdeal.RefValueHeads.sigma_eq _ _ _ _ _ _ _ _ _ _),
    h3.trans (Cert.ReferenceIdeal.RefValueHeads.mu_eq _ _ _ _ _ _ _ _ _ _),
    h4.trans (Cert.ReferenceIdeal.RefValueDist.dist_eq _ _), h5.trans Cert.ReferenceIdeal.RefValueDist.batch_eq, hrest⟩

end Cert.ReferenceIdeal.Value

end
-- ==== Proof.lean ====
/-
  A ligand–protein mixture-density head: for every pair (ligand atom, protein residue) of the same complex, a
  batch-normalised linear layer with elu on the sum of the two feature rows, three ten-component heads (softmax
  weights, widths elu + 1.1, means elu + 1), the pair's Euclidean distance, and the pair's batch number.

  The kernel computes a [48, 128] tile of pairs at each of 8 × 4 grid points, with the component axis leading, and
  re-lays the results to rows (b, l, t); the reference computes all 196608 rows at once. Read over the extended reals
  both compute, at every entry, the same function of the argument arrays (Proof/Spec.lean): every step of the heads is
  the same operation on both sides up to commuting a product, rounding to bf16 being the identity there; only the
  distance differs, Σ_d (p d − q d)² against −2·⟨p,q⟩ + |q|² + |p|², and these agree because the precondition makes
  the positions real numbers (Proof/Finite.lean). The kernel's side is Proof/KernelValue.lean, the reference's
  Proof/RefValue.lean. The ideal pass rewrote nothing, so there is nothing to preserve.
-/
import proofs.«116319_j22119081575276_2_alg».proof.Defs
import proofs.«116319_j22119081575276_2_alg».proof.Proof.Gen.Kernel.Frame
import proofs.«116319_j22119081575276_2_alg».proof.Proof.Gen.KernelIdeal.Frame
import proofs.«116319_j22119081575276_2_alg».proof.Proof.Gen.ReferenceIdeal
import proofs.«116319_j22119081575276_2_alg».proof.Proof.Gen.Pre_finite_inputs
import proofs.«116319_j22119081575276_2_alg».proof.Proof.Finite
import proofs.«116319_j22119081575276_2_alg».proof.Proof.KernelValue
import proofs.«116319_j22119081575276_2_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its value run with the results dropped. -/
theorem frame_referenceIdeal : Cert.frame_ReferenceIdeal := fun m ρ _ =>
  (θ_run (Cert.ReferenceIdeal.defs (F := Ideal)) _ _).mono (fun _ h c => (h c).2.2.2.2.2) (Cert.ReferenceIdeal.Value.run m ρ)

/-- From memories agreeing on the arguments both programs end with every result at the same function of the arguments;
    the distances meet through the expansion of the square, the positions being real under the precondition. -/
theorem algebraic : Cert.algebraic_KernelIdeal_ReferenceIdeal := by
  intro m ρ m' ρ' hpre hagree
  refine ⟨_, _, _, _, _, Cert.KernelIdeal.Value.run m ρ, ?_⟩
  refine (θ_run (Cert.ReferenceIdeal.defs (F := Ideal)) _ _).mono (fun r h c => ?_) (Cert.ReferenceIdeal.Value.run m' ρ')
  obtain ⟨e0, e1, e2, e3, e4, e5, e6, e7, e8, e9, e10, e11, e12, e13, e14, e15, e16, e17⟩ := hagree c
  obtain ⟨h1, h2, h3, h4, h5, hargs⟩ := h c
  have hfin := Cert.Gmm.finite_positions _ _ _ _ _ _ _ _ _ _ _ _ _ _ _ _ _ _ (hpre c)
  refine ⟨?_, ?_, ?_, ?_, h5, hargs⟩
  · rw [h1, e0, e3, e6, e7, e8, e9, e10, e11, e12, e13]
  · rw [h2, e0, e3, e6, e7, e8, e9, e10, e11, e14, e15]
  · rw [h3, e0, e3, e6, e7, e8, e9, e10, e11, e16, e17]
  · rw [h4, e1, e4]
    exact Cert.Gmm.GdistExpanded_eq_Gdist _ _ hfin.1 hfin.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
